-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)) →
    ∃ (v0 : (c : Dev Cert.KernelIdeal.nD) → Buf (Elt Ideal) ((c.tc : Thread Cert.KernelIdeal.nD Cert.KernelIdeal.τ).loc Cert.KernelIdeal.main_v82)) (v1 : (c : Dev Cert.KernelIdeal.nD) → Buf (Elt Ideal) ((c.tc : Thread Cert.KernelIdeal.nD Cert.KernelIdeal.τ).loc Cert.KernelIdeal.main_v40)) (v2 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v82) = v0 c
          ∧ r.2.mem ((c.tc : Thread Cert.KernelIdeal.nD Cert.KernelIdeal.τ).loc Cert.KernelIdeal.main_v40) = v1 c
          ∧ r.2.mem ((c.tc : Thread Cert.KernelIdeal.nD Cert.KernelIdeal.τ).loc Cert.KernelIdeal.main_v52) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v172) = v0 c
          ∧ r.2.mem ((c.tc : Thread Cert.ReferenceIdeal.nD Cert.ReferenceIdeal.τ).loc Cert.ReferenceIdeal.main_v85) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x128 : S_.BroadcastsInDim S64x128 (![] : Fin 0 → Fin S64x128.rank)
  reducesTo_S64x128_S_d0_1 : S64x128.ReducesTo [0, 1] S_

variable [Facts]

def fn_part2 {F : FTy → Type} [FloatOps F] (main_arg9 : FVec F S128x128 .f32) (main_arg10 : FVec F S128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  main_v43

def fn_part1 {F : FTy → Type} [FloatOps F] (main_arg6 : FVec F S64 .f32) (main_arg7 : FVec F S64x128 .f32) (main_arg8 : FVec F S128 .f32) (main_arg9 : FVec F S128x128 .f32) (main_arg10 : FVec F S128 .f32) (main_v13 : IVec S_ 1) (main_v16 : IVec S128x64 1) : IVec S_ 1 :=
  let main_c_5 : IVec S_ 1 := constantI S_ 1 1#1
  let main_v17 : IVec S_ 1 := (fun x v => Host.reduce IntOp.andi x v reducesTo_S128x64_S_d0_1 h_S_) main_v16 main_c_5
  let main_v18 : IVec S_ 1 := andi main_v13 main_v17
  let main_v19 : FVec F S64 .f32 := Host.absf main_arg6
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64x128 .f32 := Host.absf main_arg7
  let main_cst_8 : FVec F S_ .f32 := constant S_ .f32 0x7F800000#32
  let main_v25 : FVec F S64x128 .f32 := broadcastInDim S64x128 ![] bcast_S_S64x128 main_cst_8
  let main_v26 : IVec S64x128 1 := cmpf .olt main_v24 main_v25
  let main_c_9 : IVec S_ 1 := constantI S_ 1 1#1
  let main_v27 : IVec S_ 1 := (fun x v => Host.reduce IntOp.andi x v reducesTo_S64x128_S_d0_1 h_S_) main_v26 main_c_9
  let main_v28 : IVec S_ 1 := andi main_v23 main_v27
  let main_v29 : FVec F S128 .f32 := Host.absf main_arg8
  let main_cst_10 : FVec F S_ .f32 := constant S_ .f32 0x7F800000#32
  let main_v30 : FVec F S128 .f32 := broadcastInDim S128 ![] bcast_S_S128 main_cst_10
  let main_v31 : IVec S128 1 := cmpf .olt main_v29 main_v30
  let main_c_11 : IVec S_ 1 := constantI S_ 1 1#1
  let main_v32 : IVec S_ 1 := (fun x v => Host.reduce IntOp.andi x v reducesTo_S128_S_d0 h_S_) main_v31 main_c_11
  let main_v33 : IVec S_ 1 := andi main_v28 main_v32
  fn_part2 (F := F) main_arg9 main_arg10 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x64 .f32) (main_arg6 : FVec F S64 .f32) (main_arg7 : FVec F S64x128 .f32) (main_arg8 : FVec F S128 .f32) (main_arg9 : FVec F S128x128 .f32) (main_arg10 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x64 .f32 := Host.absf main_arg5
  let main_cst_4 : FVec F S_ .f32 := constant S_ .f32 0x7F800000#32
  let main_v15 : FVec F S128x64 .f32 := broadcastInDim S128x64 ![] bcast_S_S128x64 main_cst_4
  let main_v16 : IVec S128x64 1 := cmpf .olt main_v14 main_v15
  fn_part1 (F := F) main_arg6 main_arg7 main_arg8 main_arg9 main_arg10 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S50000x1 : Shape := ⟨2, ![50000, 1]⟩
abbrev S2000x128 : Shape := ⟨2, ![2000, 128]⟩
abbrev S2000x1 : Shape := ⟨2, ![2000, 1]⟩
abbrev S800000x128 : Shape := ⟨2, ![800000, 128]⟩
abbrev S1x128 : Shape := ⟨2, ![1, 128]⟩
abbrev S50000x64 : Shape := ⟨2, ![50000, 64]⟩
abbrev S2000x64 : Shape := ⟨2, ![2000, 64]⟩
abbrev S800000x64 : Shape := ⟨2, ![800000, 64]⟩
abbrev S1x64 : Shape := ⟨2, ![1, 64]⟩
abbrev S512 : Shape := ⟨1, ![512]⟩
abbrev S512x64 : Shape := ⟨2, ![512, 64]⟩
abbrev S512x1 : Shape := ⟨2, ![512, 1]⟩

abbrev nBuf : Space → Nat
  | .hbm => 113
  | .vmem => 64
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x64, .f32⟩
  | .hbm, ⟨6, _⟩ => ⟨S64, .f32⟩
  | .hbm, ⟨7, _⟩ => ⟨S64x128, .f32⟩
  | .hbm, ⟨8, _⟩ => ⟨S128, .f32⟩
  | .hbm, ⟨9, _⟩ => ⟨S128x128, .f32⟩
  | .hbm, ⟨10, _⟩ => ⟨S128, .f32⟩
  | .hbm, ⟨11, _⟩ => ⟨S1x800000, .i32⟩
  | .hbm, ⟨12, _⟩ => ⟨S800000, .i32⟩
  | .hbm, ⟨13, _⟩ => ⟨S1x800000, .i32⟩
  | .hbm, ⟨14, _⟩ => ⟨S800000, .i32⟩
  | .hbm, ⟨15, _⟩ => ⟨S_, .f32⟩
  | .hbm, ⟨16, _⟩ => ⟨S800000, .f32⟩
  | .hbm, ⟨17, _⟩ => ⟨S_, .f32⟩
  | .hbm, ⟨18, _⟩ => ⟨S50000, .f32⟩
  | .hbm, ⟨19, _⟩ => ⟨S800000x1, .i32⟩
  | .hbm, ⟨20, _⟩ => ⟨S50000, .f32⟩
  | .hbm, ⟨21, _⟩ => ⟨S_, .f32⟩
  | .hbm, ⟨22, _⟩ => ⟨S50000, .f32⟩
  | .hbm, ⟨23, _⟩ => ⟨S50000, .f32⟩
  | .hbm, ⟨24, _⟩ => ⟨S50000, .f32⟩
  | .hbm, ⟨25, _⟩ => ⟨S50000x1, .f32⟩
  | .hbm, ⟨26, _⟩ => ⟨S50000x128, .bf16⟩
  | .hbm, ⟨27, _⟩ => ⟨S_, .i32⟩
  | .hbm, ⟨28, _⟩ => ⟨S800000, .i32⟩
  | .hbm, ⟨29, _⟩ => ⟨S800000, .i1⟩
  | .hbm, ⟨30, _⟩ => ⟨S_, .i32⟩
  | .hbm, ⟨31, _⟩ => ⟨S800000, .i32⟩
  | .hbm, ⟨32, _⟩ => ⟨S800000, .i32⟩
  | .hbm, ⟨33, _⟩ => ⟨S800000, .i32⟩
  | .hbm, ⟨34, _⟩ => ⟨S800000x1, .i32⟩
  | .hbm, ⟨35, _⟩ => ⟨S800000x128, .bf16⟩
  | .hbm, ⟨36, _⟩ => ⟨S800000x128, .f32⟩
  | .hbm, ⟨37, _⟩ => ⟨S_, .f32⟩
  | .hbm, ⟨38, _⟩ => ⟨S50000x128, .f32⟩
  | .hbm, ⟨39, _⟩ => ⟨S800000x1, .i32⟩
  | .hbm, ⟨40, _⟩ => ⟨S50000x128, .f32⟩
  | .hbm, ⟨41, _⟩ => ⟨S1x128, .f32⟩
  | .hbm, ⟨42, _⟩ => ⟨S50000x128, .f32⟩
  | .hbm, ⟨43, _⟩ => ⟨S50000x1, .f32⟩
  | .hbm, ⟨44, _⟩ => ⟨S50000x64, .bf16⟩
  | .hbm, ⟨45, _⟩ => ⟨S_, .i32⟩
  | .hbm, ⟨46, _⟩ => ⟨S800000, .i32⟩
  | .hbm, ⟨47, _⟩ => ⟨S800000, .i1⟩
  | .hbm, ⟨48, _⟩ => ⟨S_, .i32⟩
  | .hbm, ⟨49, _⟩ => ⟨S800000, .i32⟩
  | .hbm, ⟨50, _⟩ => ⟨S800000, .i32⟩
  | .hbm, ⟨51, _⟩ => ⟨S800000, .i32⟩
  | .hbm, ⟨52, _⟩ => ⟨S800000x1, .i32⟩
  | .hbm, ⟨53, _⟩ => ⟨S800000x64, .bf16⟩
  | .hbm, ⟨54, _⟩ => ⟨S800000x64, .f32⟩
  | .hbm, ⟨55, _⟩ => ⟨S_, .f32⟩
  | .hbm, ⟨56, _⟩ => ⟨S50000x64, .f32⟩
  | .hbm, ⟨57, _⟩ => ⟨S800000x1, .i32⟩
  | .hbm, ⟨58, _⟩ => ⟨S50000x64, .f32⟩
  | .hbm, ⟨59, _⟩ => ⟨S1x64, .f32⟩
  | .hbm, ⟨60, _⟩ => ⟨S50000x64, .f32⟩
  | .hbm, ⟨61, _⟩ => ⟨S_, .f32⟩
  | .hbm, ⟨62, _⟩ => ⟨S50000, .f32⟩
  | .hbm, ⟨63, _⟩ => ⟨S_, .f32⟩
  | .hbm, ⟨64, _⟩ => ⟨S512, .f32⟩
  | .hbm, ⟨65, _⟩ => ⟨S50000x1, .i32⟩
  | .hbm, ⟨66, _⟩ => ⟨S512, .f32⟩
  | .hbm, ⟨67, _⟩ => ⟨S_, .f32⟩
  | .hbm, ⟨68, _⟩ => ⟨S512x64, .f32⟩
  | .hbm, ⟨69, _⟩ => ⟨S50000x1, .i32⟩
  | .hbm, ⟨70, _⟩ => ⟨S512x64, .f32⟩
  | .hbm, ⟨71, _⟩ => ⟨S_, .f32⟩
  | .hbm, ⟨72, _⟩ => ⟨S512, .f32⟩
  | .hbm, ⟨73, _⟩ => ⟨S512, .f32⟩
  | .hbm, ⟨74, _⟩ => ⟨S512x1, .f32⟩
  | .hbm, ⟨75, _⟩ => ⟨S512x64, .f32⟩
  | .hbm, ⟨76, _⟩ => ⟨S512x64, .f32⟩
  | .hbm, ⟨77, _⟩ => ⟨S50000x1, .f32⟩
  | .hbm, ⟨78, _⟩ => ⟨S50000x128, .bf16⟩
  | .hbm, ⟨79, _⟩ => ⟨S_, .i32⟩
  | .hbm, ⟨80, _⟩ => ⟨S800000, .i32⟩
  | .hbm, ⟨81, _⟩ => ⟨S800000, .i1⟩
  | .hbm, ⟨82, _⟩ => ⟨S_, .i32⟩
  | .hbm, ⟨83, _⟩ => ⟨S800000, .i32⟩
  | .hbm, ⟨84, _⟩ => ⟨S800000, .i32⟩
  | .hbm, ⟨85, _⟩ => ⟨S800000, .i32⟩
  | .hbm, ⟨86, _⟩ => ⟨S800000x1, .i32⟩
  | .hbm, ⟨87, _⟩ => ⟨S800000x128, .bf16⟩
  | .hbm, ⟨88, _⟩ => ⟨S800000x128, .f32⟩
  | .hbm, ⟨89, _⟩ => ⟨S_, .f32⟩
  | .hbm, ⟨90, _⟩ => ⟨S50000x128, .f32⟩
  | .hbm, ⟨91, _⟩ => ⟨S800000x1, .i32⟩
  | .hbm, ⟨92, _⟩ => ⟨S50000x128, .f32⟩
  | .hbm, ⟨93, _⟩ => ⟨S1x128, .f32⟩
  | .hbm, ⟨94, _⟩ => ⟨S50000x128, .f32⟩
  | .hbm, ⟨95, _⟩ => ⟨S50000x1, .f32⟩
  | .hbm, ⟨96, _⟩ => ⟨S50000x128, .bf16⟩
  | .hbm, ⟨97, _⟩ => ⟨S_, .i32⟩
  | .hbm, ⟨98, _⟩ => ⟨S800000, .i32⟩
  | .hbm, ⟨99, _⟩ => ⟨S800000, .i1⟩
  | .hbm, ⟨100, _⟩ => ⟨S_, .i32⟩
  | .hbm, ⟨101, _⟩ => ⟨S800000, .i32⟩
  | .hbm, ⟨102, _⟩ => ⟨S800000, .i32⟩
  | .hbm, ⟨103, _⟩ => ⟨S800000, .i32⟩
  | .hbm, ⟨104, _⟩ => ⟨S800000x1, .i32⟩
  | .hbm, ⟨105, _⟩ => ⟨S800000x128, .bf16⟩
  | .hbm, ⟨106, _⟩ => ⟨S800000x128, .f32⟩
  | .hbm, ⟨107, _⟩ => ⟨S_, .f32⟩
  | .hbm, ⟨108, _⟩ => ⟨S50000x128, .f32⟩
  | .hbm, ⟨109, _⟩ => ⟨S800000x1, .i32⟩
  | .hbm, ⟨110, _⟩ => ⟨S50000x128, .f32⟩
  | .hbm, ⟨111, _⟩ => ⟨S1x128, .f32⟩
  | .hbm, ⟨112, _⟩ => ⟨S50000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x128, .bf16⟩
  | .local _ .vmem, ⟨10, _⟩ => ⟨S2000x128, .bf16⟩
  | .local _ .vmem, ⟨11, _⟩ => ⟨S2000x1, .f32⟩
  | .local _ .vmem, ⟨12, _⟩ => ⟨S2000x1, .f32⟩
  | .local _ .vmem, ⟨13, _⟩ => ⟨S1x128, .f32⟩
  | .local _ .vmem, ⟨14, _⟩ => ⟨S2000x128, .f32⟩
  | .local _ .vmem, ⟨15, _⟩ => ⟨S2000x128, .f32⟩
  | .local _ .vmem, ⟨16, _⟩ => ⟨S2000x128, .f32⟩
  | .local _ .vmem, ⟨17, _⟩ => ⟨S2000x128, .f32⟩
  | .local _ .vmem, ⟨18, _⟩ => ⟨S128x64, .f32⟩
  | .local _ .vmem, ⟨19, _⟩ => ⟨S2000x1, .f32⟩
  | .local _ .vmem, ⟨20, _⟩ => ⟨S2000x1, .f32⟩
  | .local _ .vmem, ⟨21, _⟩ => ⟨S2000x64, .bf16⟩
  | .local _ .vmem, ⟨22, _⟩ => ⟨S2000x64, .bf16⟩
  | .local _ .vmem, ⟨23, _⟩ => ⟨S2000x64, .f32⟩
  | .local _ .vmem, ⟨24, _⟩ => ⟨S2000x64, .f32⟩
  | .local _ .vmem, ⟨25, _⟩ => ⟨S2000x64, .bf16⟩
  | .local _ .vmem, ⟨26, _⟩ => ⟨S2000x64, .bf16⟩
  | .local _ .vmem, ⟨27, _⟩ => ⟨S2000x1, .f32⟩
  | .local _ .vmem, ⟨28, _⟩ => ⟨S2000x1, .f32⟩
  | .local _ .vmem, ⟨29, _⟩ => ⟨S1x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x128, .f32⟩
  | .local _ .vmem, ⟨35, _⟩ => ⟨S2000x1, .f32⟩
  | .local _ .vmem, ⟨36, _⟩ => ⟨S2000x1, .f32⟩
  | .local _ .vmem, ⟨37, _⟩ => ⟨S2000x128, .bf16⟩
  | .local _ .vmem, ⟨38, _⟩ => ⟨S2000x128, .bf16⟩
  | .local _ .vmem, ⟨39, _⟩ => ⟨S2000x128, .f32⟩
  | .local _ .vmem, ⟨40, _⟩ => ⟨S2000x128, .f32⟩
  | .local _ .vmem, ⟨41, _⟩ => ⟨S2000x128, .bf16⟩
  | .local _ .vmem, ⟨42, _⟩ => ⟨S2000x128, .bf16⟩
  | .local _ .vmem, ⟨43, _⟩ => ⟨S2000x1, .f32⟩
  | .local _ .vmem, ⟨44, _⟩ => ⟨S2000x1, .f32⟩
  | .local _ .vmem, ⟨45, _⟩ => ⟨S1x128, .f32⟩
  | .local _ .vmem, ⟨46, _⟩ => ⟨S2000x128, .f32⟩
  | .local _ .vmem, ⟨47, _⟩ => ⟨S2000x128, .f32⟩
  | .local _ .vmem, ⟨48, _⟩ => ⟨S2000x128, .f32⟩
  | .local _ .vmem, ⟨49, _⟩ => ⟨S2000x128, .f32⟩
  | .local _ .vmem, ⟨50, _⟩ => ⟨S128x128, .f32⟩
  | .local _ .vmem, ⟨51, _⟩ => ⟨S2000x1, .f32⟩
  | .local _ .vmem, ⟨52, _⟩ => ⟨S2000x1, .f32⟩
  | .local _ .vmem, ⟨53, _⟩ => ⟨S2000x128, .bf16⟩
  | .local _ .vmem, ⟨54, _⟩ => ⟨S2000x128, .bf16⟩
  | .local _ .vmem, ⟨55, _⟩ => ⟨S2000x128, .f32⟩
  | .local _ .vmem, ⟨56, _⟩ => ⟨S2000x128, .f32⟩
  | .local _ .vmem, ⟨57, _⟩ => ⟨S2000x128, .bf16⟩
  | .local _ .vmem, ⟨58, _⟩ => ⟨S2000x128, .bf16⟩
  | .local _ .vmem, ⟨59, _⟩ => ⟨S2000x1, .f32⟩
  | .local _ .vmem, ⟨60, _⟩ => ⟨S2000x1, .f32⟩
  | .local _ .vmem, ⟨61, _⟩ => ⟨S1x128, .f32⟩
  | .local _ .vmem, ⟨62, _⟩ => ⟨S2000x128, .f32⟩
  | .local _ .vmem, ⟨63, _⟩ => ⟨S2000x128, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | _, _ => false

abbrev semScoped : Fin 0 → Bool
  | ⟨_, h⟩ => absurd h (Nat.not_lt_zero _)

abbrev dmaSemScoped : Fin 64 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | _ => false

abbrev sig : RefSig :=
  ofTc nBuf bufTy 0 64 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c : Ref sig .tc := ⟨.hbm, 27, rfl⟩
abbrev main_v13 : Ref sig .tc := ⟨.hbm, 28, rfl⟩
abbrev main_v14 : Ref sig .tc := ⟨.hbm, 29, rfl⟩
abbrev main_c_2 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_3 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_4 : Ref sig .tc := ⟨.hbm, 45, rfl⟩
abbrev main_v28 : Ref sig .tc := ⟨.hbm, 46, rfl⟩
abbrev main_v29 : Ref sig .tc := ⟨.hbm, 47, rfl⟩
abbrev main_c_5 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_cst_6 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_cst_8 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_9 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_10 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_c_11 : Ref sig .tc := ⟨.hbm, 79, rfl⟩
abbrev main_v55 : Ref sig .tc := ⟨.hbm, 80, rfl⟩
abbrev main_v56 : Ref sig .tc := ⟨.hbm, 81, rfl⟩
abbrev main_c_12 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_13 : Ref sig .tc := ⟨.hbm, 89, rfl⟩
abbrev main_v63 : Ref sig .tc := ⟨.hbm, 90, rfl⟩
abbrev main_v64 : Ref sig .tc := ⟨.hbm, 91, rfl⟩
abbrev main_v65 : Ref sig .tc := ⟨.hbm, 92, rfl⟩
abbrev main_v66 : Ref sig .tc := ⟨.hbm, 93, rfl⟩
abbrev main_v67 : Ref sig .tc := ⟨.hbm, 94, rfl⟩
abbrev main_v68 : Ref sig .tc := ⟨.hbm, 95, rfl⟩
abbrev main_v69 : Ref sig .tc := ⟨.hbm, 96, rfl⟩
abbrev main_c_14 : Ref sig .tc := ⟨.hbm, 97, rfl⟩
abbrev main_v70 : Ref sig .tc := ⟨.hbm, 98, rfl⟩
abbrev main_v71 : Ref sig .tc := ⟨.hbm, 99, rfl⟩
abbrev main_c_15 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_v75 : Ref sig .tc := ⟨.hbm, 104, rfl⟩
abbrev main_v76 : Ref sig .tc := ⟨.hbm, 105, rfl⟩
abbrev main_v77 : Ref sig .tc := ⟨.hbm, 106, rfl⟩
abbrev main_cst_16 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg2_1 : Ref sig .tc := ⟨.vmem, 12, rfl⟩
abbrev cc1_stg3_0 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc3_stg0_0 : Ref sig .tc := ⟨.vmem, 23, rfl⟩
abbrev cc3_stg0_1 : Ref sig .tc := ⟨.vmem, 24, rfl⟩
abbrev cc3_stg1_0 : Ref sig .tc := ⟨.vmem, 25, rfl⟩
abbrev cc3_stg1_1 : Ref sig .tc := ⟨.vmem, 26, rfl⟩
abbrev cc3_stg2_0 : Ref sig .tc := ⟨.vmem, 27, rfl⟩
abbrev cc3_stg2_1 : Ref sig .tc := ⟨.vmem, 28, rfl⟩
abbrev cc3_stg3_0 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg2_0 : Ref sig .tc := ⟨.vmem, 35, rfl⟩
abbrev cc4_stg2_1 : Ref sig .tc := ⟨.vmem, 36, rfl⟩
abbrev cc4_stg3_0 : Ref sig .tc := ⟨.vmem, 37, rfl⟩
abbrev cc4_stg3_1 : Ref sig .tc := ⟨.vmem, 38, rfl⟩
abbrev cc5_stg0_0 : Ref sig .tc := ⟨.vmem, 39, rfl⟩
abbrev cc5_stg0_1 : Ref sig .tc := ⟨.vmem, 40, rfl⟩
abbrev cc5_stg1_0 : Ref sig .tc := ⟨.vmem, 41, rfl⟩
abbrev cc5_stg1_1 : Ref sig .tc := ⟨.vmem, 42, rfl⟩
abbrev cc5_stg2_0 : Ref sig .tc := ⟨.vmem, 43, rfl⟩
abbrev cc5_stg2_1 : Ref sig .tc := ⟨.vmem, 44, rfl⟩
abbrev cc5_stg3_0 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg2_0 : Ref sig .tc := ⟨.vmem, 51, rfl⟩
abbrev cc6_stg2_1 : Ref sig .tc := ⟨.vmem, 52, rfl⟩
abbrev cc6_stg3_0 : Ref sig .tc := ⟨.vmem, 53, rfl⟩
abbrev cc6_stg3_1 : Ref sig .tc := ⟨.vmem, 54, rfl⟩
abbrev cc7_stg0_0 : Ref sig .tc := ⟨.vmem, 55, rfl⟩
abbrev cc7_stg0_1 : Ref sig .tc := ⟨.vmem, 56, rfl⟩
abbrev cc7_stg1_0 : Ref sig .tc := ⟨.vmem, 57, rfl⟩
abbrev cc7_stg1_1 : Ref sig .tc := ⟨.vmem, 58, rfl⟩
abbrev cc7_stg2_0 : Ref sig .tc := ⟨.vmem, 59, rfl⟩
abbrev cc7_stg2_1 : Ref sig .tc := ⟨.vmem, 60, rfl⟩
abbrev cc7_stg3_0 : Ref sig .tc := ⟨.vmem, 61, rfl⟩
abbrev cc7_stg4_0 : Ref sig .tc := ⟨.vmem, 62, rfl⟩
abbrev cc7_stg4_1 : Ref sig .tc := ⟨.vmem, 63, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem2_1 : DmaSem sig := 12
abbrev cc1_sem3_0 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem2_0 : DmaSem sig := 19
abbrev cc2_sem2_1 : DmaSem sig := 20
abbrev cc2_sem3_0 : DmaSem sig := 21
abbrev cc2_sem3_1 : DmaSem sig := 22
abbrev cc3_sem0_0 : DmaSem sig := 23
abbrev cc3_sem0_1 : DmaSem sig := 24
abbrev cc3_sem1_0 : DmaSem sig := 25
abbrev cc3_sem1_1 : DmaSem sig := 26
abbrev cc3_sem2_0 : DmaSem sig := 27
abbrev cc3_sem2_1 : DmaSem sig := 28
abbrev cc3_sem3_0 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem2_0 : DmaSem sig := 35
abbrev cc4_sem2_1 : DmaSem sig := 36
abbrev cc4_sem3_0 : DmaSem sig := 37
abbrev cc4_sem3_1 : DmaSem sig := 38
abbrev cc5_sem0_0 : DmaSem sig := 39
abbrev cc5_sem0_1 : DmaSem sig := 40
abbrev cc5_sem1_0 : DmaSem sig := 41
abbrev cc5_sem1_1 : DmaSem sig := 42
abbrev cc5_sem2_0 : DmaSem sig := 43
abbrev cc5_sem2_1 : DmaSem sig := 44
abbrev cc5_sem3_0 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem2_0 : DmaSem sig := 51
abbrev cc6_sem2_1 : DmaSem sig := 52
abbrev cc6_sem3_0 : DmaSem sig := 53
abbrev cc6_sem3_1 : DmaSem sig := 54
abbrev cc7_sem0_0 : DmaSem sig := 55
abbrev cc7_sem0_1 : DmaSem sig := 56
abbrev cc7_sem1_0 : DmaSem sig := 57
abbrev cc7_sem1_1 : DmaSem sig := 58
abbrev cc7_sem2_0 : DmaSem sig := 59
abbrev cc7_sem2_1 : DmaSem sig := 60
abbrev cc7_sem3_0 : DmaSem sig := 61
abbrev cc7_sem4_0 : DmaSem sig := 62
abbrev cc7_sem4_1 : DmaSem sig := 63

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S2000x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x64 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S2000x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S2000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S64x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x128 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x128 .bf16 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x1 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S1x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x128 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S2000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S128x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 2 → Memref sig .tc .vmem S2000x1 .f32 := fun | 0 => Memref.whole cc6_stg2_0 | 1 => Memref.whole cc6_stg2_1 | ⟨_ + 2, h⟩ => absurd h (Nat.not_lt.2 (Nat.le_add_left _ _))
abbrev sem6_2 : Fin 2 → DmaSem sig := fun | 0 => cc6_sem2_0 | 1 => cc6_sem2_1 | ⟨_ + 2, h⟩ => absurd h (Nat.not_lt.2 (Nat.le_add_left _ _))
abbrev reads6_2 : Fin grid6.rank → Bool := ![true]

abbrev stage6_3 : Fin 2 → Memref sig .tc .vmem S2000x128 .bf16 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_2 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_3 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_4 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 2 → Memref sig .tc .vmem S2000x128 .bf16 := fun | 0 => Memref.whole cc7_stg1_0 | 1 => Memref.whole cc7_stg1_1 | ⟨_ + 2, h⟩ => absurd h (Nat.not_lt.2 (Nat.le_add_left _ _))
abbrev sem7_1 : Fin 2 → DmaSem sig := fun | 0 => cc7_sem1_0 | 1 => cc7_sem1_1 | ⟨_ + 2, h⟩ => absurd h (Nat.not_lt.2 (Nat.le_add_left _ _))
abbrev reads7_1 : Fin grid7.rank → Bool := ![true]

abbrev stage7_2 : Fin 2 → Memref sig .tc .vmem S2000x1 .f32 := fun | 0 => Memref.whole cc7_stg2_0 | 1 => Memref.whole cc7_stg2_1 | ⟨_ + 2, h⟩ => absurd h (Nat.not_lt.2 (Nat.le_add_left _ _))
abbrev sem7_2 : Fin 2 → DmaSem sig := fun | 0 => cc7_sem2_0 | 1 => cc7_sem2_1 | ⟨_ + 2, h⟩ => absurd h (Nat.not_lt.2 (Nat.le_add_left _ _))
abbrev reads7_2 : Fin grid7.rank → Bool := ![true]

abbrev stage7_3 : Fin 1 → Memref sig .tc .vmem S1x128 .f32 := fun | 0 => Memref.whole cc7_stg3_0 | ⟨_ + 1, h⟩ => absurd h (Nat.not_lt.2 (Nat.le_add_left _ _))
abbrev sem7_3 : Fin 1 → DmaSem sig := fun | 0 => cc7_sem3_0 | ⟨_ + 1, h⟩ => absurd h (Nat.not_lt.2 (Nat.le_add_left _ _))
abbrev reads7_3 : Fin grid7.rank → Bool := ![false]

abbrev stage7_4 : Fin 2 → Memref sig .tc .vmem S2000x128 .f32 := fun | 0 => Memref.whole cc7_stg4_0 | 1 => Memref.whole cc7_stg4_1 | ⟨_ + 2, h⟩ => absurd h (Nat.not_lt.2 (Nat.le_add_left _ _))
abbrev sem7_4 : Fin 2 → DmaSem sig := fun | 0 => cc7_sem4_0 | 1 => cc7_sem4_1 | ⟨_ + 2, h⟩ => absurd h (Nat.not_lt.2 (Nat.le_add_left _ _))
abbrev reads7_4 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x64_S128x64_0_0 : ∀ a, (![0, 0] : Fin 2 → Nat) a + S128x64.size a ≤ S128x64.size a
  h_S128x64 : 0 < S128x64.numel
  broadcasts_S2000x1_S2000x64 : S2000x1.Broadcasts S2000x64
  inb_S2000x64_S2000x64_0_0 : ∀ a, (![0, 0] : Fin 2 → Nat) a + S2000x64.size a ≤ S2000x64.size a
  h_S2000x64 : 0 < S2000x64.numel
  packedbf16_S2000x64_S2000x64_0_0 : (Rect.unit (s := S2000x64) ![0, 0] S2000x64.size inb_S2000x64_S2000x64_0_0).PackedRows (EltTy.packing .bf16)
  bcast_S_S50000x64 : S_.BroadcastsInDim S50000x64 (![] : Fin 0 → Fin S50000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  bcast_S_S512 : S_.BroadcastsInDim S512 (![] : Fin 0 → Fin S512.rank)
  bcast_S50000_S50000x1_0 : S50000.BroadcastsInDim S50000x1 (![0] : Fin 1 → Fin S50000x1.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  inb_S64x128_S64x128_0_0 : ∀ a, (![0, 0] : Fin 2 → Nat) a + S64x128.size a ≤ S64x128.size a
  h_S64x128 : 0 < S64x128.numel
  scatter_S50000_S800000x1_S800000_n_0_0_1_wf : ScatterDims.WF S50000 S800000x1 S800000 [] [0] [0] 1
  dot_S2000x128_S128x128_S2000x128_1_0_0_1_n_n_wf : DotDims.WF S2000x128 S128x128 S2000x128 [1] [0] [0] [1] [] []
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x64_S2000x64_1_0_0_1_n_n_wf : DotDims.WF S2000x128 S128x64 S2000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S2000x64_S64x128_S2000x128_1_0_0_1_n_n_wf : DotDims.WF S2000x64 S64x128 S2000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .bf16 = 32 ∨ (Rect.block (s := S50000x128) S2000x128.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x1.size a ≤ S50000x1.size a
  hwx1_2 : ∀ i : grid1.Coords, EltTy.bits .f32 = 32 ∨ (Rect.block (s := S50000x1) S2000x1.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S2000x128.size a ≤ S50000x128.size a
  hwx1_4 : ∀ i : grid1.Coords, EltTy.bits .f32 = 32 ∨ (Rect.block (s := S50000x128) S2000x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x64.size a ≤ S128x64.size a
  hwx2_1 : ∀ i : grid2.Coords, EltTy.bits .f32 = 32 ∨ (Rect.block (s := S128x64) S128x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .bf16 = 32 ∨ (Rect.block (s := S50000x64) S2000x64.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .bf16 = 32 ∨ (Rect.block (s := S50000x64) S2000x64.size (cc3_transform_1 i) (hinb3_1 i)).WholeWords (EltTy.packing .bf16)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S2000x1.size a ≤ S50000x1.size a
  hwx3_2 : ∀ i : grid3.Coords, EltTy.bits .f32 = 32 ∨ (Rect.block (s := S50000x1) S2000x1.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S2000x64.size a ≤ S50000x64.size a
  hwx3_4 : ∀ i : grid3.Coords, EltTy.bits .f32 = 32 ∨ (Rect.block (s := S50000x64) S2000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S64x128.size a ≤ S64x128.size a
  hwx4_1 : ∀ i : grid4.Coords, EltTy.bits .f32 = 32 ∨ (Rect.block (s := S64x128) S64x128.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x128.size a ≤ S50000x128.size a
  hwx4_3 : ∀ i : grid4.Coords, EltTy.bits .bf16 = 32 ∨ (Rect.block (s := S50000x128) S2000x128.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x128.size a ≤ S50000x128.size a
  hwx5_0 : ∀ i : grid5.Coords, EltTy.bits .f32 = 32 ∨ (Rect.block (s := S50000x128) S2000x128.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x128.size a ≤ S50000x128.size a
  hwx5_1 : ∀ i : grid5.Coords, EltTy.bits .bf16 = 32 ∨ (Rect.block (s := S50000x128) S2000x128.size (cc5_transform_1 i) (hinb5_1 i)).WholeWords (EltTy.packing .bf16)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x1.size a ≤ S50000x1.size a
  hwx5_2 : ∀ i : grid5.Coords, EltTy.bits .f32 = 32 ∨ (Rect.block (s := S50000x1) S2000x1.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S1x128.size a ≤ S1x128.size a
  hwx5_3 : ∀ i : grid5.Coords, EltTy.bits .f32 = 32 ∨ (Rect.block (s := S1x128) S1x128.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x128.size a ≤ S50000x128.size a
  hwx5_4 : ∀ i : grid5.Coords, EltTy.bits .f32 = 32 ∨ (Rect.block (s := S50000x128) S2000x128.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x128.size a ≤ S50000x128.size a
  hwx6_0 : ∀ i : grid6.Coords, EltTy.bits .f32 = 32 ∨ (Rect.block (s := S50000x128) S2000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S128x128.size a ≤ S128x128.size a
  hwx6_1 : ∀ i : grid6.Coords, EltTy.bits .f32 = 32 ∨ (Rect.block (s := S128x128) S128x128.size (cc6_transform_1 i) (hinb6_1 i)).WholeWords (EltTy.packing .f32)
  hstage6_2 : ∀ j, (stage6_2 j).IsWhole
  nbuf6_2 : grid6.bufCount reads6_2 false = 2
  hreads6_2 : ∀ i i' : grid6.Coords, (∀ a, reads6_2 a = true → i a = i' a) → cc6_transform_2 i = cc6_transform_2 i'
  hinb6_2 : ∀ (i : grid6.Coords) a, (cc6_transform_2 i a + 1) * S2000x1.size a ≤ S50000x1.size a
  hwx6_2 : ∀ i : grid6.Coords, EltTy.bits .f32 = 32 ∨ (Rect.block (s := S50000x1) S2000x1.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S2000x128.size a ≤ S50000x128.size a
  hwx6_3 : ∀ i : grid6.Coords, EltTy.bits .bf16 = 32 ∨ (Rect.block (s := S50000x128) S2000x128.size (cc6_transform_3 i) (hinb6_3 i)).WholeWords (EltTy.packing .bf16)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x128.size a ≤ S50000x128.size a
  hwx7_0 : ∀ i : grid7.Coords, EltTy.bits .f32 = 32 ∨ (Rect.block (s := S50000x128) S2000x128.size (cc7_transform_0 i) (hinb7_0 i)).WholeWords (EltTy.packing .f32)
  hstage7_1 : ∀ j, (stage7_1 j).IsWhole
  nbuf7_1 : grid7.bufCount reads7_1 false = 2
  hreads7_1 : ∀ i i' : grid7.Coords, (∀ a, reads7_1 a = true → i a = i' a) → cc7_transform_1 i = cc7_transform_1 i'
  hinb7_1 : ∀ (i : grid7.Coords) a, (cc7_transform_1 i a + 1) * S2000x128.size a ≤ S50000x128.size a
  hwx7_1 : ∀ i : grid7.Coords, EltTy.bits .bf16 = 32 ∨ (Rect.block (s := S50000x128) S2000x128.size (cc7_transform_1 i) (hinb7_1 i)).WholeWords (EltTy.packing .bf16)
  hstage7_2 : ∀ j, (stage7_2 j).IsWhole
  nbuf7_2 : grid7.bufCount reads7_2 false = 2
  hreads7_2 : ∀ i i' : grid7.Coords, (∀ a, reads7_2 a = true → i a = i' a) → cc7_transform_2 i = cc7_transform_2 i'
  hinb7_2 : ∀ (i : grid7.Coords) a, (cc7_transform_2 i a + 1) * S2000x1.size a ≤ S50000x1.size a
  hwx7_2 : ∀ i : grid7.Coords, EltTy.bits .f32 = 32 ∨ (Rect.block (s := S50000x1) S2000x1.size (cc7_transform_2 i) (hinb7_2 i)).WholeWords (EltTy.packing .f32)
  hstage7_3 : ∀ j, (stage7_3 j).IsWhole
  nbuf7_3 : grid7.bufCount reads7_3 true = 1
  hreads7_3 : ∀ i i' : grid7.Coords, (∀ a, reads7_3 a = true → i a = i' a) → cc7_transform_3 i = cc7_transform_3 i'
  hinb7_3 : ∀ (i : grid7.Coords) a, (cc7_transform_3 i a + 1) * S1x128.size a ≤ S1x128.size a
  hwx7_3 : ∀ i : grid7.Coords, EltTy.bits .f32 = 32 ∨ (Rect.block (s := S1x128) S1x128.size (cc7_transform_3 i) (hinb7_3 i)).WholeWords (EltTy.packing .f32)
  hstage7_4 : ∀ j, (stage7_4 j).IsWhole
  nbuf7_4 : grid7.bufCount reads7_4 false = 2
  hreads7_4 : ∀ i i' : grid7.Coords, (∀ a, reads7_4 a = true → i a = i' a) → cc7_transform_4 i = cc7_transform_4 i'
  hinb7_4 : ∀ (i : grid7.Coords) a, (cc7_transform_4 i a + 1) * S2000x128.size a ≤ S50000x128.size a
  hwx7_4 : ∀ i : grid7.Coords, EltTy.bits .f32 = 32 ∨ (Rect.block (s := S50000x128) S2000x128.size (cc7_transform_4 i) (hinb7_4 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S2000x64_S64x128_S2000x128_1_0_0_1_n_n : DotDims S2000x64 S64x128 S2000x128 where
  lhsContracting := [1]
  rhsContracting := [0]
  lhsNonContracting := [0]
  rhsNonContracting := [1]
  lhsBatch := []
  rhsBatch := []
  wf := dot_S2000x64_S64x128_S2000x128_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v11) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v12) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v23) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v12) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S2000x1.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v24) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v25) S2000x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v25) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v26) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v27) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v38) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v27) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v26) S2000x1.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v39) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_v40) S2000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v40) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S64x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v53) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v54) S2000x128.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v65) S2000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v54) S2000x128.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v53) S2000x1.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v66) S1x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v67) S2000x128.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v67) S2000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_arg9) S128x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v68) S2000x1.size cc6_transform_2 reads6_2 false false 2 stage6_2 sem6_2
    hrank6 hreads6_2 hinb6_2 nbuf6_2 (Memref.isWhole_whole _) hwx6_2 hstage6_2

abbrev win6_3 : Pipeline.Window sig grid6 :=
  Pipeline.Window.ofSpec (Memref.whole main_v69) S2000x128.size cc6_transform_3 reads6_3 true false 2 stage6_3 sem6_3
    hrank6 hreads6_3 hinb6_3 nbuf6_3 (Memref.isWhole_whole _) hwx6_3 hstage6_3

abbrev win6 : Fin 4 → Pipeline.Window sig grid6 := fun | 0 => win6_0 | 1 => win6_1 | 2 => win6_2 | 3 => win6_3 | ⟨_ + 4, h⟩ => absurd h (Nat.not_lt.2 (Nat.le_add_left _ _))
abbrev spec6 : Fin 4 → Pipeline.WinSpec sig grid6.rank := fun w => (win6 w).toWinSpec

abbrev win7_0 : Pipeline.Window sig grid7 :=
  Pipeline.Window.ofSpec (Memref.whole main_v80) S2000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v69) S2000x128.size cc7_transform_1 reads7_1 false false 2 stage7_1 sem7_1
    hrank7 hreads7_1 hinb7_1 nbuf7_1 (Memref.isWhole_whole _) hwx7_1 hstage7_1

abbrev win7_2 : Pipeline.Window sig grid7 :=
  Pipeline.Window.ofSpec (Memref.whole main_v68) S2000x1.size cc7_transform_2 reads7_2 false false 2 stage7_2 sem7_2
    hrank7 hreads7_2 hinb7_2 nbuf7_2 (Memref.isWhole_whole _) hwx7_2 hstage7_2

abbrev win7_3 : Pipeline.Window sig grid7 :=
  Pipeline.Window.ofSpec (Memref.whole main_v81) S1x128.size cc7_transform_3 reads7_3 false true 1 stage7_3 sem7_3
    hrank7 hreads7_3 hinb7_3 nbuf7_3 (Memref.isWhole_whole _) hwx7_3 hstage7_3

abbrev win7_4 : Pipeline.Window sig grid7 :=
  Pipeline.Window.ofSpec (Memref.whole main_v82) S2000x128.size cc7_transform_4 reads7_4 true false 2 stage7_4 sem7_4
    hrank7 hreads7_4 hinb7_4 nbuf7_4 (Memref.isWhole_whole _) hwx7_4 hstage7_4

abbrev win7 : Fin 5 → Pipeline.Window sig grid7 := fun | 0 => win7_0 | 1 => win7_1 | 2 => win7_2 | 3 => win7_3 | 4 => win7_4 | ⟨_ + 5, h⟩ => absurd h (Nat.not_lt.2 (Nat.le_add_left _ _))
abbrev spec7 : Fin 5 → Pipeline.WinSpec sig grid7.rank := fun w => (win7 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S64x128 : Shape := ⟨2, ![64, 128]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000x1 : Shape := ⟨2, ![50000, 1]⟩
abbrev S1x128 : Shape := ⟨2, ![1, 128]⟩
abbrev S50000x64 : Shape := ⟨2, ![50000, 64]⟩
abbrev S800000x64 : Shape := ⟨2, ![800000, 64]⟩
abbrev S1x64 : Shape := ⟨2, ![1, 64]⟩
abbrev S512 : Shape := ⟨1, ![512]⟩
abbrev S512x64 : Shape := ⟨2, ![512, 64]⟩
abbrev S512x1 : Shape := ⟨2, ![512, 1]⟩

abbrev nBuf : Space → Nat
  | .hbm => 223
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x64, .f32⟩
  | 6 => ⟨S64, .f32⟩
  | 7 => ⟨S64x128, .f32⟩
  | 8 => ⟨S128, .f32⟩
  | 9 => ⟨S128x128, .f32⟩
  | 10 => ⟨S128, .f32⟩
  | 11 => ⟨S1x800000, .i32⟩
  | 12 => ⟨S800000, .i32⟩
  | 13 => ⟨S1x800000, .i32⟩
  | 14 => ⟨S800000, .i32⟩
  | 15 => ⟨S_, .f32⟩
  | 16 => ⟨S800000, .f32⟩
  | 17 => ⟨S_, .f32⟩
  | 18 => ⟨S50000, .f32⟩
  | 19 => ⟨S800000x1, .i32⟩
  | 20 => ⟨S50000, .f32⟩
  | 21 => ⟨S_, .f32⟩
  | 22 => ⟨S50000, .f32⟩
  | 23 => ⟨S50000, .f32⟩
  | 24 => ⟨S50000, .f32⟩
  | 25 => ⟨S50000x128, .f32⟩
  | 26 => ⟨S_, .i32⟩
  | 27 => ⟨S800000, .i32⟩
  | 28 => ⟨S800000, .i1⟩
  | 29 => ⟨S_, .i32⟩
  | 30 => ⟨S800000, .i32⟩
  | 31 => ⟨S800000, .i32⟩
  | 32 => ⟨S800000, .i32⟩
  | 33 => ⟨S800000x1, .i32⟩
  | 34 => ⟨S800000, .f32⟩
  | 35 => ⟨S_, .i32⟩
  | 36 => ⟨S800000, .i32⟩
  | 37 => ⟨S800000, .i1⟩
  | 38 => ⟨S_, .i32⟩
  | 39 => ⟨S800000, .i32⟩
  | 40 => ⟨S800000, .i32⟩
  | 41 => ⟨S800000, .i32⟩
  | 42 => ⟨S800000x1, .i32⟩
  | 43 => ⟨S800000, .f32⟩
  | 44 => ⟨S800000, .f32⟩
  | 45 => ⟨S_, .i32⟩
  | 46 => ⟨S800000, .i32⟩
  | 47 => ⟨S800000, .i1⟩
  | 48 => ⟨S_, .i32⟩
  | 49 => ⟨S800000, .i32⟩
  | 50 => ⟨S800000, .i32⟩
  | 51 => ⟨S800000, .i32⟩
  | 52 => ⟨S800000x1, .i32⟩
  | 53 => ⟨S800000x128, .f32⟩
  | 54 => ⟨S800000x1, .f32⟩
  | 55 => ⟨S800000x128, .f32⟩
  | 56 => ⟨S800000x128, .f32⟩
  | 57 => ⟨S_, .f32⟩
  | 58 => ⟨S50000x128, .f32⟩
  | 59 => ⟨S800000x1, .i32⟩
  | 60 => ⟨S50000x128, .f32⟩
  | 61 => ⟨S50000, .f32⟩
  | 62 => ⟨S50000x1, .f32⟩
  | 63 => ⟨S50000x128, .f32⟩
  | 64 => ⟨S50000x128, .f32⟩
  | 65 => ⟨S50000x128, .f32⟩
  | 66 => ⟨S1x128, .f32⟩
  | 67 => ⟨S50000x128, .f32⟩
  | 68 => ⟨S50000x128, .f32⟩
  | 69 => ⟨S_, .f32⟩
  | 70 => ⟨S50000x128, .f32⟩
  | 71 => ⟨S50000x128, .f32⟩
  | 72 => ⟨S50000x64, .f32⟩
  | 73 => ⟨S_, .i32⟩
  | 74 => ⟨S800000, .i32⟩
  | 75 => ⟨S800000, .i1⟩
  | 76 => ⟨S_, .i32⟩
  | 77 => ⟨S800000, .i32⟩
  | 78 => ⟨S800000, .i32⟩
  | 79 => ⟨S800000, .i32⟩
  | 80 => ⟨S800000x1, .i32⟩
  | 81 => ⟨S800000, .f32⟩
  | 82 => ⟨S_, .i32⟩
  | 83 => ⟨S800000, .i32⟩
  | 84 => ⟨S800000, .i1⟩
  | 85 => ⟨S_, .i32⟩
  | 86 => ⟨S800000, .i32⟩
  | 87 => ⟨S800000, .i32⟩
  | 88 => ⟨S800000, .i32⟩
  | 89 => ⟨S800000x1, .i32⟩
  | 90 => ⟨S800000, .f32⟩
  | 91 => ⟨S800000, .f32⟩
  | 92 => ⟨S_, .i32⟩
  | 93 => ⟨S800000, .i32⟩
  | 94 => ⟨S800000, .i1⟩
  | 95 => ⟨S_, .i32⟩
  | 96 => ⟨S800000, .i32⟩
  | 97 => ⟨S800000, .i32⟩
  | 98 => ⟨S800000, .i32⟩
  | 99 => ⟨S800000x1, .i32⟩
  | 100 => ⟨S800000x64, .f32⟩
  | 101 => ⟨S800000x1, .f32⟩
  | 102 => ⟨S800000x64, .f32⟩
  | 103 => ⟨S800000x64, .f32⟩
  | 104 => ⟨S_, .f32⟩
  | 105 => ⟨S50000x64, .f32⟩
  | 106 => ⟨S800000x1, .i32⟩
  | 107 => ⟨S50000x64, .f32⟩
  | 108 => ⟨S50000, .f32⟩
  | 109 => ⟨S50000x1, .f32⟩
  | 110 => ⟨S50000x64, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S_, .f32⟩
  | 117 => ⟨S50000, .f32⟩
  | 118 => ⟨S_, .f32⟩
  | 119 => ⟨S512, .f32⟩
  | 120 => ⟨S50000x1, .i32⟩
  | 121 => ⟨S512, .f32⟩
  | 122 => ⟨S_, .f32⟩
  | 123 => ⟨S512x64, .f32⟩
  | 124 => ⟨S50000x1, .i32⟩
  | 125 => ⟨S512x64, .f32⟩
  | 126 => ⟨S_, .f32⟩
  | 127 => ⟨S512, .f32⟩
  | _ => ⟨S50000x128, .f32⟩

abbrev hbmTy0_1 (i : Nat) : BufTy := match i % 128 with
  | 0 => ⟨S512, .f32⟩
  | 1 => ⟨S512x1, .f32⟩
  | 2 => ⟨S512x64, .f32⟩
  | 3 => ⟨S512x64, .f32⟩
  | 4 => ⟨S50000x128, .f32⟩
  | 5 => ⟨S_, .i32⟩
  | 6 => ⟨S800000, .i32⟩
  | 7 => ⟨S800000, .i1⟩
  | 8 => ⟨S_, .i32⟩
  | 9 => ⟨S800000, .i32⟩
  | 10 => ⟨S800000, .i32⟩
  | 11 => ⟨S800000, .i32⟩
  | 12 => ⟨S800000x1, .i32⟩
  | 13 => ⟨S800000, .f32⟩
  | 14 => ⟨S_, .i32⟩
  | 15 => ⟨S800000, .i32⟩
  | 16 => ⟨S800000, .i1⟩
  | 17 => ⟨S_, .i32⟩
  | 18 => ⟨S800000, .i32⟩
  | 19 => ⟨S800000, .i32⟩
  | 20 => ⟨S800000, .i32⟩
  | 21 => ⟨S800000x1, .i32⟩
  | 22 => ⟨S800000, .f32⟩
  | 23 => ⟨S800000, .f32⟩
  | 24 => ⟨S_, .i32⟩
  | 25 => ⟨S800000, .i32⟩
  | 26 => ⟨S800000, .i1⟩
  | 27 => ⟨S_, .i32⟩
  | 28 => ⟨S800000, .i32⟩
  | 29 => ⟨S800000, .i32⟩
  | 30 => ⟨S800000, .i32⟩
  | 31 => ⟨S800000x1, .i32⟩
  | 32 => ⟨S800000x128, .f32⟩
  | 33 => ⟨S800000x1, .f32⟩
  | 34 => ⟨S800000x128, .f32⟩
  | 35 => ⟨S800000x128, .f32⟩
  | 36 => ⟨S_, .f32⟩
  | 37 => ⟨S50000x128, .f32⟩
  | 38 => ⟨S800000x1, .i32⟩
  | 39 => ⟨S50000x128, .f32⟩
  | 40 => ⟨S50000, .f32⟩
  | 41 => ⟨S50000x1, .f32⟩
  | 42 => ⟨S50000x128, .f32⟩
  | 43 => ⟨S50000x128, .f32⟩
  | 44 => ⟨S50000x128, .f32⟩
  | 45 => ⟨S1x128, .f32⟩
  | 46 => ⟨S50000x128, .f32⟩
  | 47 => ⟨S50000x128, .f32⟩
  | 48 => ⟨S_, .f32⟩
  | 49 => ⟨S50000x128, .f32⟩
  | 50 => ⟨S50000x128, .f32⟩
  | 51 => ⟨S50000x128, .f32⟩
  | 52 => ⟨S_, .i32⟩
  | 53 => ⟨S800000, .i32⟩
  | 54 => ⟨S800000, .i1⟩
  | 55 => ⟨S_, .i32⟩
  | 56 => ⟨S800000, .i32⟩
  | 57 => ⟨S800000, .i32⟩
  | 58 => ⟨S800000, .i32⟩
  | 59 => ⟨S800000x1, .i32⟩
  | 60 => ⟨S800000, .f32⟩
  | 61 => ⟨S_, .i32⟩
  | 62 => ⟨S800000, .i32⟩
  | 63 => ⟨S800000, .i1⟩
  | 64 => ⟨S_, .i32⟩
  | 65 => ⟨S800000, .i32⟩
  | 66 => ⟨S800000, .i32⟩
  | 67 => ⟨S800000, .i32⟩
  | 68 => ⟨S800000x1, .i32⟩
  | 69 => ⟨S800000, .f32⟩
  | 70 => ⟨S800000, .f32⟩
  | 71 => ⟨S_, .i32⟩
  | 72 => ⟨S800000, .i32⟩
  | 73 => ⟨S800000, .i1⟩
  | 74 => ⟨S_, .i32⟩
  | 75 => ⟨S800000, .i32⟩
  | 76 => ⟨S800000, .i32⟩
  | 77 => ⟨S800000, .i32⟩
  | 78 => ⟨S800000x1, .i32⟩
  | 79 => ⟨S800000x128, .f32⟩
  | 80 => ⟨S800000x1, .f32⟩
  | 81 => ⟨S800000x128, .f32⟩
  | 82 => ⟨S800000x128, .f32⟩
  | 83 => ⟨S_, .f32⟩
  | 84 => ⟨S50000x128, .f32⟩
  | 85 => ⟨S800000x1, .i32⟩
  | 86 => ⟨S50000x128, .f32⟩
  | 87 => ⟨S50000, .f32⟩
  | 88 => ⟨S50000x1, .f32⟩
  | 89 => ⟨S50000x128, .f32⟩
  | 90 => ⟨S50000x128, .f32⟩
  | 91 => ⟨S50000x128, .f32⟩
  | 92 => ⟨S1x128, .f32⟩
  | 93 => ⟨S50000x128, .f32⟩
  | 94 => ⟨S50000x128, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_cst_0 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_c : Ref sig .tc := ⟨.hbm, 26, rfl⟩
abbrev main_v12 : Ref sig .tc := ⟨.hbm, 27, rfl⟩
abbrev main_v13 : Ref sig .tc := ⟨.hbm, 28, rfl⟩
abbrev main_c_2 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_c_3 : Ref sig .tc := ⟨.hbm, 35, rfl⟩
abbrev main_v19 : Ref sig .tc := ⟨.hbm, 36, rfl⟩
abbrev main_v20 : Ref sig .tc := ⟨.hbm, 37, rfl⟩
abbrev main_c_4 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_c_5 : Ref sig .tc := ⟨.hbm, 45, rfl⟩
abbrev main_v27 : Ref sig .tc := ⟨.hbm, 46, rfl⟩
abbrev main_v28 : Ref sig .tc := ⟨.hbm, 47, rfl⟩
abbrev main_c_6 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_7 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_call0_cst : Ref sig .tc := ⟨.hbm, 69, rfl⟩
abbrev main_call0_v0 : Ref sig .tc := ⟨.hbm, 70, rfl⟩
abbrev main_v48 : Ref sig .tc := ⟨.hbm, 71, rfl⟩
abbrev main_v49 : Ref sig .tc := ⟨.hbm, 72, rfl⟩
abbrev main_c_8 : Ref sig .tc := ⟨.hbm, 73, rfl⟩
abbrev main_v50 : Ref sig .tc := ⟨.hbm, 74, rfl⟩
abbrev main_v51 : Ref sig .tc := ⟨.hbm, 75, rfl⟩
abbrev main_c_9 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_c_10 : Ref sig .tc := ⟨.hbm, 82, rfl⟩
abbrev main_v57 : Ref sig .tc := ⟨.hbm, 83, rfl⟩
abbrev main_v58 : Ref sig .tc := ⟨.hbm, 84, rfl⟩
abbrev main_c_11 : Ref sig .tc := ⟨.hbm, 85, rfl⟩
abbrev main_v59 : Ref sig .tc := ⟨.hbm, 86, rfl⟩
abbrev main_v60 : Ref sig .tc := ⟨.hbm, 87, rfl⟩
abbrev main_v61 : Ref sig .tc := ⟨.hbm, 88, rfl⟩
abbrev main_v62 : Ref sig .tc := ⟨.hbm, 89, rfl⟩
abbrev main_v63 : Ref sig .tc := ⟨.hbm, 90, rfl⟩
abbrev main_v64 : Ref sig .tc := ⟨.hbm, 91, rfl⟩
abbrev main_c_12 : Ref sig .tc := ⟨.hbm, 92, rfl⟩
abbrev main_v65 : Ref sig .tc := ⟨.hbm, 93, rfl⟩
abbrev main_v66 : Ref sig .tc := ⟨.hbm, 94, rfl⟩
abbrev main_c_13 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_v72 : Ref sig .tc := ⟨.hbm, 101, rfl⟩
abbrev main_v73 : Ref sig .tc := ⟨.hbm, 102, rfl⟩
abbrev main_v74 : Ref sig .tc := ⟨.hbm, 103, rfl⟩
abbrev main_cst_14 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩
abbrev main_v81 : Ref sig .tc := ⟨.hbm, 111, rfl⟩
abbrev main_v82 : Ref sig .tc := ⟨.hbm, 112, rfl⟩
abbrev main_v83 : Ref sig .tc := ⟨.hbm, 113, rfl⟩
abbrev main_v84 : Ref sig .tc := ⟨.hbm, 114, rfl⟩
abbrev main_v85 : Ref sig .tc := ⟨.hbm, 115, rfl⟩
abbrev main_cst_15 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩
abbrev main_v89 : Ref sig .tc := ⟨.hbm, 121, rfl⟩
abbrev main_cst_17 : Ref sig .tc := ⟨.hbm, 122, rfl⟩
abbrev main_v90 : Ref sig .tc := ⟨.hbm, 123, rfl⟩
abbrev main_v91 : Ref sig .tc := ⟨.hbm, 124, rfl⟩
abbrev main_v92 : Ref sig .tc := ⟨.hbm, 125, rfl⟩
abbrev main_cst_18 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_c_19 : Ref sig .tc := ⟨.hbm, 133, rfl⟩
abbrev main_v99 : Ref sig .tc := ⟨.hbm, 134, rfl⟩
abbrev main_v100 : Ref sig .tc := ⟨.hbm, 135, rfl⟩
abbrev main_c_20 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_c_21 : Ref sig .tc := ⟨.hbm, 142, rfl⟩
abbrev main_v106 : Ref sig .tc := ⟨.hbm, 143, rfl⟩
abbrev main_v107 : Ref sig .tc := ⟨.hbm, 144, rfl⟩
abbrev main_c_22 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩
abbrev main_v112 : Ref sig .tc := ⟨.hbm, 150, rfl⟩
abbrev main_v113 : Ref sig .tc := ⟨.hbm, 151, rfl⟩
abbrev main_c_23 : Ref sig .tc := ⟨.hbm, 152, rfl⟩
abbrev main_v114 : Ref sig .tc := ⟨.hbm, 153, rfl⟩
abbrev main_v115 : Ref sig .tc := ⟨.hbm, 154, rfl⟩
abbrev main_c_24 : Ref sig .tc := ⟨.hbm, 155, rfl⟩
abbrev main_v116 : Ref sig .tc := ⟨.hbm, 156, rfl⟩
abbrev main_v117 : Ref sig .tc := ⟨.hbm, 157, rfl⟩
abbrev main_v118 : Ref sig .tc := ⟨.hbm, 158, rfl⟩
abbrev main_v119 : Ref sig .tc := ⟨.hbm, 159, rfl⟩
abbrev main_v120 : Ref sig .tc := ⟨.hbm, 160, rfl⟩
abbrev main_v121 : Ref sig .tc := ⟨.hbm, 161, rfl⟩
abbrev main_v122 : Ref sig .tc := ⟨.hbm, 162, rfl⟩
abbrev main_v123 : Ref sig .tc := ⟨.hbm, 163, rfl⟩
abbrev main_cst_25 : Ref sig .tc := ⟨.hbm, 164, rfl⟩
abbrev main_v124 : Ref sig .tc := ⟨.hbm, 165, rfl⟩
abbrev main_v125 : Ref sig .tc := ⟨.hbm, 166, rfl⟩
abbrev main_v126 : Ref sig .tc := ⟨.hbm, 167, rfl⟩
abbrev main_v127 : Ref sig .tc := ⟨.hbm, 168, rfl⟩
abbrev main_v128 : Ref sig .tc := ⟨.hbm, 169, rfl⟩
abbrev main_v129 : Ref sig .tc := ⟨.hbm, 170, rfl⟩
abbrev main_v130 : Ref sig .tc := ⟨.hbm, 171, rfl⟩
abbrev main_v131 : Ref sig .tc := ⟨.hbm, 172, rfl⟩
abbrev main_v132 : Ref sig .tc := ⟨.hbm, 173, rfl⟩
abbrev main_v133 : Ref sig .tc := ⟨.hbm, 174, rfl⟩
abbrev main_v134 : Ref sig .tc := ⟨.hbm, 175, rfl⟩
abbrev main_call1_cst : Ref sig .tc := ⟨.hbm, 176, rfl⟩
abbrev main_call1_v0 : Ref sig .tc := ⟨.hbm, 177, rfl⟩
abbrev main_v135 : Ref sig .tc := ⟨.hbm, 178, rfl⟩
abbrev main_v136 : Ref sig .tc := ⟨.hbm, 179, rfl⟩
abbrev main_c_26 : Ref sig .tc := ⟨.hbm, 180, rfl⟩
abbrev main_v137 : Ref sig .tc := ⟨.hbm, 181, rfl⟩
abbrev main_v138 : Ref sig .tc := ⟨.hbm, 182, rfl⟩
abbrev main_c_27 : Ref sig .tc := ⟨.hbm, 183, rfl⟩
abbrev main_v139 : Ref sig .tc := ⟨.hbm, 184, rfl⟩
abbrev main_v140 : Ref sig .tc := ⟨.hbm, 185, rfl⟩
abbrev main_v141 : Ref sig .tc := ⟨.hbm, 186, rfl⟩
abbrev main_v142 : Ref sig .tc := ⟨.hbm, 187, rfl⟩
abbrev main_v143 : Ref sig .tc := ⟨.hbm, 188, rfl⟩
abbrev main_c_28 : Ref sig .tc := ⟨.hbm, 189, rfl⟩
abbrev main_v144 : Ref sig .tc := ⟨.hbm, 190, rfl⟩
abbrev main_v145 : Ref sig .tc := ⟨.hbm, 191, rfl⟩
abbrev main_c_29 : Ref sig .tc := ⟨.hbm, 192, rfl⟩
abbrev main_v146 : Ref sig .tc := ⟨.hbm, 193, rfl⟩
abbrev main_v147 : Ref sig .tc := ⟨.hbm, 194, rfl⟩
abbrev main_v148 : Ref sig .tc := ⟨.hbm, 195, rfl⟩
abbrev main_v149 : Ref sig .tc := ⟨.hbm, 196, rfl⟩
abbrev main_v150 : Ref sig .tc := ⟨.hbm, 197, rfl⟩
abbrev main_v151 : Ref sig .tc := ⟨.hbm, 198, rfl⟩
abbrev main_c_30 : Ref sig .tc := ⟨.hbm, 199, rfl⟩
abbrev main_v152 : Ref sig .tc := ⟨.hbm, 200, rfl⟩
abbrev main_v153 : Ref sig .tc := ⟨.hbm, 201, rfl⟩
abbrev main_c_31 : Ref sig .tc := ⟨.hbm, 202, rfl⟩
abbrev main_v154 : Ref sig .tc := ⟨.hbm, 203, rfl⟩
abbrev main_v155 : Ref sig .tc := ⟨.hbm, 204, rfl⟩
abbrev main_v156 : Ref sig .tc := ⟨.hbm, 205, rfl⟩
abbrev main_v157 : Ref sig .tc := ⟨.hbm, 206, rfl⟩
abbrev main_v158 : Ref sig .tc := ⟨.hbm, 207, rfl⟩
abbrev main_v159 : Ref sig .tc := ⟨.hbm, 208, rfl⟩
abbrev main_v160 : Ref sig .tc := ⟨.hbm, 209, rfl⟩
abbrev main_v161 : Ref sig .tc := ⟨.hbm, 210, rfl⟩
abbrev main_cst_32 : Ref sig .tc := ⟨.hbm, 211, rfl⟩
abbrev main_v162 : Ref sig .tc := ⟨.hbm, 212, rfl⟩
abbrev main_v163 : Ref sig .tc := ⟨.hbm, 213, rfl⟩
abbrev main_v164 : Ref sig .tc := ⟨.hbm, 214, rfl⟩
abbrev main_v165 : Ref sig .tc := ⟨.hbm, 215, rfl⟩
abbrev main_v166 : Ref sig .tc := ⟨.hbm, 216, rfl⟩
abbrev main_v167 : Ref sig .tc := ⟨.hbm, 217, rfl⟩
abbrev main_v168 : Ref sig .tc := ⟨.hbm, 218, rfl⟩
abbrev main_v169 : Ref sig .tc := ⟨.hbm, 219, rfl⟩
abbrev main_v170 : Ref sig .tc := ⟨.hbm, 220, rfl⟩
abbrev main_v171 : Ref sig .tc := ⟨.hbm, 221, rfl⟩
abbrev main_v172 : Ref sig .tc := ⟨.hbm, 222, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S800000x1_S800000x128_0_1 : S800000x1.BroadcastsInDim S800000x128 (![0, 1] : Fin 2 → Fin S800000x128.rank)
  bcast_S_S50000x128 : S_.BroadcastsInDim S50000x128 (![] : Fin 0 → Fin S50000x128.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S800000x1_S800000x64_0_1 : S800000x1.BroadcastsInDim S800000x64 (![0, 1] : Fin 2 → Fin S800000x64.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S512 : S_.BroadcastsInDim S512 (![] : Fin 0 → Fin S512.rank)
  bcast_S_S512x64 : S_.BroadcastsInDim S512x64 (![] : Fin 0 → Fin S512x64.rank)
  bcast_S512_S512x1_0 : S512.BroadcastsInDim S512x1 (![0] : Fin 1 → Fin S512x1.rank)
  bcast_S512x1_S512x64_0_1 : S512x1.BroadcastsInDim S512x64 (![0, 1] : Fin 2 → Fin S512x64.rank)
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  gather_S50000_S800000x1_S800000_n_0_n_n_0_1_1_wf : GatherDims.WF S50000 S800000x1 S800000 [] [0] [] [0] [] 1 ![1]
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S50000x128_S128x64_S50000x64_1_0_0_1_n_n_wf : DotDims.WF S50000x128 S128x64 S50000x64 [1] [0] [0] [1] [] []
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S512_S50000x1_S50000_n_0_0_1_wf : ScatterDims.WF S512 S50000x1 S50000 [] [0] [0] 1
  scatter_S512x64_S50000x1_S50000x64_1_0_0_1_wf : ScatterDims.WF S512x64 S50000x1 S50000x64 [1] [0] [0] 1
  dot_S50000x64_S64x128_S50000x128_1_0_0_1_n_n_wf : DotDims.WF S50000x64 S64x128 S50000x128 [1] [0] [0] [1] [] []

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000_S800000x1_S800000_n_0_n_n_0_1_1 : GatherDims S50000 S800000x1 S800000 where
  offsetDims := []
  collapsedSliceDims := [0]
  operandBatchingDims := []
  startIndicesBatchingDims := []
  startIndexMap := [0]
  indexVectorDim := 1
  sliceSizes := ![1]
  wf := gather_S50000_S800000x1_S800000_n_0_n_n_0_1_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S512_S50000x1_S50000_n_0_0_1 : ScatterDims S512 S50000x1 S50000 where
  updateWindowDims := []
  insertedWindowDims := [0]
  scatterDimsToOperandDims := [0]
  indexVectorDim := 1
  wf := scatter_S512_S50000x1_S50000_n_0_0_1_wf
def scatter_S512x64_S50000x1_S50000x64_1_0_0_1 : ScatterDims S512x64 S50000x1 S50000x64 where
  updateWindowDims := [1]
  insertedWindowDims := [0]
  scatterDimsToOperandDims := [0]
  indexVectorDim := 1
  wf := scatter_S512x64_S50000x1_S50000x64_1_0_0_1_wf
def dot_S50000x64_S64x128_S50000x128_1_0_0_1_n_n : DotDims S50000x64 S64x128 S50000x128 where
  lhsContracting := [1]
  rhsContracting := [0]
  lhsNonContracting := [0]
  rhsNonContracting := [1]
  lhsBatch := []
  rhsBatch := []
  wf := dot_S50000x64_S64x128_S50000x128_1_0_0_1_n_n_wf

class Facts : Prop extends Facts₀ where

variable [Facts]
-- ==== Proof.KernelRun.lean ====
/-
  The idealized kernel's run, with every buffer named at the end.

  The program is sixteen segments: a stretch of host operations, then a kernel region, eight times over. Each
  boundary's buffer contents are a fold from the launch memory: a stretch applies its operations, a region leaves its
  arrays at what its write-backs make of them and every other buffer as it found it. Run from any memory with zero
  semaphore counters, every weakly fair execution terminates without a fault, and every buffer that outlives the
  regions ends at the last fold's contents. Any property of the final memory that follows from those contents
  therefore holds after the run.
-/
import proofs.«162121_j80942953660708_2_alg».proof.Proof.Gen.KernelIdeal.Frame
import Idealize.ShloMosaic.Lib.Pipeline.Regions

set_option maxRecDepth 16384

noncomputable section

namespace Cert.KernelIdeal.ValueRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the launch deals every pipeline's staging cells, as one element of the resource algebra. -/
abbrev launchElt : UR sig nD τ := initOf (Pipeline.cells cfgs cellOf_inj) (Pipeline.launchToks cfgs cellOf_inj)

/-- The launch element is owned as the pipelines' element, and no core needs anything more. -/
theorem own_launchElt : (ownU launchElt : sProp 𝕄)
    ⊢ |={Set.univ}=> iprop(BI.own (emb₁ launchElt) ∗ bigSep Finset.univ (fun _ : Dev nD => (BI.emp : sProp 𝕄))) := by
  iintro Hu
  imodintro
  isplitl [Hu]
  · -- owning an element of the pipelines' algebra IS owning its image in the whole algebra
    iapply (show (ownU launchElt : sProp 𝕄) ⊢ BI.own (emb₁ launchElt) from .rfl)
    iexact Hu
  · rw [BI.bigSep_emp_const]; iempintro

/-- Every buffer that outlives the regions ends at the last boundary's contents. -/
abbrev EndsAtLastFold (c : Dev nD) (s : MemSt nD τ sig (Elt F)) : Prop :=
  ∀ b ∈ Pipeline.ucRefs τ sig, s.mem (((c : Thread nD τ)).1, b) = W16 m ρ c b

-- the launch theorem's implicit arguments are found by unifying its conclusion with this one, which takes unfolding
-- plain definitions in a metavariable's type
set_option backward.isDefEq.respectTransparency.types false in
/-- The run: whatever follows from the last fold's contents holds of every final memory. -/
theorem run_to_last_fold {Q : PUnit × MemSt nD τ sig (Elt F) → Prop}
    (hQ : ∀ s : MemSt nD τ sig (Elt F), (∀ c : Dev nD, EndsAtLastFold m ρ c s) → Q (⟨⟩, s)) :
    θ_run defs (onTc (τ := τ) (main (F := F))) ⟨m, fun _ => 0, ρ⟩ Q :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp)) (u₀ := launchElt) (hu₀ := own_launchElt)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl,
      fun _ => .rfl, fun _ => .rfl, fun _ => .rfl, fun _ => .rfl, fun _ => .rfl, fun _ => .rfl, fun _ => .rfl,
      fun _ => .rfl, fun _ => .rfl, fun _ => .rfl⟩)
    (hinit := by
      -- core by core: the launch's unscoped buffers are the buffers held at the launch contents; the generator
      -- register and the empty debt are the rest of the first thread state
      refine Pipeline.initEach L lv fun c => ?_
      rw [Pipeline.unscopedBufs_held c (W0 m ρ c)]
      iintro ⟨⟨Hbufs, -, Howes, -, Hprng, -⟩, -⟩
      imodintro
      isplitl [Hbufs]
      · iexact Hbufs
      isplitl [Hprng]
      · iexists _; iexact Hprng
      · iexists ∅; iexact Howes)
    (QY := fun c s => EndsAtLastFold m ρ c s)
    (hfin := fun c s' => by
      -- the last thread state holds every such buffer whole at the last fold's contents: read each against the state
      iintro ⟨⟨Hheld, -⟩, HSI⟩
      unfold StableHlo.held
      imodintro
      iapply (pointsTo_read_all (Pipeline.ucRefs τ sig) (fun b => (((c : Thread nD τ)).1, b)) (W16 m ρ c) s')
      isplitl [Hheld] <;> iassumption)
    (hQ := hQ)

/-- A buffer that is not scoped to a region is among those the run names at the end. -/
theorem ends_at (b : Ref sig .tc) (hb : ¬ (Proc.devRef .tc b : DevRef τ sig).isScoped) {c : Dev nD} {s : MemSt nD τ sig (Elt F)}
    (h : EndsAtLastFold m ρ c s) : s.mem ((c : Thread nD τ).loc b) = W16 m ρ c (Proc.devRef .tc b) :=
  h _ (mem_uc b hb)

end Cert.KernelIdeal.ValueRun

end
-- ==== Proof.LibPlainDot.lean ====
/-
  Indices of a plain matrix product, built from an output index and a shared coordinate.

  For an M×K matrix times a K×N matrix, entry (r, c) of the product is the sum over k of l (r, k) · r (k, c).
  `lhsAt i k` is the left operand's index (i 0, k), `rhsAt i k` the right operand's (k, i 1), and `rowAt i` is
  (0, i 1): where a one-row matrix added to every row is read.
-/
import Idealize.ShloMosaic.Lib.ValueIdx

namespace Idealize.ShloMosaic.PlainDot

open Idealize.ShloMosaic

/-- The left operand's index for output index `i` and shared coordinate `k`: (i 0, k). -/
abbrev lhsAt {M K N : Nat} (i : (⟨2, ![M, N]⟩ : Shape).Idx) (k : Fin K) : (⟨2, ![M, K]⟩ : Shape).Idx :=
  fun a => match a with
  | ⟨0, _⟩ => ⟨(i 0).val, (i 0).isLt⟩
  | ⟨1, _⟩ => ⟨k.val, k.isLt⟩

/-- The right operand's index: (k, i 1). -/
abbrev rhsAt {M K N : Nat} (i : (⟨2, ![M, N]⟩ : Shape).Idx) (k : Fin K) : (⟨2, ![K, N]⟩ : Shape).Idx :=
  fun a => match a with
  | ⟨0, _⟩ => ⟨k.val, k.isLt⟩
  | ⟨1, _⟩ => ⟨(i 1).val, (i 1).isLt⟩

/-- Column `i 1` of a one-row matrix: (0, i 1). -/
abbrev rowAt {M N : Nat} (i : (⟨2, ![M, N]⟩ : Shape).Idx) : (⟨2, ![1, N]⟩ : Shape).Idx :=
  fun a => match a with
  | ⟨0, _⟩ => ⟨0, Nat.one_pos⟩
  | ⟨1, _⟩ => ⟨(i 1).val, (i 1).isLt⟩

end Idealize.ShloMosaic.PlainDot
-- ==== Proof.LibRowForms.lean ====
/-
  Rows, columns and a plain matrix product, read at an index.

  A column is an [a, 1] array and a row a [1, b] array. Scaling every row of a matrix by its own factor
  multiplies entry (p, q) by the column's entry (p, 0); adding one row to every row adds the row's entry (0, q).
  A product of an M×K by a K×N matrix has, at (r, c), the sum over k of l (r, k) · r (k, c), whatever record
  spells the contraction, provided the record's operand indices have those coordinates.
-/
import Idealize.ShloMosaic.Lib.ValueIdx
import Idealize.ShloMosaic.Lib.ValueLayout
import Idealize.ShloMosaic.Lib.Pipeline.Value
import Idealize.ShloMosaic.PureOps.Ideal.Laws
import proofs.«162121_j80942953660708_2_alg».proof.Proof.LibPlainDot

noncomputable section

open scoped BigOperators

namespace Idealize.ShloMosaic.PlainDot

open Idealize.ShloMosaic Idealize.ShloMosaic.ValueIdx

variable {α : Type}

/-- Row `i 0` of a one-column matrix: (i 0, 0). -/
abbrev colAt {M N : Nat} (i : (⟨2, ![M, N]⟩ : Shape).Idx) : (⟨2, ![M, 1]⟩ : Shape).Idx :=
  fun a => match a with
  | ⟨0, _⟩ => ⟨(i 0).val, (i 0).isLt⟩
  | ⟨1, _⟩ => ⟨0, Nat.one_pos⟩

/-- An [a, 1] column broadcast to [a, b] reads, at `j`, the column's entry in `j`'s row. -/
theorem broadcastTo_col_apply {a b : ℕ} (v : (⟨2, ![a, 1]⟩ : Shape).Idx → α) (h : (⟨2, ![a, 1]⟩ : Shape).Broadcasts ⟨2, ![a, b]⟩)
    (j : (⟨2, ![a, b]⟩ : Shape).Idx) : broadcastTo ⟨2, ![a, b]⟩ v h j = v (colAt j) := by
  refine broadcastTo_apply v h j (colAt j) fun ax => ?_
  match ax with
  | ⟨0, _⟩ =>
    show (j 0).val = if a = 1 then 0 else (j 0).val
    split
    · have := (j 0).isLt
      have h0 : (j 0).val < a := this
      omega
    · rfl
  | ⟨1, _⟩ => rfl

/-- A [1, b] row broadcast to [a, b] reads, at `j`, the row's entry in `j`'s column. -/
theorem broadcastTo_row_apply {a b : ℕ} (v : (⟨2, ![1, b]⟩ : Shape).Idx → α) (h : (⟨2, ![1, b]⟩ : Shape).Broadcasts ⟨2, ![a, b]⟩)
    (j : (⟨2, ![a, b]⟩ : Shape).Idx) : broadcastTo ⟨2, ![a, b]⟩ v h j = v (rowAt j) := by
  refine broadcastTo_apply v h j (rowAt j) fun ax => ?_
  match ax with
  | ⟨0, _⟩ => rfl
  | ⟨1, _⟩ =>
    show (j 1).val = if b = 1 then 0 else (j 1).val
    split
    · have := (j 1).isLt
      have h1 : (j 1).val < b := this
      omega
    · rfl

/-- An [a] vector cast to an [a, 1] column reads, at `j`, the vector at `j`'s row. -/
theorem shapeCast_keepdims_apply {a : ℕ} (x : (⟨1, ![a]⟩ : Shape).Idx → α) (h : (⟨1, ![a]⟩ : Shape).ShapeCasts ⟨2, ![a, 1]⟩)
    (j : (⟨2, ![a, 1]⟩ : Shape).Idx) : shapeCast ⟨2, ![a, 1]⟩ x h j = x (ix1 ⟨(j 0).val, (j 0).isLt⟩) :=
  shapeCast_apply x h _ _ (by
    rw [Shape.rowMajor_val_two, Shape.rowMajor_val_one]
    have h1 : (j 1).val < 1 := (j 1).isLt
    show (j 0).val = (j 0).val * 1 + (j 1).val
    omega)

/-- The sum a plain product contracts over, re-indexed by the shared coordinate: for a record `D` whose one contracted
    axis has extent `K` and whose operand indices at output index `i` and contraction index `q` are (i 0, q) and (q, i 1). -/
theorem sum_contr_eq {M K N : ℕ} (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (l : (⟨2, ![M, K]⟩ : Shape).Idx → EReal) (r : (⟨2, ![K, N]⟩ : Shape).Idx → EReal) (i : (⟨2, ![M, N]⟩ : Shape).Idx) :
    ∑ q : D.contr.Idx, l (D.lhsIdx i q) * r (D.rhsIdx i q) = ∑ k : Fin K, l (lhsAt i k) * r (rhsAt i k) := by
  rw [← Equiv.sum_comp (contrEquiv1 D K hr hs).symm]
  refine Finset.sum_congr rfl fun k _ => ?_
  have hk := contrEquiv1_symm_val D K hr hs k
  have el : D.lhsIdx i ((contrEquiv1 D K hr hs).symm k) = lhsAt i k := funext fun a => Fin.ext (by
    match a with
    | ⟨0, _⟩ => exact hl0 _ _
    | ⟨1, _⟩ => exact (hl1 _ _).trans hk)
  have er : D.rhsIdx i ((contrEquiv1 D K hr hs).symm k) = rhsAt i k := funext fun a => Fin.ext (by
    match a with
    | ⟨0, _⟩ => exact (hr0 _ _).trans hk
    | ⟨1, _⟩ => exact hr1 _ _)
  rw [el, er]

/-! ## The host's `broadcast_in_dim` of a column, a row and a vector -/

/-- An [a, 1] column placed on both axes of [a, b] reads, at `j`, the column's entry in `j`'s row. -/
theorem broadcastInDim_col_apply {a b : ℕ} (h : (⟨2, ![a, 1]⟩ : Shape).BroadcastsInDim ⟨2, ![a, b]⟩ ![0, 1])
    (v : (⟨2, ![a, 1]⟩ : Shape).Idx → α) (j : (⟨2, ![a, b]⟩ : Shape).Idx) :
    broadcastInDim ⟨2, ![a, b]⟩ ![0, 1] h v j = v (colAt j) := by
  refine broadcastInDim_apply _ h v j (colAt j) fun ax => ?_
  match ax with
  | ⟨0, _⟩ =>
    show (j 0).val = if a = 1 then 0 else (j 0).val
    split
    · have h0 : (j 0).val < a := (j 0).isLt
      omega
    · rfl
  | ⟨1, _⟩ =>
    show 0 = if (1 : Nat) = 1 then 0 else (j 1).val
    rw [if_pos rfl]

/-- A [1, b] row placed on both axes of [a, b] reads, at `j`, the row's entry in `j`'s column. -/
theorem broadcastInDim_row_apply {a b : ℕ} (h : (⟨2, ![1, b]⟩ : Shape).BroadcastsInDim ⟨2, ![a, b]⟩ ![0, 1])
    (v : (⟨2, ![1, b]⟩ : Shape).Idx → α) (j : (⟨2, ![a, b]⟩ : Shape).Idx) :
    broadcastInDim ⟨2, ![a, b]⟩ ![0, 1] h v j = v (rowAt j) := by
  refine broadcastInDim_apply _ h v j (rowAt j) fun ax => ?_
  match ax with
  | ⟨0, _⟩ =>
    show 0 = if (1 : Nat) = 1 then 0 else (j 0).val
    rw [if_pos rfl]
  | ⟨1, _⟩ =>
    show (j 1).val = if b = 1 then 0 else (j 1).val
    split
    · have h1 : (j 1).val < b := (j 1).isLt
      omega
    · rfl

/-- An [a] vector placed on axis 0 of an [a, 1] column reads, at `j`, the vector at `j`'s row. -/
theorem broadcastInDim_keepdims_apply {a : ℕ} (h : (⟨1, ![a]⟩ : Shape).BroadcastsInDim ⟨2, ![a, 1]⟩ ![0])
    (v : (⟨1, ![a]⟩ : Shape).Idx → α) (j : (⟨2, ![a, 1]⟩ : Shape).Idx) :
    broadcastInDim ⟨2, ![a, 1]⟩ ![0] h v j = v (ix1 ⟨(j 0).val, (j 0).isLt⟩) := by
  refine broadcastInDim_apply _ h v j (ix1 ⟨(j 0).val, (j 0).isLt⟩) fun ax => ?_
  match ax with
  | ⟨0, _⟩ =>
    show (j 0).val = if a = 1 then 0 else (j 0).val
    split
    · have h0 : (j 0).val < a := (j 0).isLt
      omega
    · rfl

/-- A [b] vector placed on axis 1 of a [1, b] row reads, at `j`, the vector at `j`'s column. -/
theorem broadcastInDim_rowvec_apply {b : ℕ} (h : (⟨1, ![b]⟩ : Shape).BroadcastsInDim ⟨2, ![1, b]⟩ ![1])
    (v : (⟨1, ![b]⟩ : Shape).Idx → α) (j : (⟨2, ![1, b]⟩ : Shape).Idx) :
    broadcastInDim ⟨2, ![1, b]⟩ ![1] h v j = v (ix1 ⟨(j 1).val, (j 1).isLt⟩) := by
  refine broadcastInDim_apply _ h v j (ix1 ⟨(j 1).val, (j 1).isLt⟩) fun ax => ?_
  match ax with
  | ⟨0, _⟩ =>
    show (j 1).val = if b = 1 then 0 else (j 1).val
    split
    · have h1 : (j 1).val < b := (j 1).isLt
      omega
    · rfl

/-- A [b] vector cast to a [1, b] row reads, at `j`, the vector at `j`'s column. -/
theorem shapeCast_rowvec_apply {b : ℕ} (x : (⟨1, ![b]⟩ : Shape).Idx → α) (h : (⟨1, ![b]⟩ : Shape).ShapeCasts ⟨2, ![1, b]⟩)
    (j : (⟨2, ![1, b]⟩ : Shape).Idx) : shapeCast ⟨2, ![1, b]⟩ x h j = x (ix1 ⟨(j 1).val, (j 1).isLt⟩) :=
  shapeCast_apply x h _ _ (by
    rw [Shape.rowMajor_val_two, Shape.rowMajor_val_one]
    have h0 : (j 0).val < 1 := (j 0).isLt
    show (j 1).val = (j 0).val * b + (j 1).val
    have : (j 0).val = 0 := by omega
    rw [this, Nat.zero_mul, Nat.zero_add])

/-! ## Three layer shapes, entry by entry -/

/-- Rows scaled by a column, then a matrix product: entry (r, c) is the sum over k of (X (r, k) · s (r, 0)) · W (k, c). -/
def scaleDot {M K N : ℕ} (X : (⟨2, ![M, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (X (lhsAt i k) * s (colAt i)) * W (rhsAt i k)

/-- One activated entry: the aggregate scaled by its row's factor, plus the bias of its column, floored at `z`. -/
def actAt {M K : ℕ} (z : EReal) (A : (⟨2, ![M, K]⟩ : Shape).Idx → EReal) (d : (⟨2, ![M, 1]⟩ : Shape).Idx → EReal)
    (b : (⟨2, ![1, K]⟩ : Shape).Idx → EReal) (i : (⟨2, ![M, K]⟩ : Shape).Idx) : EReal :=
  max (A i * d (colAt i) + b (rowAt i)) z

/-- Activated rows scaled by a second column, then a matrix product. -/
def actScaleDot {M K N : ℕ} (z : EReal) (A : (⟨2, ![M, K]⟩ : Shape).Idx → EReal) (d : (⟨2, ![M, 1]⟩ : Shape).Idx → EReal)
    (b : (⟨2, ![1, K]⟩ : Shape).Idx → EReal) (s : (⟨2, ![M, 1]⟩ : Shape).Idx → EReal)
    (W : (⟨2, ![K, N]⟩ : Shape).Idx → EReal) : (⟨2, ![M, N]⟩ : Shape).Idx → EReal :=
  fun i => ∑ k : Fin K, (actAt z A d b (lhsAt i k) * s (colAt i)) * W (rhsAt i k)

/-- Activated rows times a matrix, plus one row added to every row. -/
def actDotBias {M K N : ℕ} (z : EReal) (A : (⟨2, ![M, K]⟩ : Shape).Idx → EReal) (d : (⟨2, ![M, 1]⟩ : Shape).Idx → EReal)
    (b : (⟨2, ![1, K]⟩ : Shape).Idx → EReal) (W : (⟨2, ![K, N]⟩ : Shape).Idx → EReal)
    (o : (⟨2, ![1, N]⟩ : Shape).Idx → EReal) : (⟨2, ![M, N]⟩ : Shape).Idx → EReal :=
  fun i => (∑ k : Fin K, actAt z A d b (lhsAt i k) * W (rhsAt i k)) + o (rowAt i)

end Idealize.ShloMosaic.PlainDot

end
-- ==== Proof.Spec.lean ====
/-
  The two node-wise stages of one graph-convolution layer, as whole-array functions of their operands, entry by entry.

  A layer first multiplies the node features X (one row per node) by a weight matrix W and scales row r of the product
  by that node's factor s (r, 0): entry (r, c) is (the sum over k of X (r, k) · W (k, c)) · s (r, 0).
  After the neighbours' rows have been summed into A, the layer adds the node's own scaled row P to the aggregate,
  scales the sum by the node's factor again and adds the bias row: entry (r, c) is s (r, 0) · (A (r, c) + P (r, c)) + b (0, c),
  floored at zero when the layer has a rectifier.
-/
import Idealize.ShloMosaic.Lib.ValueIdx
import Idealize.ShloMosaic.PureOps.Ideal.Laws
import proofs.«162121_j80942953660708_2_alg».proof.Proof.LibPlainDot
import proofs.«162121_j80942953660708_2_alg».proof.Proof.LibRowForms

noncomputable section

open scoped BigOperators

namespace Cert.Gcn

open Idealize.ShloMosaic Idealize.ShloMosaic.PlainDot

/-- Rows of the product X·W, each scaled by its row's factor: entry (r, c) is (∑ k, X (r, k) · W (k, c)) · s (r, 0). -/
def scaledProduct {M K N : ℕ} (X : (⟨2, ![M, K]⟩ : Shape).Idx → EReal) (W : (⟨2, ![K, N]⟩ : Shape).Idx → EReal)
    (s : (⟨2, ![M, 1]⟩ : Shape).Idx → EReal) : (⟨2, ![M, N]⟩ : Shape).Idx → EReal :=
  fun i => (∑ k : Fin K, X (lhsAt i k) * W (rhsAt i k)) * s (colAt i)

/-- The aggregate plus the node's own row, scaled by the node's factor, plus the bias row:
    entry (r, c) is s (r, 0) · (A (r, c) + P (r, c)) + b (0, c). -/
def combine {M N : ℕ} (A P : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => s (colAt i) * (A i + P i) + b (rowAt i)

/-- `combine` floored at zero, entry by entry. -/
def combineRelu {M N : ℕ} (A P : (⟨2, ![M, N]⟩ : Shape).Idx → EReal) (s : (⟨2, ![M, 1]⟩ : Shape).Idx → EReal)
    (b : (⟨2, ![1, N]⟩ : Shape).Idx → EReal) : (⟨2, ![M, N]⟩ : Shape).Idx → EReal :=
  fun i => max (combine A P s b i) 0

end Cert.Gcn

end
-- ==== Proof.Region0.lean ====
/-
  The first layer's row-scaled product, as a whole array.

  The first region cuts the node features X (50000 rows of 128) into 25 blocks of 2000 rows. At each block it multiplies the
  block by the whole weight matrix W (128 by 128) and scales row r of the product by the node's factor s (r, 0); the result
  goes to the same rows of the output. Entry (r, c) of one block's result therefore depends on row r of X, column c of W and
  entry r of s only, so the 25 blocks are the restrictions of one function of the three arrays: entry (r, c) of the output is
  (the sum over k of X (r, k) · W (k, c)) · s (r, 0). Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets0 : (![0, 0] : Fin 2 → Nat) = fun _ => 0 := funext fun a => by fin_cases a <;> rfl

/-- One entry of a block's result: the row of the feature block times the column of the weights, scaled by the row's factor. -/
theorem pay0_apply (x0 : Vec Ideal S2000x128 .f32) (x1 : Vec Ideal S128x128 .f32) (x2 : Vec Ideal S2000x1 .f32)
    (j : S2000x128.Idx) :
    k0_pay1 (F := Ideal) x0 x1 x2 j = (∑ k : Fin 128, x0 (lhsAt j k) * x1 (rhsAt j k)) * x2 (colAt j) := by
  unfold k0_pay1
  simp only [matmul, Ideal.matmul_constant_zero_apply, truncf_apply, mulf_apply, shapeCast_self]
  rw [broadcastTo_col_apply]
  rw [sum_contr_eq (K := 128) dot_S2000x128_S128x128_S2000x128_1_0_0_1_n_n rfl rfl (fun _ _ => rfl) (fun _ _ => rfl)
    (fun _ _ => rfl) (fun _ _ => rfl)]

/-- The same entry when the three blocks are pieces of whole arrays: if the block's row is row `i 0` of X and of s, and the
    weights' block is all of W, the entry is the whole-array product's at `i`. -/
theorem point0 (X : S50000x128.Idx → EReal) (W : S128x128.Idx → EReal) (s : S50000x1.Idx → EReal)
    (x0 : Vec Ideal S2000x128 .f32) (x1 : Vec Ideal S128x128 .f32) (x2 : Vec Ideal S2000x1 .f32)
    (y : S2000x128.Idx) (i : S50000x128.Idx)
    (h0 : ∀ k : Fin 128, x0 (lhsAt y k) = X (lhsAt i k))
    (h1 : ∀ k : Fin 128, x1 (rhsAt y k) = W (rhsAt i k))
    (h2 : x2 (colAt y) = s (colAt i)) :
    k0_pay1 (F := Ideal) x0 x1 x2 y = Cert.Gcn.scaledProduct X W s i := by
  rw [pay0_apply, h2]
  unfold Cert.Gcn.scaledProduct
  refine congrArg (· * s (colAt i)) (Finset.sum_congr rfl fun k _ => ?_)
  rw [h0 k, h1 k]

/-- Where the blocks sit, decided over the 25 points: the features', the factors' and the output's block at point `t` is
    block `t` along the rows, and the weights' block is always the whole matrix. -/
theorem block_index0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

section
variable (V : (c : Dev nD) → (b : Ref sig .tc) → Buf (Elt Ideal) ((c : Thread nD τ).loc b))

/-- What point `t` writes back is block `t` of the whole-array product of the arrays as the region finds them. -/
theorem flushed0_eq (c : Dev nD) (t : Fin cfg0.N) :
    (dat0 (F := Ideal) V c).flushed 3 t = ((cfg0.win 3).blk t).view.read (Elt Ideal)
      (Cert.Gcn.scaledProduct (V c (Pipeline.arrRef spec0 0)) (V c (Pipeline.arrRef spec0 1)) (V c (Pipeline.arrRef spec0 2))) := by
  show (cfg0.win 3).cut (grid0.coords t) ((dat0 V c).after 3 t) = _
  rw [after0_3]
  unfold out0_3
  rw [View.canon_unit_zero zero_offsets0]
  simp only [View.ld_unit_zero (S := S2000x128) zero_offsets0, View.ld_unit_zero (S := S128x128) zero_offsets0,
    View.ld_unit_zero (S := S2000x1) zero_offsets0]
  obtain ⟨e00, e01, e10, e11, e20, e21, e30, e31⟩ := block_index0 t
  funext y
  show k0_pay1 (iblk0 V c 0 t) (iblk0 V c 1 t) (iblk0 V c 2 t) y
    = Cert.Gcn.scaledProduct (V c (Pipeline.arrRef spec0 0)) (V c (Pipeline.arrRef spec0 1)) (V c (Pipeline.arrRef spec0 2))
        (((cfg0.win 3).blk t).view.emb y)
  have hy0 : (y 0).val < 2000 := (y 0).isLt
  have hy1 : (y 1).val < 128 := (y 1).isLt
  refine point0 _ _ _ _ _ _ y _ (fun k => ?_) (fun k => ?_) ?_
  · have e : ((cfg0.win 0).blk t).view.emb (lhsAt y k) = lhsAt (((cfg0.win 3).blk t).view.emb y) k := by
      funext a; apply Fin.ext
      match a with
      | ⟨0, _⟩ => show win0_0.index t (0 : Fin 2) * 2000 + 1 * (y 0).val = win0_3.index t (0 : Fin 2) * 2000 + 1 * (y 0).val; rw [e00, e30]
      | ⟨1, _⟩ => show win0_0.index t (1 : Fin 2) * 128 + 1 * k.val = k.val; rw [e01]; omega
    show V c (Pipeline.arrRef spec0 0) (((cfg0.win 0).blk t).view.emb (lhsAt y k)) = _
    rw [e]
  · have e : ((cfg0.win 1).blk t).view.emb (rhsAt y k) = rhsAt (((cfg0.win 3).blk t).view.emb y) k := by
      funext a; apply Fin.ext
      match a with
      | ⟨0, _⟩ => show win0_1.index t (0 : Fin 2) * 128 + 1 * k.val = k.val; rw [e10]; omega
      | ⟨1, _⟩ => show win0_1.index t (1 : Fin 2) * 128 + 1 * (y 1).val = win0_3.index t (1 : Fin 2) * 128 + 1 * (y 1).val; rw [e11, e31]
    show V c (Pipeline.arrRef spec0 1) (((cfg0.win 1).blk t).view.emb (rhsAt y k)) = _
    rw [e]
  · have e : ((cfg0.win 2).blk t).view.emb (colAt y) = colAt (((cfg0.win 3).blk t).view.emb y) := by
      funext a; apply Fin.ext
      match a with
      | ⟨0, _⟩ => show win0_2.index t (0 : Fin 2) * 2000 + 1 * (y 0).val = win0_3.index t (0 : Fin 2) * 2000 + 1 * (y 0).val; rw [e20, e30]
      | ⟨1, _⟩ => show win0_2.index t (1 : Fin 2) * 1 + 1 * 0 = 0; rw [e21]
    show V c (Pipeline.arrRef spec0 2) (((cfg0.win 2).blk t).view.emb (colAt y)) = _
    rw [e]

/-- An index of the output is in point `t`'s block iff each coordinate is in the block's range on its axis. -/
theorem mem_blk0 (t : Fin cfg0.N) (i : S50000x128.Idx) :
    i ∈ ((cfg0.win 3).blk t).view.set ↔ ∀ a : Fin 2, win0_3.index t a * S2000x128.size a ≤ (i a).val
      ∧ (i a).val < win0_3.index t a * S2000x128.size a + S2000x128.size a := by
  show i ∈ ((View.whole main_v12).slice (win0_3.rect t)).set ↔ _
  rw [View.set_slice_whole, Rect.mem_set_unit]
  exact Iff.rfl

/-- Row `r` of the output is written by point `r / 2000`. -/
theorem cover0 (i : S50000x128.Idx) :
    ∃ t : Fin cfg0.N, (cfg0.win 3).flush t = true ∧ i ∈ ((cfg0.win 3).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  obtain ⟨-, -, -, -, -, -, e30, e31⟩ := block_index0 t
  refine ⟨t, flush0_3 t, ?_⟩
  rw [mem_blk0]
  intro a
  match a with
  | ⟨0, _⟩ =>
    show win0_3.index t (0 : Fin 2) * 2000 ≤ (i 0).val ∧ (i 0).val < win0_3.index t (0 : Fin 2) * 2000 + 2000
    rw [e30, ht]; omega
  | ⟨1, _⟩ =>
    show win0_3.index t (1 : Fin 2) * 128 ≤ (i 1).val ∧ (i 1).val < win0_3.index t (1 : Fin 2) * 128 + 128
    rw [e31]; omega

/-- The first region's output array after the run: the row-scaled product of the three arrays as the region finds them. -/
theorem region0 (c : Dev nD) :
    (dat0 (F := Ideal) V c).arrAt 3 cfg0.N
      = Cert.Gcn.scaledProduct (V c (Pipeline.arrRef spec0 0)) (V c (Pipeline.arrRef spec0 1)) (V c (Pipeline.arrRef spec0 2)) :=
  (dat0 V c).arrAt_eq_of_cover 3 _ (fun t _ => flushed0_eq V c t) (cover0)

end

end Cert.KernelIdeal.RegionValue

end
-- ==== Proof.Region1.lean ====
/-
  The first layer's combining step, as a whole array.

  This region cuts the aggregate A and the nodes' own scaled rows P (50000 rows of 128 each) and the factors s into 25 blocks
  of 2000 rows. At each block it adds the two row blocks, scales row r of the sum by the node's factor s (r, 0) and adds the
  bias row b to every row, floored at zero; the result goes to the same rows of the output. Entry (r, c) of one block's
  result depends on entry (r, c) of A and of P, entry r of s and entry c of b only, so the 25 blocks are the restrictions of
  one function of the four arrays: entry (r, c) of the output is s (r, 0) · (A (r, c) + P (r, c)) + b (0, c), floored at zero.
  Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets1 : (![0, 0] : Fin 2 → Nat) = fun _ => 0 := funext fun a => by fin_cases a <;> rfl

/-- One entry of a block's result: the factor of the row times the sum of the two entries, plus the bias of the column, floored at zero. -/
theorem pay1_apply (v0 : Vec Ideal S2000x1 .f32) (v2 : Vec Ideal S2000x128 .bf16) (v5 : Vec Ideal S1x128 .f32)
    (v9 : Vec Ideal S2000x128 .f32) (j : S2000x128.Idx) :
    k1_pay1 (F := Ideal) v0 v2 v5 v9 j = max (v0 (colAt j) * (v9 j + v2 j) + v5 (rowAt j)) 0 := by
  unfold k1_pay1
  simp only [maximumf_apply, addf_apply, mulf_apply, extf_apply, shapeCast_self, broadcast_apply]
  rw [broadcastTo_col_apply, broadcastTo_row_apply]
  rw [show Scalar.ofBits (F := Ideal) .f32 0x00000000#32 = (0 : EReal) from Ideal.ofBits_zero_f32]

/-- The same entry when the four blocks are pieces of whole arrays: if the block's entry is entry `i` of A and of P, its
    row is row `i 0` of s, and the bias block is all of b, the entry is the whole-array combination's at `i`. -/
theorem point1 (A P : S50000x128.Idx → EReal) (s : S50000x1.Idx → EReal) (b : S1x128.Idx → EReal)
    (x0 : Vec Ideal S2000x128 .f32) (x1 : Vec Ideal S2000x128 .bf16) (x2 : Vec Ideal S2000x1 .f32) (x3 : Vec Ideal S1x128 .f32)
    (y : S2000x128.Idx) (i : S50000x128.Idx)
    (h0 : x0 y = A i) (h1 : x1 y = P i) (h2 : x2 (colAt y) = s (colAt i)) (h3 : x3 (rowAt y) = b (rowAt i)) :
    k1_pay1 (F := Ideal) x2 x1 x3 x0 y = Cert.Gcn.combineRelu A P s b i := by
  rw [pay1_apply, h0, h1, h2, h3]
  rfl

/-- Where the blocks sit, decided over the 25 points: the aggregate's, the own rows', the factors' and the output's block
    at point `t` is block `t` along the rows, and the bias' block is always the whole row. -/
theorem block_index1 : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

section
variable (V : (c : Dev nD) → (b : Ref sig .tc) → Buf (Elt Ideal) ((c : Thread nD τ).loc b))

/-- The aggregate's block at point `t` holds, at `y`, the aggregate at the entry of the output's block `t` that `y` names. -/
theorem read1_0 (c : Dev nD) (t : Fin cfg1.N) (y : S2000x128.Idx) :
    iblk1 V c 0 t y = V c (Pipeline.arrRef spec1 0) (((cfg1.win 4).blk t).view.emb y) := by
  obtain ⟨e00, e01, -, -, -, -, -, -, e40, e41⟩ := block_index1 t
  have e : ((cfg1.win 0).blk t).view.emb y = ((cfg1.win 4).blk t).view.emb y := by
    funext a; apply Fin.ext
    match a with
    | ⟨0, _⟩ => show win1_0.index t (0 : Fin 2) * 2000 + 1 * (y 0).val = win1_4.index t (0 : Fin 2) * 2000 + 1 * (y 0).val; rw [e00, e40]
    | ⟨1, _⟩ => show win1_0.index t (1 : Fin 2) * 128 + 1 * (y 1).val = win1_4.index t (1 : Fin 2) * 128 + 1 * (y 1).val; rw [e01, e41]
  show V c (Pipeline.arrRef spec1 0) (((cfg1.win 0).blk t).view.emb y) = _
  rw [e]

/-- The own rows' block likewise. -/
theorem read1_1 (c : Dev nD) (t : Fin cfg1.N) (y : S2000x128.Idx) :
    iblk1 V c 1 t y = V c (Pipeline.arrRef spec1 1) (((cfg1.win 4).blk t).view.emb y) := by
  obtain ⟨-, -, e10, e11, -, -, -, -, e40, e41⟩ := block_index1 t
  have e : ((cfg1.win 1).blk t).view.emb y = ((cfg1.win 4).blk t).view.emb y := by
    funext a; apply Fin.ext
    match a with
    | ⟨0, _⟩ => show win1_1.index t (0 : Fin 2) * 2000 + 1 * (y 0).val = win1_4.index t (0 : Fin 2) * 2000 + 1 * (y 0).val; rw [e10, e40]
    | ⟨1, _⟩ => show win1_1.index t (1 : Fin 2) * 128 + 1 * (y 1).val = win1_4.index t (1 : Fin 2) * 128 + 1 * (y 1).val; rw [e11, e41]
  show V c (Pipeline.arrRef spec1 1) (((cfg1.win 1).blk t).view.emb y) = _
  rw [e]

/-- The factors' block at point `t` holds, in `y`'s row, the factor of the output row that `y` names. -/
theorem read1_2 (c : Dev nD) (t : Fin cfg1.N) (y : S2000x128.Idx) :
    iblk1 V c 2 t (colAt y) = V c (Pipeline.arrRef spec1 2) (colAt (((cfg1.win 4).blk t).view.emb y)) := by
  obtain ⟨-, -, -, -, e20, e21, -, -, e40, -⟩ := block_index1 t
  have e : ((cfg1.win 2).blk t).view.emb (colAt y) = colAt (((cfg1.win 4).blk t).view.emb y) := by
    funext a; apply Fin.ext
    match a with
    | ⟨0, _⟩ => show win1_2.index t (0 : Fin 2) * 2000 + 1 * (y 0).val = win1_4.index t (0 : Fin 2) * 2000 + 1 * (y 0).val; rw [e20, e40]
    | ⟨1, _⟩ => show win1_2.index t (1 : Fin 2) * 1 + 1 * 0 = 0; rw [e21]
  show V c (Pipeline.arrRef spec1 2) (((cfg1.win 2).blk t).view.emb (colAt y)) = _
  rw [e]

/-- The bias' block is the whole bias row: in `y`'s column it holds the bias of the output column that `y` names. -/
theorem read1_3 (c : Dev nD) (t : Fin cfg1.N) (y : S2000x128.Idx) :
    iblk1 V c 3 t (rowAt y) = V c (Pipeline.arrRef spec1 3) (rowAt (((cfg1.win 4).blk t).view.emb y)) := by
  obtain ⟨-, -, -, -, -, -, e30, e31, -, e41⟩ := block_index1 t
  have e : ((cfg1.win 3).blk t).view.emb (rowAt y) = rowAt (((cfg1.win 4).blk t).view.emb y) := by
    funext a; apply Fin.ext
    match a with
    | ⟨0, _⟩ => show win1_3.index t (0 : Fin 2) * 1 + 1 * 0 = 0; rw [e30]
    | ⟨1, _⟩ => show win1_3.index t (1 : Fin 2) * 128 + 1 * (y 1).val = win1_4.index t (1 : Fin 2) * 128 + 1 * (y 1).val; rw [e31, e41]
  show V c (Pipeline.arrRef spec1 3) (((cfg1.win 3).blk t).view.emb (rowAt y)) = _
  rw [e]

/-- What point `t` writes back is block `t` of the whole-array combination of the arrays as the region finds them. -/
theorem flushed1_eq (c : Dev nD) (t : Fin cfg1.N) :
    (dat1 (F := Ideal) V c).flushed 4 t = ((cfg1.win 4).blk t).view.read (Elt Ideal)
      (Cert.Gcn.combineRelu (V c (Pipeline.arrRef spec1 0)) (V c (Pipeline.arrRef spec1 1)) (V c (Pipeline.arrRef spec1 2))
        (V c (Pipeline.arrRef spec1 3))) := by
  show (cfg1.win 4).cut (grid1.coords t) ((dat1 V c).after 4 t) = _
  rw [after1_4]
  unfold out1_4
  rw [View.canon_unit_zero zero_offsets1]
  simp only [View.ld_unit_zero (S := S2000x128) zero_offsets1, View.ld_unit_zero (S := S2000x1) zero_offsets1,
    View.ld_unit_zero (S := S1x128) zero_offsets1]
  funext y
  exact point1 _ _ _ _ _ _ _ _ y _ (read1_0 V c t y) (read1_1 V c t y) (read1_2 V c t y) (read1_3 V c t y)

/-- An index of the output is in point `t`'s block iff each coordinate is in the block's range on its axis. -/
theorem mem_blk1 (t : Fin cfg1.N) (i : S50000x128.Idx) :
    i ∈ ((cfg1.win 4).blk t).view.set ↔ ∀ a : Fin 2, win1_4.index t a * S2000x128.size a ≤ (i a).val
      ∧ (i a).val < win1_4.index t a * S2000x128.size a + S2000x128.size a := by
  show i ∈ ((View.whole main_v25).slice (win1_4.rect t)).set ↔ _
  rw [View.set_slice_whole, Rect.mem_set_unit]
  exact Iff.rfl

/-- Row `r` of the output is written by point `r / 2000`. -/
theorem cover1 (i : S50000x128.Idx) :
    ∃ t : Fin cfg1.N, (cfg1.win 4).flush t = true ∧ i ∈ ((cfg1.win 4).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  obtain ⟨-, -, -, -, -, -, -, -, e40, e41⟩ := block_index1 t
  refine ⟨t, flush1_4 t, ?_⟩
  rw [mem_blk1]
  intro a
  match a with
  | ⟨0, _⟩ =>
    show win1_4.index t (0 : Fin 2) * 2000 ≤ (i 0).val ∧ (i 0).val < win1_4.index t (0 : Fin 2) * 2000 + 2000
    rw [e40, ht]; omega
  | ⟨1, _⟩ =>
    show win1_4.index t (1 : Fin 2) * 128 ≤ (i 1).val ∧ (i 1).val < win1_4.index t (1 : Fin 2) * 128 + 128
    rw [e41]; omega

/-- This region's output array after the run: the combination of the four arrays as the region finds them. -/
theorem region1 (c : Dev nD) :
    (dat1 (F := Ideal) V c).arrAt 4 cfg1.N
      = Cert.Gcn.combineRelu (V c (Pipeline.arrRef spec1 0)) (V c (Pipeline.arrRef spec1 1)) (V c (Pipeline.arrRef spec1 2))
          (V c (Pipeline.arrRef spec1 3)) :=
  (dat1 V c).arrAt_eq_of_cover 4 _ (fun t _ => flushed1_eq V c t) (cover1)

end

end Cert.KernelIdeal.RegionValue

end
-- ==== Proof.Region2.lean ====
/-
  The second layer's row-scaled product, as a whole array.

  This region cuts the node features X (50000 rows of 128) into 25 blocks of 2000 rows. At each block it multiplies the
  block by the whole weight matrix W (128 by 64) and scales row r of the product by the node's factor s (r, 0); the result
  goes to the same rows of the output. Entry (r, c) of one block's result therefore depends on row r of X, column c of W and
  entry r of s only, so the 25 blocks are the restrictions of one function of the three arrays: entry (r, c) of the output is
  (the sum over k of X (r, k) · W (k, c)) · s (r, 0). Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets2 : (![0, 0] : Fin 2 → Nat) = fun _ => 0 := funext fun a => by fin_cases a <;> rfl

/-- One entry of a block's result: the row of the feature block times the column of the weights, scaled by the row's factor. -/
theorem pay2_apply (x0 : Vec Ideal S2000x128 .f32) (x1 : Vec Ideal S128x64 .f32) (x2 : Vec Ideal S2000x1 .f32)
    (j : S2000x64.Idx) :
    k2_pay1 (F := Ideal) x0 x1 x2 j = (∑ k : Fin 128, x0 (lhsAt j k) * x1 (rhsAt j k)) * x2 (colAt j) := by
  unfold k2_pay1
  simp only [matmul, Ideal.matmul_constant_zero_apply, truncf_apply, mulf_apply, shapeCast_self]
  rw [broadcastTo_col_apply]
  rw [sum_contr_eq (K := 128) dot_S2000x128_S128x64_S2000x64_1_0_0_1_n_n rfl rfl (fun _ _ => rfl) (fun _ _ => rfl)
    (fun _ _ => rfl) (fun _ _ => rfl)]

/-- The same entry when the three blocks are pieces of whole arrays: if the block's row is row `i 0` of X and of s, and the
    weights' block is all of W, the entry is the whole-array product's at `i`. -/
theorem point2 (X : S50000x128.Idx → EReal) (W : S128x64.Idx → EReal) (s : S50000x1.Idx → EReal)
    (x0 : Vec Ideal S2000x128 .f32) (x1 : Vec Ideal S128x64 .f32) (x2 : Vec Ideal S2000x1 .f32)
    (y : S2000x64.Idx) (i : S50000x64.Idx)
    (h0 : ∀ k : Fin 128, x0 (lhsAt y k) = X (lhsAt i k))
    (h1 : ∀ k : Fin 128, x1 (rhsAt y k) = W (rhsAt i k))
    (h2 : x2 (colAt y) = s (colAt i)) :
    k2_pay1 (F := Ideal) x0 x1 x2 y = Cert.Gcn.scaledProduct X W s i := by
  rw [pay2_apply, h2]
  unfold Cert.Gcn.scaledProduct
  refine congrArg (· * s (colAt i)) (Finset.sum_congr rfl fun k _ => ?_)
  rw [h0 k, h1 k]

/-- Where the blocks sit, decided over the 25 points: the features', the factors' and the output's block at point `t` is
    block `t` along the rows, and the weights' block is always the whole matrix. -/
theorem block_index2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

section
variable (V : (c : Dev nD) → (b : Ref sig .tc) → Buf (Elt Ideal) ((c : Thread nD τ).loc b))

/-- The features' block at point `t` holds, in `y`'s row, the features of the output row that `y` names. -/
theorem read2_0 (c : Dev nD) (t : Fin cfg2.N) (y : S2000x64.Idx) (k : Fin 128) :
    iblk2 V c 0 t (lhsAt y k) = V c (Pipeline.arrRef spec2 0) (lhsAt (((cfg2.win 3).blk t).view.emb y) k) := by
  obtain ⟨e00, e01, -, -, -, -, e30, -⟩ := block_index2 t
  have e : ((cfg2.win 0).blk t).view.emb (lhsAt y k) = lhsAt (((cfg2.win 3).blk t).view.emb y) k := by
    funext a; apply Fin.ext
    match a with
    | ⟨0, _⟩ => show win2_0.index t (0 : Fin 2) * 2000 + 1 * (y 0).val = win2_3.index t (0 : Fin 2) * 2000 + 1 * (y 0).val; rw [e00, e30]
    | ⟨1, _⟩ => show win2_0.index t (1 : Fin 2) * 128 + 1 * k.val = k.val; rw [e01]; omega
  show V c (Pipeline.arrRef spec2 0) (((cfg2.win 0).blk t).view.emb (lhsAt y k)) = _
  rw [e]

/-- The weights' block is the whole matrix: in `y`'s column it holds the weights of the output column that `y` names. -/
theorem read2_1 (c : Dev nD) (t : Fin cfg2.N) (y : S2000x64.Idx) (k : Fin 128) :
    iblk2 V c 1 t (rhsAt y k) = V c (Pipeline.arrRef spec2 1) (rhsAt (((cfg2.win 3).blk t).view.emb y) k) := by
  obtain ⟨-, -, e10, e11, -, -, -, e31⟩ := block_index2 t
  have e : ((cfg2.win 1).blk t).view.emb (rhsAt y k) = rhsAt (((cfg2.win 3).blk t).view.emb y) k := by
    funext a; apply Fin.ext
    match a with
    | ⟨0, _⟩ => show win2_1.index t (0 : Fin 2) * 128 + 1 * k.val = k.val; rw [e10]; omega
    | ⟨1, _⟩ => show win2_1.index t (1 : Fin 2) * 64 + 1 * (y 1).val = win2_3.index t (1 : Fin 2) * 64 + 1 * (y 1).val; rw [e11, e31]
  show V c (Pipeline.arrRef spec2 1) (((cfg2.win 1).blk t).view.emb (rhsAt y k)) = _
  rw [e]

/-- The factors' block at point `t` holds, in `y`'s row, the factor of the output row that `y` names. -/
theorem read2_2 (c : Dev nD) (t : Fin cfg2.N) (y : S2000x64.Idx) :
    iblk2 V c 2 t (colAt y) = V c (Pipeline.arrRef spec2 2) (colAt (((cfg2.win 3).blk t).view.emb y)) := by
  obtain ⟨-, -, -, -, e20, e21, e30, -⟩ := block_index2 t
  have e : ((cfg2.win 2).blk t).view.emb (colAt y) = colAt (((cfg2.win 3).blk t).view.emb y) := by
    funext a; apply Fin.ext
    match a with
    | ⟨0, _⟩ => show win2_2.index t (0 : Fin 2) * 2000 + 1 * (y 0).val = win2_3.index t (0 : Fin 2) * 2000 + 1 * (y 0).val; rw [e20, e30]
    | ⟨1, _⟩ => show win2_2.index t (1 : Fin 2) * 1 + 1 * 0 = 0; rw [e21]
  show V c (Pipeline.arrRef spec2 2) (((cfg2.win 2).blk t).view.emb (colAt y)) = _
  rw [e]

/-- What point `t` writes back is block `t` of the whole-array product of the arrays as the region finds them. -/
theorem flushed2_eq (c : Dev nD) (t : Fin cfg2.N) :
    (dat2 (F := Ideal) V c).flushed 3 t = ((cfg2.win 3).blk t).view.read (Elt Ideal)
      (Cert.Gcn.scaledProduct (V c (Pipeline.arrRef spec2 0)) (V c (Pipeline.arrRef spec2 1)) (V c (Pipeline.arrRef spec2 2))) := by
  show (cfg2.win 3).cut (grid2.coords t) ((dat2 V c).after 3 t) = _
  rw [after2_3]
  unfold out2_3
  rw [View.canon_unit_zero zero_offsets2]
  simp only [View.ld_unit_zero (S := S2000x128) zero_offsets2,
    View.ld_unit_zero (S := S128x64) zero_offsets2,
    View.ld_unit_zero (S := S2000x1) zero_offsets2]
  funext y
  exact point2 _ _ _ _ _ _ y _ (read2_0 V c t y) (read2_1 V c t y) (read2_2 V c t y)

/-- An index of the output is in point `t`'s block iff each coordinate is in the block's range on its axis. -/
theorem mem_blk2 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v27).slice (win2_3.rect t)).set ↔ _
  rw [View.set_slice_whole, Rect.mem_set_unit]
  exact Iff.rfl

/-- Row `r` of the output is written by point `r / 2000`. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  obtain ⟨-, -, -, -, -, -, e30, e31⟩ := block_index2 t
  refine ⟨t, flush2_3 t, ?_⟩
  rw [mem_blk2]
  intro a
  match a with
  | ⟨0, _⟩ =>
    show win2_3.index t (0 : Fin 2) * 2000 ≤ (i 0).val ∧ (i 0).val < win2_3.index t (0 : Fin 2) * 2000 + 2000
    rw [e30, ht]; omega
  | ⟨1, _⟩ =>
    show win2_3.index t (1 : Fin 2) * 64 ≤ (i 1).val ∧ (i 1).val < win2_3.index t (1 : Fin 2) * 64 + 64
    rw [e31]; omega

/-- This region's output array after the run: the row-scaled product of the three arrays as the region finds them. -/
theorem region2 (c : Dev nD) :
    (dat2 (F := Ideal) V c).arrAt 3 cfg2.N
      = Cert.Gcn.scaledProduct (V c (Pipeline.arrRef spec2 0)) (V c (Pipeline.arrRef spec2 1)) (V c (Pipeline.arrRef spec2 2)) :=
  (dat2 V c).arrAt_eq_of_cover 3 _ (fun t _ => flushed2_eq V c t) (cover2)

end

end Cert.KernelIdeal.RegionValue

end
-- ==== Proof.Region3.lean ====
/-
  The second layer's combining step, as a whole array.

  This region cuts the aggregate A and the nodes' own scaled rows P (50000 rows of 64 each) and the factors s into 25 blocks
  of 2000 rows. At each block it adds the two row blocks, scales row r of the sum by the node's factor s (r, 0) and adds the
  bias row b to every row; the result goes to the same rows of the output. Entry (r, c) of one block's
  result depends on entry (r, c) of A and of P, entry r of s and entry c of b only, so the 25 blocks are the restrictions of
  one function of the four arrays: entry (r, c) of the output is s (r, 0) · (A (r, c) + P (r, c)) + b (0, c).
  Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets3 : (![0, 0] : Fin 2 → Nat) = fun _ => 0 := funext fun a => by fin_cases a <;> rfl

/-- One entry of a block's result: the factor of the row times the sum of the two entries, plus the bias of the column. -/
theorem pay3_apply (v0 : Vec Ideal S2000x1 .f32) (v2 : Vec Ideal S2000x64 .bf16) (v5 : Vec Ideal S1x64 .f32)
    (v9 : Vec Ideal S2000x64 .f32) (j : S2000x64.Idx) :
    k3_pay1 (F := Ideal) v0 v2 v5 v9 j = v0 (colAt j) * (v9 j + v2 j) + v5 (rowAt j) := by
  unfold k3_pay1
  simp only [addf_apply, mulf_apply, extf_apply, shapeCast_self]
  rw [broadcastTo_col_apply, broadcastTo_row_apply]

/-- The same entry when the four blocks are pieces of whole arrays: if the block's entry is entry `i` of A and of P, its
    row is row `i 0` of s, and the bias block is all of b, the entry is the whole-array combination's at `i`. -/
theorem point3 (A P : S50000x64.Idx → EReal) (s : S50000x1.Idx → EReal) (b : S1x64.Idx → EReal)
    (x0 : Vec Ideal S2000x64 .f32) (x1 : Vec Ideal S2000x64 .bf16) (x2 : Vec Ideal S2000x1 .f32) (x3 : Vec Ideal S1x64 .f32)
    (y : S2000x64.Idx) (i : S50000x64.Idx)
    (h0 : x0 y = A i) (h1 : x1 y = P i) (h2 : x2 (colAt y) = s (colAt i)) (h3 : x3 (rowAt y) = b (rowAt i)) :
    k3_pay1 (F := Ideal) x2 x1 x3 x0 y = Cert.Gcn.combine A P s b i := by
  rw [pay3_apply, h0, h1, h2, h3]
  rfl

/-- Where the blocks sit, decided over the 25 points: the aggregate's, the own rows', the factors' and the output's block
    at point `t` is block `t` along the rows, and the bias' block is always the whole row. -/
theorem block_index3 : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = t.val ∧ win3_2.index t (1 : Fin 2) = 0
    ∧ win3_3.index t (0 : Fin 2) = 0 ∧ win3_3.index t (1 : Fin 2) = 0
    ∧ win3_4.index t (0 : Fin 2) = t.val ∧ win3_4.index t (1 : Fin 2) = 0 :=
  (by decide +kernel : ∀ t : Fin grid3.N, _)

section
variable (V : (c : Dev nD) → (b : Ref sig .tc) → Buf (Elt Ideal) ((c : Thread nD τ).loc b))

/-- The aggregate's block at point `t` holds, at `y`, the aggregate at the entry of the output's block `t` that `y` names. -/
theorem read3_0 (c : Dev nD) (t : Fin cfg3.N) (y : S2000x64.Idx) :
    iblk3 V c 0 t y = V c (Pipeline.arrRef spec3 0) (((cfg3.win 4).blk t).view.emb y) := by
  obtain ⟨e00, e01, -, -, -, -, -, -, e40, e41⟩ := block_index3 t
  have e : ((cfg3.win 0).blk t).view.emb y = ((cfg3.win 4).blk t).view.emb y := by
    funext a; apply Fin.ext
    match a with
    | ⟨0, _⟩ => show win3_0.index t (0 : Fin 2) * 2000 + 1 * (y 0).val = win3_4.index t (0 : Fin 2) * 2000 + 1 * (y 0).val; rw [e00, e40]
    | ⟨1, _⟩ => show win3_0.index t (1 : Fin 2) * 64 + 1 * (y 1).val = win3_4.index t (1 : Fin 2) * 64 + 1 * (y 1).val; rw [e01, e41]
  show V c (Pipeline.arrRef spec3 0) (((cfg3.win 0).blk t).view.emb y) = _
  rw [e]

/-- The own rows' block likewise. -/
theorem read3_1 (c : Dev nD) (t : Fin cfg3.N) (y : S2000x64.Idx) :
    iblk3 V c 1 t y = V c (Pipeline.arrRef spec3 1) (((cfg3.win 4).blk t).view.emb y) := by
  obtain ⟨-, -, e10, e11, -, -, -, -, e40, e41⟩ := block_index3 t
  have e : ((cfg3.win 1).blk t).view.emb y = ((cfg3.win 4).blk t).view.emb y := by
    funext a; apply Fin.ext
    match a with
    | ⟨0, _⟩ => show win3_1.index t (0 : Fin 2) * 2000 + 1 * (y 0).val = win3_4.index t (0 : Fin 2) * 2000 + 1 * (y 0).val; rw [e10, e40]
    | ⟨1, _⟩ => show win3_1.index t (1 : Fin 2) * 64 + 1 * (y 1).val = win3_4.index t (1 : Fin 2) * 64 + 1 * (y 1).val; rw [e11, e41]
  show V c (Pipeline.arrRef spec3 1) (((cfg3.win 1).blk t).view.emb y) = _
  rw [e]

/-- The factors' block at point `t` holds, in `y`'s row, the factor of the output row that `y` names. -/
theorem read3_2 (c : Dev nD) (t : Fin cfg3.N) (y : S2000x64.Idx) :
    iblk3 V c 2 t (colAt y) = V c (Pipeline.arrRef spec3 2) (colAt (((cfg3.win 4).blk t).view.emb y)) := by
  obtain ⟨-, -, -, -, e20, e21, -, -, e40, -⟩ := block_index3 t
  have e : ((cfg3.win 2).blk t).view.emb (colAt y) = colAt (((cfg3.win 4).blk t).view.emb y) := by
    funext a; apply Fin.ext
    match a with
    | ⟨0, _⟩ => show win3_2.index t (0 : Fin 2) * 2000 + 1 * (y 0).val = win3_4.index t (0 : Fin 2) * 2000 + 1 * (y 0).val; rw [e20, e40]
    | ⟨1, _⟩ => show win3_2.index t (1 : Fin 2) * 1 + 1 * 0 = 0; rw [e21]
  show V c (Pipeline.arrRef spec3 2) (((cfg3.win 2).blk t).view.emb (colAt y)) = _
  rw [e]

/-- The bias' block is the whole bias row: in `y`'s column it holds the bias of the output column that `y` names. -/
theorem read3_3 (c : Dev nD) (t : Fin cfg3.N) (y : S2000x64.Idx) :
    iblk3 V c 3 t (rowAt y) = V c (Pipeline.arrRef spec3 3) (rowAt (((cfg3.win 4).blk t).view.emb y)) := by
  obtain ⟨-, -, -, -, -, -, e30, e31, -, e41⟩ := block_index3 t
  have e : ((cfg3.win 3).blk t).view.emb (rowAt y) = rowAt (((cfg3.win 4).blk t).view.emb y) := by
    funext a; apply Fin.ext
    match a with
    | ⟨0, _⟩ => show win3_3.index t (0 : Fin 2) * 1 + 1 * 0 = 0; rw [e30]
    | ⟨1, _⟩ => show win3_3.index t (1 : Fin 2) * 64 + 1 * (y 1).val = win3_4.index t (1 : Fin 2) * 64 + 1 * (y 1).val; rw [e31, e41]
  show V c (Pipeline.arrRef spec3 3) (((cfg3.win 3).blk t).view.emb (rowAt y)) = _
  rw [e]

/-- What point `t` writes back is block `t` of the whole-array combination of the arrays as the region finds them. -/
theorem flushed3_eq (c : Dev nD) (t : Fin cfg3.N) :
    (dat3 (F := Ideal) V c).flushed 4 t = ((cfg3.win 4).blk t).view.read (Elt Ideal)
      (Cert.Gcn.combine (V c (Pipeline.arrRef spec3 0)) (V c (Pipeline.arrRef spec3 1)) (V c (Pipeline.arrRef spec3 2))
        (V c (Pipeline.arrRef spec3 3))) := by
  show (cfg3.win 4).cut (grid3.coords t) ((dat3 V c).after 4 t) = _
  rw [after3_4]
  unfold out3_4
  rw [View.canon_unit_zero zero_offsets3]
  simp only [View.ld_unit_zero (S := S2000x64) zero_offsets3, View.ld_unit_zero (S := S2000x1) zero_offsets3,
    View.ld_unit_zero (S := S1x64) zero_offsets3]
  funext y
  exact point3 _ _ _ _ _ _ _ _ y _ (read3_0 V c t y) (read3_1 V c t y) (read3_2 V c t y) (read3_3 V c t y)

/-- An index of the output is in point `t`'s block iff each coordinate is in the block's range on its axis. -/
theorem mem_blk3 (t : Fin cfg3.N) (i : S50000x64.Idx) :
    i ∈ ((cfg3.win 4).blk t).view.set ↔ ∀ a : Fin 2, win3_4.index t a * S2000x64.size a ≤ (i a).val
      ∧ (i a).val < win3_4.index t a * S2000x64.size a + S2000x64.size a := by
  show i ∈ ((View.whole main_v40).slice (win3_4.rect t)).set ↔ _
  rw [View.set_slice_whole, Rect.mem_set_unit]
  exact Iff.rfl

/-- Row `r` of the output is written by point `r / 2000`. -/
theorem cover3 (i : S50000x64.Idx) :
    ∃ t : Fin cfg3.N, (cfg3.win 4).flush t = true ∧ i ∈ ((cfg3.win 4).blk t).view.set := by
  have hi0 : (i 0).val < 50000 := (i 0).isLt
  have hi1 : (i 1).val < 64 := (i 1).isLt
  have hN : cfg3.N = 25 := N_3
  obtain ⟨t, ht⟩ : ∃ t : Fin cfg3.N, t.val = (i 0).val / 2000 := ⟨⟨(i 0).val / 2000, by rw [hN]; omega⟩, rfl⟩
  obtain ⟨-, -, -, -, -, -, -, -, e40, e41⟩ := block_index3 t
  refine ⟨t, flush3_4 t, ?_⟩
  rw [mem_blk3]
  intro a
  match a with
  | ⟨0, _⟩ =>
    show win3_4.index t (0 : Fin 2) * 2000 ≤ (i 0).val ∧ (i 0).val < win3_4.index t (0 : Fin 2) * 2000 + 2000
    rw [e40, ht]; omega
  | ⟨1, _⟩ =>
    show win3_4.index t (1 : Fin 2) * 64 ≤ (i 1).val ∧ (i 1).val < win3_4.index t (1 : Fin 2) * 64 + 64
    rw [e41]; omega

/-- This region's output array after the run: the combination of the four arrays as the region finds them. -/
theorem region3 (c : Dev nD) :
    (dat3 (F := Ideal) V c).arrAt 4 cfg3.N
      = Cert.Gcn.combine (V c (Pipeline.arrRef spec3 0)) (V c (Pipeline.arrRef spec3 1)) (V c (Pipeline.arrRef spec3 2))
          (V c (Pipeline.arrRef spec3 3)) :=
  (dat3 V c).arrAt_eq_of_cover 4 _ (fun t _ => flushed3_eq V c t) (cover3)

end

end Cert.KernelIdeal.RegionValue

end
-- ==== Proof.Region4.lean ====
/-
  The third layer's row-scaled product, as a whole array.

  This region cuts the node features X (50000 rows of 64) into 25 blocks of 2000 rows. At each block it multiplies the
  block by the whole weight matrix W (64 by 128) and scales row r of the product by the node's factor s (r, 0); the result
  goes to the same rows of the output. Entry (r, c) of one block's result therefore depends on row r of X, column c of W and
  entry r of s only, so the 25 blocks are the restrictions of one function of the three arrays: entry (r, c) of the output is
  (the sum over k of X (r, k) · W (k, c)) · s (r, 0). Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets4 : (![0, 0] : Fin 2 → Nat) = fun _ => 0 := funext fun a => by fin_cases a <;> rfl

/-- One entry of a block's result: the row of the feature block times the column of the weights, scaled by the row's factor. -/
theorem pay4_apply (x0 : Vec Ideal S2000x64 .f32) (x1 : Vec Ideal S64x128 .f32) (x2 : Vec Ideal S2000x1 .f32)
    (j : S2000x128.Idx) :
    k4_pay1 (F := Ideal) x0 x1 x2 j = (∑ k : Fin 64, x0 (lhsAt j k) * x1 (rhsAt j k)) * x2 (colAt j) := by
  unfold k4_pay1
  simp only [matmul, Ideal.matmul_constant_zero_apply, truncf_apply, mulf_apply, shapeCast_self]
  rw [broadcastTo_col_apply]
  rw [sum_contr_eq (K := 64) dot_S2000x64_S64x128_S2000x128_1_0_0_1_n_n rfl rfl (fun _ _ => rfl) (fun _ _ => rfl)
    (fun _ _ => rfl) (fun _ _ => rfl)]

/-- The same entry when the three blocks are pieces of whole arrays: if the block's row is row `i 0` of X and of s, and the
    weights' block is all of W, the entry is the whole-array product's at `i`. -/
theorem point4 (X : S50000x64.Idx → EReal) (W : S64x128.Idx → EReal) (s : S50000x1.Idx → EReal)
    (x0 : Vec Ideal S2000x64 .f32) (x1 : Vec Ideal S64x128 .f32) (x2 : Vec Ideal S2000x1 .f32)
    (y : S2000x128.Idx) (i : S50000x128.Idx)
    (h0 : ∀ k : Fin 64, x0 (lhsAt y k) = X (lhsAt i k))
    (h1 : ∀ k : Fin 64, x1 (rhsAt y k) = W (rhsAt i k))
    (h2 : x2 (colAt y) = s (colAt i)) :
    k4_pay1 (F := Ideal) x0 x1 x2 y = Cert.Gcn.scaledProduct X W s i := by
  rw [pay4_apply, h2]
  unfold Cert.Gcn.scaledProduct
  refine congrArg (· * s (colAt i)) (Finset.sum_congr rfl fun k _ => ?_)
  rw [h0 k, h1 k]

/-- Where the blocks sit, decided over the 25 points: the features', the factors' and the output's block at point `t` is
    block `t` along the rows, and the weights' block is always the whole matrix. -/
theorem block_index4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

section
variable (V : (c : Dev nD) → (b : Ref sig .tc) → Buf (Elt Ideal) ((c : Thread nD τ).loc b))

/-- The features' block at point `t` holds, in `y`'s row, the features of the output row that `y` names. -/
theorem read4_0 (c : Dev nD) (t : Fin cfg4.N) (y : S2000x128.Idx) (k : Fin 64) :
    iblk4 V c 0 t (lhsAt y k) = V c (Pipeline.arrRef spec4 0) (lhsAt (((cfg4.win 3).blk t).view.emb y) k) := by
  obtain ⟨e00, e01, -, -, -, -, e30, -⟩ := block_index4 t
  have e : ((cfg4.win 0).blk t).view.emb (lhsAt y k) = lhsAt (((cfg4.win 3).blk t).view.emb y) k := by
    funext a; apply Fin.ext
    match a with
    | ⟨0, _⟩ => show win4_0.index t (0 : Fin 2) * 2000 + 1 * (y 0).val = win4_3.index t (0 : Fin 2) * 2000 + 1 * (y 0).val; rw [e00, e30]
    | ⟨1, _⟩ => show win4_0.index t (1 : Fin 2) * 64 + 1 * k.val = k.val; rw [e01]; omega
  show V c (Pipeline.arrRef spec4 0) (((cfg4.win 0).blk t).view.emb (lhsAt y k)) = _
  rw [e]

/-- The weights' block is the whole matrix: in `y`'s column it holds the weights of the output column that `y` names. -/
theorem read4_1 (c : Dev nD) (t : Fin cfg4.N) (y : S2000x128.Idx) (k : Fin 64) :
    iblk4 V c 1 t (rhsAt y k) = V c (Pipeline.arrRef spec4 1) (rhsAt (((cfg4.win 3).blk t).view.emb y) k) := by
  obtain ⟨-, -, e10, e11, -, -, -, e31⟩ := block_index4 t
  have e : ((cfg4.win 1).blk t).view.emb (rhsAt y k) = rhsAt (((cfg4.win 3).blk t).view.emb y) k := by
    funext a; apply Fin.ext
    match a with
    | ⟨0, _⟩ => show win4_1.index t (0 : Fin 2) * 64 + 1 * k.val = k.val; rw [e10]; omega
    | ⟨1, _⟩ => show win4_1.index t (1 : Fin 2) * 128 + 1 * (y 1).val = win4_3.index t (1 : Fin 2) * 128 + 1 * (y 1).val; rw [e11, e31]
  show V c (Pipeline.arrRef spec4 1) (((cfg4.win 1).blk t).view.emb (rhsAt y k)) = _
  rw [e]

/-- The factors' block at point `t` holds, in `y`'s row, the factor of the output row that `y` names. -/
theorem read4_2 (c : Dev nD) (t : Fin cfg4.N) (y : S2000x128.Idx) :
    iblk4 V c 2 t (colAt y) = V c (Pipeline.arrRef spec4 2) (colAt (((cfg4.win 3).blk t).view.emb y)) := by
  obtain ⟨-, -, -, -, e20, e21, e30, -⟩ := block_index4 t
  have e : ((cfg4.win 2).blk t).view.emb (colAt y) = colAt (((cfg4.win 3).blk t).view.emb y) := by
    funext a; apply Fin.ext
    match a with
    | ⟨0, _⟩ => show win4_2.index t (0 : Fin 2) * 2000 + 1 * (y 0).val = win4_3.index t (0 : Fin 2) * 2000 + 1 * (y 0).val; rw [e20, e30]
    | ⟨1, _⟩ => show win4_2.index t (1 : Fin 2) * 1 + 1 * 0 = 0; rw [e21]
  show V c (Pipeline.arrRef spec4 2) (((cfg4.win 2).blk t).view.emb (colAt y)) = _
  rw [e]

/-- What point `t` writes back is block `t` of the whole-array product of the arrays as the region finds them. -/
theorem flushed4_eq (c : Dev nD) (t : Fin cfg4.N) :
    (dat4 (F := Ideal) V c).flushed 3 t = ((cfg4.win 3).blk t).view.read (Elt Ideal)
      (Cert.Gcn.scaledProduct (V c (Pipeline.arrRef spec4 0)) (V c (Pipeline.arrRef spec4 1)) (V c (Pipeline.arrRef spec4 2))) := by
  show (cfg4.win 3).cut (grid4.coords t) ((dat4 V c).after 3 t) = _
  rw [after4_3]
  unfold out4_3
  rw [View.canon_unit_zero zero_offsets4]
  simp only [View.ld_unit_zero (S := S2000x64) zero_offsets4,
    View.ld_unit_zero (S := S64x128) zero_offsets4,
    View.ld_unit_zero (S := S2000x1) zero_offsets4]
  funext y
  exact point4 _ _ _ _ _ _ y _ (read4_0 V c t y) (read4_1 V c t y) (read4_2 V c t y)

/-- An index of the output is in point `t`'s block iff each coordinate is in the block's range on its axis. -/
theorem mem_blk4 (t : Fin cfg4.N) (i : S50000x128.Idx) :
    i ∈ ((cfg4.win 3).blk t).view.set ↔ ∀ a : Fin 2, win4_3.index t a * S2000x128.size a ≤ (i a).val
      ∧ (i a).val < win4_3.index t a * S2000x128.size a + S2000x128.size a := by
  show i ∈ ((View.whole main_v54).slice (win4_3.rect t)).set ↔ _
  rw [View.set_slice_whole, Rect.mem_set_unit]
  exact Iff.rfl

/-- Row `r` of the output is written by point `r / 2000`. -/
theorem cover4 (i : S50000x128.Idx) :
    ∃ t : Fin cfg4.N, (cfg4.win 3).flush t = true ∧ i ∈ ((cfg4.win 3).blk t).view.set := by
  have hi0 : (i 0).val < 50000 := (i 0).isLt
  have hi1 : (i 1).val < 128 := (i 1).isLt
  have hN : cfg4.N = 25 := N_4
  obtain ⟨t, ht⟩ : ∃ t : Fin cfg4.N, t.val = (i 0).val / 2000 := ⟨⟨(i 0).val / 2000, by rw [hN]; omega⟩, rfl⟩
  obtain ⟨-, -, -, -, -, -, e30, e31⟩ := block_index4 t
  refine ⟨t, flush4_3 t, ?_⟩
  rw [mem_blk4]
  intro a
  match a with
  | ⟨0, _⟩ =>
    show win4_3.index t (0 : Fin 2) * 2000 ≤ (i 0).val ∧ (i 0).val < win4_3.index t (0 : Fin 2) * 2000 + 2000
    rw [e30, ht]; omega
  | ⟨1, _⟩ =>
    show win4_3.index t (1 : Fin 2) * 128 ≤ (i 1).val ∧ (i 1).val < win4_3.index t (1 : Fin 2) * 128 + 128
    rw [e31]; omega

/-- This region's output array after the run: the row-scaled product of the three arrays as the region finds them. -/
theorem region4 (c : Dev nD) :
    (dat4 (F := Ideal) V c).arrAt 3 cfg4.N
      = Cert.Gcn.scaledProduct (V c (Pipeline.arrRef spec4 0)) (V c (Pipeline.arrRef spec4 1)) (V c (Pipeline.arrRef spec4 2)) :=
  (dat4 V c).arrAt_eq_of_cover 3 _ (fun t _ => flushed4_eq V c t) (cover4)

end

end Cert.KernelIdeal.RegionValue

end
-- ==== Proof.Region5.lean ====
/-
  The third layer's combining step, as a whole array.

  This region cuts the aggregate A and the nodes' own scaled rows P (50000 rows of 128 each) and the factors s into 25 blocks
  of 2000 rows. At each block it adds the two row blocks, scales row r of the sum by the node's factor s (r, 0) and adds the
  bias row b to every row, floored at zero; the result goes to the same rows of the output. Entry (r, c) of one block's
  result depends on entry (r, c) of A and of P, entry r of s and entry c of b only, so the 25 blocks are the restrictions of
  one function of the four arrays: entry (r, c) of the output is s (r, 0) · (A (r, c) + P (r, c)) + b (0, c), floored at zero.
  Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets5 : (![0, 0] : Fin 2 → Nat) = fun _ => 0 := funext fun a => by fin_cases a <;> rfl

/-- One entry of a block's result: the factor of the row times the sum of the two entries, plus the bias of the column, floored at zero. -/
theorem pay5_apply (v0 : Vec Ideal S2000x1 .f32) (v2 : Vec Ideal S2000x128 .bf16) (v5 : Vec Ideal S1x128 .f32)
    (v9 : Vec Ideal S2000x128 .f32) (j : S2000x128.Idx) :
    k5_pay1 (F := Ideal) v0 v2 v5 v9 j = max (v0 (colAt j) * (v9 j + v2 j) + v5 (rowAt j)) 0 := by
  unfold k5_pay1
  simp only [maximumf_apply, addf_apply, mulf_apply, extf_apply, shapeCast_self, broadcast_apply]
  rw [broadcastTo_col_apply, broadcastTo_row_apply]
  rw [show Scalar.ofBits (F := Ideal) .f32 0x00000000#32 = (0 : EReal) from Ideal.ofBits_zero_f32]

/-- The same entry when the four blocks are pieces of whole arrays: if the block's entry is entry `i` of A and of P, its
    row is row `i 0` of s, and the bias block is all of b, the entry is the whole-array combination's at `i`. -/
theorem point5 (A P : S50000x128.Idx → EReal) (s : S50000x1.Idx → EReal) (b : S1x128.Idx → EReal)
    (x0 : Vec Ideal S2000x128 .f32) (x1 : Vec Ideal S2000x128 .bf16) (x2 : Vec Ideal S2000x1 .f32) (x3 : Vec Ideal S1x128 .f32)
    (y : S2000x128.Idx) (i : S50000x128.Idx)
    (h0 : x0 y = A i) (h1 : x1 y = P i) (h2 : x2 (colAt y) = s (colAt i)) (h3 : x3 (rowAt y) = b (rowAt i)) :
    k5_pay1 (F := Ideal) x2 x1 x3 x0 y = Cert.Gcn.combineRelu A P s b i := by
  rw [pay5_apply, h0, h1, h2, h3]
  rfl

/-- Where the blocks sit, decided over the 25 points: the aggregate's, the own rows', the factors' and the output's block
    at point `t` is block `t` along the rows, and the bias' block is always the whole row. -/
theorem block_index5 : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

section
variable (V : (c : Dev nD) → (b : Ref sig .tc) → Buf (Elt Ideal) ((c : Thread nD τ).loc b))

/-- The aggregate's block at point `t` holds, at `y`, the aggregate at the entry of the output's block `t` that `y` names. -/
theorem read5_0 (c : Dev nD) (t : Fin cfg5.N) (y : S2000x128.Idx) :
    iblk5 V c 0 t y = V c (Pipeline.arrRef spec5 0) (((cfg5.win 4).blk t).view.emb y) := by
  obtain ⟨e00, e01, -, -, -, -, -, -, e40, e41⟩ := block_index5 t
  have e : ((cfg5.win 0).blk t).view.emb y = ((cfg5.win 4).blk t).view.emb y := by
    funext a; apply Fin.ext
    match a with
    | ⟨0, _⟩ => show win5_0.index t (0 : Fin 2) * 2000 + 1 * (y 0).val = win5_4.index t (0 : Fin 2) * 2000 + 1 * (y 0).val; rw [e00, e40]
    | ⟨1, _⟩ => show win5_0.index t (1 : Fin 2) * 128 + 1 * (y 1).val = win5_4.index t (1 : Fin 2) * 128 + 1 * (y 1).val; rw [e01, e41]
  show V c (Pipeline.arrRef spec5 0) (((cfg5.win 0).blk t).view.emb y) = _
  rw [e]

/-- The own rows' block likewise. -/
theorem read5_1 (c : Dev nD) (t : Fin cfg5.N) (y : S2000x128.Idx) :
    iblk5 V c 1 t y = V c (Pipeline.arrRef spec5 1) (((cfg5.win 4).blk t).view.emb y) := by
  obtain ⟨-, -, e10, e11, -, -, -, -, e40, e41⟩ := block_index5 t
  have e : ((cfg5.win 1).blk t).view.emb y = ((cfg5.win 4).blk t).view.emb y := by
    funext a; apply Fin.ext
    match a with
    | ⟨0, _⟩ => show win5_1.index t (0 : Fin 2) * 2000 + 1 * (y 0).val = win5_4.index t (0 : Fin 2) * 2000 + 1 * (y 0).val; rw [e10, e40]
    | ⟨1, _⟩ => show win5_1.index t (1 : Fin 2) * 128 + 1 * (y 1).val = win5_4.index t (1 : Fin 2) * 128 + 1 * (y 1).val; rw [e11, e41]
  show V c (Pipeline.arrRef spec5 1) (((cfg5.win 1).blk t).view.emb y) = _
  rw [e]

/-- The factors' block at point `t` holds, in `y`'s row, the factor of the output row that `y` names. -/
theorem read5_2 (c : Dev nD) (t : Fin cfg5.N) (y : S2000x128.Idx) :
    iblk5 V c 2 t (colAt y) = V c (Pipeline.arrRef spec5 2) (colAt (((cfg5.win 4).blk t).view.emb y)) := by
  obtain ⟨-, -, -, -, e20, e21, -, -, e40, -⟩ := block_index5 t
  have e : ((cfg5.win 2).blk t).view.emb (colAt y) = colAt (((cfg5.win 4).blk t).view.emb y) := by
    funext a; apply Fin.ext
    match a with
    | ⟨0, _⟩ => show win5_2.index t (0 : Fin 2) * 2000 + 1 * (y 0).val = win5_4.index t (0 : Fin 2) * 2000 + 1 * (y 0).val; rw [e20, e40]
    | ⟨1, _⟩ => show win5_2.index t (1 : Fin 2) * 1 + 1 * 0 = 0; rw [e21]
  show V c (Pipeline.arrRef spec5 2) (((cfg5.win 2).blk t).view.emb (colAt y)) = _
  rw [e]

/-- The bias' block is the whole bias row: in `y`'s column it holds the bias of the output column that `y` names. -/
theorem read5_3 (c : Dev nD) (t : Fin cfg5.N) (y : S2000x128.Idx) :
    iblk5 V c 3 t (rowAt y) = V c (Pipeline.arrRef spec5 3) (rowAt (((cfg5.win 4).blk t).view.emb y)) := by
  obtain ⟨-, -, -, -, -, -, e30, e31, -, e41⟩ := block_index5 t
  have e : ((cfg5.win 3).blk t).view.emb (rowAt y) = rowAt (((cfg5.win 4).blk t).view.emb y) := by
    funext a; apply Fin.ext
    match a with
    | ⟨0, _⟩ => show win5_3.index t (0 : Fin 2) * 1 + 1 * 0 = 0; rw [e30]
    | ⟨1, _⟩ => show win5_3.index t (1 : Fin 2) * 128 + 1 * (y 1).val = win5_4.index t (1 : Fin 2) * 128 + 1 * (y 1).val; rw [e31, e41]
  show V c (Pipeline.arrRef spec5 3) (((cfg5.win 3).blk t).view.emb (rowAt y)) = _
  rw [e]

/-- What point `t` writes back is block `t` of the whole-array combination of the arrays as the region finds them. -/
theorem flushed5_eq (c : Dev nD) (t : Fin cfg5.N) :
    (dat5 (F := Ideal) V c).flushed 4 t = ((cfg5.win 4).blk t).view.read (Elt Ideal)
      (Cert.Gcn.combineRelu (V c (Pipeline.arrRef spec5 0)) (V c (Pipeline.arrRef spec5 1)) (V c (Pipeline.arrRef spec5 2))
        (V c (Pipeline.arrRef spec5 3))) := by
  show (cfg5.win 4).cut (grid5.coords t) ((dat5 V c).after 4 t) = _
  rw [after5_4]
  unfold out5_4
  rw [View.canon_unit_zero zero_offsets5]
  simp only [View.ld_unit_zero (S := S2000x128) zero_offsets5, View.ld_unit_zero (S := S2000x1) zero_offsets5,
    View.ld_unit_zero (S := S1x128) zero_offsets5]
  funext y
  exact point5 _ _ _ _ _ _ _ _ y _ (read5_0 V c t y) (read5_1 V c t y) (read5_2 V c t y) (read5_3 V c t y)

/-- An index of the output is in point `t`'s block iff each coordinate is in the block's range on its axis. -/
theorem mem_blk5 (t : Fin cfg5.N) (i : S50000x128.Idx) :
    i ∈ ((cfg5.win 4).blk t).view.set ↔ ∀ a : Fin 2, win5_4.index t a * S2000x128.size a ≤ (i a).val
      ∧ (i a).val < win5_4.index t a * S2000x128.size a + S2000x128.size a := by
  show i ∈ ((View.whole main_v67).slice (win5_4.rect t)).set ↔ _
  rw [View.set_slice_whole, Rect.mem_set_unit]
  exact Iff.rfl

/-- Row `r` of the output is written by point `r / 2000`. -/
theorem cover5 (i : S50000x128.Idx) :
    ∃ t : Fin cfg5.N, (cfg5.win 4).flush t = true ∧ i ∈ ((cfg5.win 4).blk t).view.set := by
  have hi0 : (i 0).val < 50000 := (i 0).isLt
  have hi1 : (i 1).val < 128 := (i 1).isLt
  have hN : cfg5.N = 25 := N_5
  obtain ⟨t, ht⟩ : ∃ t : Fin cfg5.N, t.val = (i 0).val / 2000 := ⟨⟨(i 0).val / 2000, by rw [hN]; omega⟩, rfl⟩
  obtain ⟨-, -, -, -, -, -, -, -, e40, e41⟩ := block_index5 t
  refine ⟨t, flush5_4 t, ?_⟩
  rw [mem_blk5]
  intro a
  match a with
  | ⟨0, _⟩ =>
    show win5_4.index t (0 : Fin 2) * 2000 ≤ (i 0).val ∧ (i 0).val < win5_4.index t (0 : Fin 2) * 2000 + 2000
    rw [e40, ht]; omega
  | ⟨1, _⟩ =>
    show win5_4.index t (1 : Fin 2) * 128 ≤ (i 1).val ∧ (i 1).val < win5_4.index t (1 : Fin 2) * 128 + 128
    rw [e41]; omega

/-- This region's output array after the run: the combination of the four arrays as the region finds them. -/
theorem region5 (c : Dev nD) :
    (dat5 (F := Ideal) V c).arrAt 4 cfg5.N
      = Cert.Gcn.combineRelu (V c (Pipeline.arrRef spec5 0)) (V c (Pipeline.arrRef spec5 1)) (V c (Pipeline.arrRef spec5 2))
          (V c (Pipeline.arrRef spec5 3)) :=
  (dat5 V c).arrAt_eq_of_cover 4 _ (fun t _ => flushed5_eq V c t) (cover5)

end

end Cert.KernelIdeal.RegionValue

end
-- ==== Proof.Region6.lean ====
/-
  The fourth layer's row-scaled product, as a whole array.

  This region cuts the node features X (50000 rows of 128) into 25 blocks of 2000 rows. At each block it multiplies the
  block by the whole weight matrix W (128 by 128) and scales row r of the product by the node's factor s (r, 0); the result
  goes to the same rows of the output. Entry (r, c) of one block's result therefore depends on row r of X, column c of W and
  entry r of s only, so the 25 blocks are the restrictions of one function of the three arrays: entry (r, c) of the output is
  (the sum over k of X (r, k) · W (k, c)) · s (r, 0). Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets6 : (![0, 0] : Fin 2 → Nat) = fun _ => 0 := funext fun a => by fin_cases a <;> rfl

/-- One entry of a block's result: the row of the feature block times the column of the weights, scaled by the row's factor. -/
theorem pay6_apply (x0 : Vec Ideal S2000x128 .f32) (x1 : Vec Ideal S128x128 .f32) (x2 : Vec Ideal S2000x1 .f32)
    (j : S2000x128.Idx) :
    k6_pay1 (F := Ideal) x0 x1 x2 j = (∑ k : Fin 128, x0 (lhsAt j k) * x1 (rhsAt j k)) * x2 (colAt j) := by
  unfold k6_pay1
  simp only [matmul, Ideal.matmul_constant_zero_apply, truncf_apply, mulf_apply, shapeCast_self]
  rw [broadcastTo_col_apply]
  rw [sum_contr_eq (K := 128) dot_S2000x128_S128x128_S2000x128_1_0_0_1_n_n rfl rfl (fun _ _ => rfl) (fun _ _ => rfl)
    (fun _ _ => rfl) (fun _ _ => rfl)]

/-- The same entry when the three blocks are pieces of whole arrays: if the block's row is row `i 0` of X and of s, and the
    weights' block is all of W, the entry is the whole-array product's at `i`. -/
theorem point6 (X : S50000x128.Idx → EReal) (W : S128x128.Idx → EReal) (s : S50000x1.Idx → EReal)
    (x0 : Vec Ideal S2000x128 .f32) (x1 : Vec Ideal S128x128 .f32) (x2 : Vec Ideal S2000x1 .f32)
    (y : S2000x128.Idx) (i : S50000x128.Idx)
    (h0 : ∀ k : Fin 128, x0 (lhsAt y k) = X (lhsAt i k))
    (h1 : ∀ k : Fin 128, x1 (rhsAt y k) = W (rhsAt i k))
    (h2 : x2 (colAt y) = s (colAt i)) :
    k6_pay1 (F := Ideal) x0 x1 x2 y = Cert.Gcn.scaledProduct X W s i := by
  rw [pay6_apply, h2]
  unfold Cert.Gcn.scaledProduct
  refine congrArg (· * s (colAt i)) (Finset.sum_congr rfl fun k _ => ?_)
  rw [h0 k, h1 k]

/-- Where the blocks sit, decided over the 25 points: the features', the factors' and the output's block at point `t` is
    block `t` along the rows, and the weights' block is always the whole matrix. -/
theorem block_index6 : ∀ t : Fin cfg6.N, win6_0.index t (0 : Fin 2) = t.val ∧ win6_0.index t (1 : Fin 2) = 0
    ∧ win6_1.index t (0 : Fin 2) = 0 ∧ win6_1.index t (1 : Fin 2) = 0
    ∧ win6_2.index t (0 : Fin 2) = t.val ∧ win6_2.index t (1 : Fin 2) = 0
    ∧ win6_3.index t (0 : Fin 2) = t.val ∧ win6_3.index t (1 : Fin 2) = 0 :=
  (by decide +kernel : ∀ t : Fin grid6.N, _)

section
variable (V : (c : Dev nD) → (b : Ref sig .tc) → Buf (Elt Ideal) ((c : Thread nD τ).loc b))

/-- The features' block at point `t` holds, in `y`'s row, the features of the output row that `y` names. -/
theorem read6_0 (c : Dev nD) (t : Fin cfg6.N) (y : S2000x128.Idx) (k : Fin 128) :
    iblk6 V c 0 t (lhsAt y k) = V c (Pipeline.arrRef spec6 0) (lhsAt (((cfg6.win 3).blk t).view.emb y) k) := by
  obtain ⟨e00, e01, -, -, -, -, e30, -⟩ := block_index6 t
  have e : ((cfg6.win 0).blk t).view.emb (lhsAt y k) = lhsAt (((cfg6.win 3).blk t).view.emb y) k := by
    funext a; apply Fin.ext
    match a with
    | ⟨0, _⟩ => show win6_0.index t (0 : Fin 2) * 2000 + 1 * (y 0).val = win6_3.index t (0 : Fin 2) * 2000 + 1 * (y 0).val; rw [e00, e30]
    | ⟨1, _⟩ => show win6_0.index t (1 : Fin 2) * 128 + 1 * k.val = k.val; rw [e01]; omega
  show V c (Pipeline.arrRef spec6 0) (((cfg6.win 0).blk t).view.emb (lhsAt y k)) = _
  rw [e]

/-- The weights' block is the whole matrix: in `y`'s column it holds the weights of the output column that `y` names. -/
theorem read6_1 (c : Dev nD) (t : Fin cfg6.N) (y : S2000x128.Idx) (k : Fin 128) :
    iblk6 V c 1 t (rhsAt y k) = V c (Pipeline.arrRef spec6 1) (rhsAt (((cfg6.win 3).blk t).view.emb y) k) := by
  obtain ⟨-, -, e10, e11, -, -, -, e31⟩ := block_index6 t
  have e : ((cfg6.win 1).blk t).view.emb (rhsAt y k) = rhsAt (((cfg6.win 3).blk t).view.emb y) k := by
    funext a; apply Fin.ext
    match a with
    | ⟨0, _⟩ => show win6_1.index t (0 : Fin 2) * 128 + 1 * k.val = k.val; rw [e10]; omega
    | ⟨1, _⟩ => show win6_1.index t (1 : Fin 2) * 128 + 1 * (y 1).val = win6_3.index t (1 : Fin 2) * 128 + 1 * (y 1).val; rw [e11, e31]
  show V c (Pipeline.arrRef spec6 1) (((cfg6.win 1).blk t).view.emb (rhsAt y k)) = _
  rw [e]

/-- The factors' block at point `t` holds, in `y`'s row, the factor of the output row that `y` names. -/
theorem read6_2 (c : Dev nD) (t : Fin cfg6.N) (y : S2000x128.Idx) :
    iblk6 V c 2 t (colAt y) = V c (Pipeline.arrRef spec6 2) (colAt (((cfg6.win 3).blk t).view.emb y)) := by
  obtain ⟨-, -, -, -, e20, e21, e30, -⟩ := block_index6 t
  have e : ((cfg6.win 2).blk t).view.emb (colAt y) = colAt (((cfg6.win 3).blk t).view.emb y) := by
    funext a; apply Fin.ext
    match a with
    | ⟨0, _⟩ => show win6_2.index t (0 : Fin 2) * 2000 + 1 * (y 0).val = win6_3.index t (0 : Fin 2) * 2000 + 1 * (y 0).val; rw [e20, e30]
    | ⟨1, _⟩ => show win6_2.index t (1 : Fin 2) * 1 + 1 * 0 = 0; rw [e21]
  show V c (Pipeline.arrRef spec6 2) (((cfg6.win 2).blk t).view.emb (colAt y)) = _
  rw [e]

/-- What point `t` writes back is block `t` of the whole-array product of the arrays as the region finds them. -/
theorem flushed6_eq (c : Dev nD) (t : Fin cfg6.N) :
    (dat6 (F := Ideal) V c).flushed 3 t = ((cfg6.win 3).blk t).view.read (Elt Ideal)
      (Cert.Gcn.scaledProduct (V c (Pipeline.arrRef spec6 0)) (V c (Pipeline.arrRef spec6 1)) (V c (Pipeline.arrRef spec6 2))) := by
  show (cfg6.win 3).cut (grid6.coords t) ((dat6 V c).after 3 t) = _
  rw [after6_3]
  unfold out6_3
  rw [View.canon_unit_zero zero_offsets6]
  simp only [View.ld_unit_zero (S := S2000x128) zero_offsets6,
    View.ld_unit_zero (S := S128x128) zero_offsets6,
    View.ld_unit_zero (S := S2000x1) zero_offsets6]
  funext y
  exact point6 _ _ _ _ _ _ y _ (read6_0 V c t y) (read6_1 V c t y) (read6_2 V c t y)

/-- An index of the output is in point `t`'s block iff each coordinate is in the block's range on its axis. -/
theorem mem_blk6 (t : Fin cfg6.N) (i : S50000x128.Idx) :
    i ∈ ((cfg6.win 3).blk t).view.set ↔ ∀ a : Fin 2, win6_3.index t a * S2000x128.size a ≤ (i a).val
      ∧ (i a).val < win6_3.index t a * S2000x128.size a + S2000x128.size a := by
  show i ∈ ((View.whole main_v69).slice (win6_3.rect t)).set ↔ _
  rw [View.set_slice_whole, Rect.mem_set_unit]
  exact Iff.rfl

/-- Row `r` of the output is written by point `r / 2000`. -/
theorem cover6 (i : S50000x128.Idx) :
    ∃ t : Fin cfg6.N, (cfg6.win 3).flush t = true ∧ i ∈ ((cfg6.win 3).blk t).view.set := by
  have hi0 : (i 0).val < 50000 := (i 0).isLt
  have hi1 : (i 1).val < 128 := (i 1).isLt
  have hN : cfg6.N = 25 := N_6
  obtain ⟨t, ht⟩ : ∃ t : Fin cfg6.N, t.val = (i 0).val / 2000 := ⟨⟨(i 0).val / 2000, by rw [hN]; omega⟩, rfl⟩
  obtain ⟨-, -, -, -, -, -, e30, e31⟩ := block_index6 t
  refine ⟨t, flush6_3 t, ?_⟩
  rw [mem_blk6]
  intro a
  match a with
  | ⟨0, _⟩ =>
    show win6_3.index t (0 : Fin 2) * 2000 ≤ (i 0).val ∧ (i 0).val < win6_3.index t (0 : Fin 2) * 2000 + 2000
    rw [e30, ht]; omega
  | ⟨1, _⟩ =>
    show win6_3.index t (1 : Fin 2) * 128 ≤ (i 1).val ∧ (i 1).val < win6_3.index t (1 : Fin 2) * 128 + 128
    rw [e31]; omega

/-- This region's output array after the run: the row-scaled product of the three arrays as the region finds them. -/
theorem region6 (c : Dev nD) :
    (dat6 (F := Ideal) V c).arrAt 3 cfg6.N
      = Cert.Gcn.scaledProduct (V c (Pipeline.arrRef spec6 0)) (V c (Pipeline.arrRef spec6 1)) (V c (Pipeline.arrRef spec6 2)) :=
  (dat6 V c).arrAt_eq_of_cover 3 _ (fun t _ => flushed6_eq V c t) (cover6)

end

end Cert.KernelIdeal.RegionValue

end
-- ==== Proof.Region7.lean ====
/-
  The fourth layer's combining step, as a whole array.

  This region cuts the aggregate A and the nodes' own scaled rows P (50000 rows of 128 each) and the factors s into 25 blocks
  of 2000 rows. At each block it adds the two row blocks, scales row r of the sum by the node's factor s (r, 0) and adds the
  bias row b to every row; the result goes to the same rows of the output. Entry (r, c) of one block's
  result depends on entry (r, c) of A and of P, entry r of s and entry c of b only, so the 25 blocks are the restrictions of
  one function of the four arrays: entry (r, c) of the output is s (r, 0) · (A (r, c) + P (r, c)) + b (0, c).
  Row r lies in block r / 2000, so the blocks cover the output.
-/
import proofs.«162121_j80942953660708_2_alg».proof.Proof.Gen.KernelIdeal.Frame
import Idealize.ShloMosaic.Lib.Pipeline.Value
import proofs.«162121_j80942953660708_2_alg».proof.Proof.Spec
import proofs.«162121_j80942953660708_2_alg».proof.Proof.LibRowForms

noncomputable section

open scoped BigOperators

namespace Cert.KernelIdeal.RegionValue

open Cert.KernelIdeal Cert.KernelIdeal.Gen Idealize.ShloMosaic Idealize.ShloMosaic.TcCoe Idealize.SL.Sem
open Idealize.ShloMosaic.Pipeline (Dat)
open Idealize.ShloMosaic.PlainDot Idealize.ShloMosaic.ValueIdx

/-- The zero offsets of a whole-buffer access, as the constant function. -/
theorem zero_offsets7 : (![0, 0] : Fin 2 → Nat) = fun _ => 0 := funext fun a => by fin_cases a <;> rfl

/-- One entry of a block's result: the factor of the row times the sum of the two entries, plus the bias of the column. -/
theorem pay7_apply (v0 : Vec Ideal S2000x1 .f32) (v2 : Vec Ideal S2000x128 .bf16) (v5 : Vec Ideal S1x128 .f32)
    (v9 : Vec Ideal S2000x128 .f32) (j : S2000x128.Idx) :
    k7_pay1 (F := Ideal) v0 v2 v5 v9 j = v0 (colAt j) * (v9 j + v2 j) + v5 (rowAt j) := by
  unfold k7_pay1
  simp only [addf_apply, mulf_apply, extf_apply, shapeCast_self]
  rw [broadcastTo_col_apply, broadcastTo_row_apply]

/-- The same entry when the four blocks are pieces of whole arrays: if the block's entry is entry `i` of A and of P, its
    row is row `i 0` of s, and the bias block is all of b, the entry is the whole-array combination's at `i`. -/
theorem point7 (A P : S50000x128.Idx → EReal) (s : S50000x1.Idx → EReal) (b : S1x128.Idx → EReal)
    (x0 : Vec Ideal S2000x128 .f32) (x1 : Vec Ideal S2000x128 .bf16) (x2 : Vec Ideal S2000x1 .f32) (x3 : Vec Ideal S1x128 .f32)
    (y : S2000x128.Idx) (i : S50000x128.Idx)
    (h0 : x0 y = A i) (h1 : x1 y = P i) (h2 : x2 (colAt y) = s (colAt i)) (h3 : x3 (rowAt y) = b (rowAt i)) :
    k7_pay1 (F := Ideal) x2 x1 x3 x0 y = Cert.Gcn.combine A P s b i := by
  rw [pay7_apply, h0, h1, h2, h3]
  rfl

/-- Where the blocks sit, decided over the 25 points: the aggregate's, the own rows', the factors' and the output's block
    at point `t` is block `t` along the rows, and the bias' block is always the whole row. -/
theorem block_index7 : ∀ t : Fin cfg7.N, win7_0.index t (0 : Fin 2) = t.val ∧ win7_0.index t (1 : Fin 2) = 0
    ∧ win7_1.index t (0 : Fin 2) = t.val ∧ win7_1.index t (1 : Fin 2) = 0
    ∧ win7_2.index t (0 : Fin 2) = t.val ∧ win7_2.index t (1 : Fin 2) = 0
    ∧ win7_3.index t (0 : Fin 2) = 0 ∧ win7_3.index t (1 : Fin 2) = 0
    ∧ win7_4.index t (0 : Fin 2) = t.val ∧ win7_4.index t (1 : Fin 2) = 0 :=
  (by decide +kernel : ∀ t : Fin grid7.N, _)

section
variable (V : (c : Dev nD) → (b : Ref sig .tc) → Buf (Elt Ideal) ((c : Thread nD τ).loc b))

/-- The aggregate's block at point `t` holds, at `y`, the aggregate at the entry of the output's block `t` that `y` names. -/
theorem read7_0 (c : Dev nD) (t : Fin cfg7.N) (y : S2000x128.Idx) :
    iblk7 V c 0 t y = V c (Pipeline.arrRef spec7 0) (((cfg7.win 4).blk t).view.emb y) := by
  obtain ⟨e00, e01, -, -, -, -, -, -, e40, e41⟩ := block_index7 t
  have e : ((cfg7.win 0).blk t).view.emb y = ((cfg7.win 4).blk t).view.emb y := by
    funext a; apply Fin.ext
    match a with
    | ⟨0, _⟩ => show win7_0.index t (0 : Fin 2) * 2000 + 1 * (y 0).val = win7_4.index t (0 : Fin 2) * 2000 + 1 * (y 0).val; rw [e00, e40]
    | ⟨1, _⟩ => show win7_0.index t (1 : Fin 2) * 128 + 1 * (y 1).val = win7_4.index t (1 : Fin 2) * 128 + 1 * (y 1).val; rw [e01, e41]
  show V c (Pipeline.arrRef spec7 0) (((cfg7.win 0).blk t).view.emb y) = _
  rw [e]

/-- The own rows' block likewise. -/
theorem read7_1 (c : Dev nD) (t : Fin cfg7.N) (y : S2000x128.Idx) :
    iblk7 V c 1 t y = V c (Pipeline.arrRef spec7 1) (((cfg7.win 4).blk t).view.emb y) := by
  obtain ⟨-, -, e10, e11, -, -, -, -, e40, e41⟩ := block_index7 t
  have e : ((cfg7.win 1).blk t).view.emb y = ((cfg7.win 4).blk t).view.emb y := by
    funext a; apply Fin.ext
    match a with
    | ⟨0, _⟩ => show win7_1.index t (0 : Fin 2) * 2000 + 1 * (y 0).val = win7_4.index t (0 : Fin 2) * 2000 + 1 * (y 0).val; rw [e10, e40]
    | ⟨1, _⟩ => show win7_1.index t (1 : Fin 2) * 128 + 1 * (y 1).val = win7_4.index t (1 : Fin 2) * 128 + 1 * (y 1).val; rw [e11, e41]
  show V c (Pipeline.arrRef spec7 1) (((cfg7.win 1).blk t).view.emb y) = _
  rw [e]

/-- The factors' block at point `t` holds, in `y`'s row, the factor of the output row that `y` names. -/
theorem read7_2 (c : Dev nD) (t : Fin cfg7.N) (y : S2000x128.Idx) :
    iblk7 V c 2 t (colAt y) = V c (Pipeline.arrRef spec7 2) (colAt (((cfg7.win 4).blk t).view.emb y)) := by
  obtain ⟨-, -, -, -, e20, e21, -, -, e40, -⟩ := block_index7 t
  have e : ((cfg7.win 2).blk t).view.emb (colAt y) = colAt (((cfg7.win 4).blk t).view.emb y) := by
    funext a; apply Fin.ext
    match a with
    | ⟨0, _⟩ => show win7_2.index t (0 : Fin 2) * 2000 + 1 * (y 0).val = win7_4.index t (0 : Fin 2) * 2000 + 1 * (y 0).val; rw [e20, e40]
    | ⟨1, _⟩ => show win7_2.index t (1 : Fin 2) * 1 + 1 * 0 = 0; rw [e21]
  show V c (Pipeline.arrRef spec7 2) (((cfg7.win 2).blk t).view.emb (colAt y)) = _
  rw [e]

/-- The bias' block is the whole bias row: in `y`'s column it holds the bias of the output column that `y` names. -/
theorem read7_3 (c : Dev nD) (t : Fin cfg7.N) (y : S2000x128.Idx) :
    iblk7 V c 3 t (rowAt y) = V c (Pipeline.arrRef spec7 3) (rowAt (((cfg7.win 4).blk t).view.emb y)) := by
  obtain ⟨-, -, -, -, -, -, e30, e31, -, e41⟩ := block_index7 t
  have e : ((cfg7.win 3).blk t).view.emb (rowAt y) = rowAt (((cfg7.win 4).blk t).view.emb y) := by
    funext a; apply Fin.ext
    match a with
    | ⟨0, _⟩ => show win7_3.index t (0 : Fin 2) * 1 + 1 * 0 = 0; rw [e30]
    | ⟨1, _⟩ => show win7_3.index t (1 : Fin 2) * 128 + 1 * (y 1).val = win7_4.index t (1 : Fin 2) * 128 + 1 * (y 1).val; rw [e31, e41]
  show V c (Pipeline.arrRef spec7 3) (((cfg7.win 3).blk t).view.emb (rowAt y)) = _
  rw [e]

/-- What point `t` writes back is block `t` of the whole-array combination of the arrays as the region finds them. -/
theorem flushed7_eq (c : Dev nD) (t : Fin cfg7.N) :
    (dat7 (F := Ideal) V c).flushed 4 t = ((cfg7.win 4).blk t).view.read (Elt Ideal)
      (Cert.Gcn.combine (V c (Pipeline.arrRef spec7 0)) (V c (Pipeline.arrRef spec7 1)) (V c (Pipeline.arrRef spec7 2))
        (V c (Pipeline.arrRef spec7 3))) := by
  show (cfg7.win 4).cut (grid7.coords t) ((dat7 V c).after 4 t) = _
  rw [after7_4]
  unfold out7_4
  rw [View.canon_unit_zero zero_offsets7]
  simp only [View.ld_unit_zero (S := S2000x128) zero_offsets7, View.ld_unit_zero (S := S2000x1) zero_offsets7,
    View.ld_unit_zero (S := S1x128) zero_offsets7]
  funext y
  exact point7 _ _ _ _ _ _ _ _ y _ (read7_0 V c t y) (read7_1 V c t y) (read7_2 V c t y) (read7_3 V c t y)

/-- An index of the output is in point `t`'s block iff each coordinate is in the block's range on its axis. -/
theorem mem_blk7 (t : Fin cfg7.N) (i : S50000x128.Idx) :
    i ∈ ((cfg7.win 4).blk t).view.set ↔ ∀ a : Fin 2, win7_4.index t a * S2000x128.size a ≤ (i a).val
      ∧ (i a).val < win7_4.index t a * S2000x128.size a + S2000x128.size a := by
  show i ∈ ((View.whole main_v82).slice (win7_4.rect t)).set ↔ _
  rw [View.set_slice_whole, Rect.mem_set_unit]
  exact Iff.rfl

/-- Row `r` of the output is written by point `r / 2000`. -/
theorem cover7 (i : S50000x128.Idx) :
    ∃ t : Fin cfg7.N, (cfg7.win 4).flush t = true ∧ i ∈ ((cfg7.win 4).blk t).view.set := by
  have hi0 : (i 0).val < 50000 := (i 0).isLt
  have hi1 : (i 1).val < 128 := (i 1).isLt
  have hN : cfg7.N = 25 := N_7
  obtain ⟨t, ht⟩ : ∃ t : Fin cfg7.N, t.val = (i 0).val / 2000 := ⟨⟨(i 0).val / 2000, by rw [hN]; omega⟩, rfl⟩
  obtain ⟨-, -, -, -, -, -, -, -, e40, e41⟩ := block_index7 t
  refine ⟨t, flush7_4 t, ?_⟩
  rw [mem_blk7]
  intro a
  match a with
  | ⟨0, _⟩ =>
    show win7_4.index t (0 : Fin 2) * 2000 ≤ (i 0).val ∧ (i 0).val < win7_4.index t (0 : Fin 2) * 2000 + 2000
    rw [e40, ht]; omega
  | ⟨1, _⟩ =>
    show win7_4.index t (1 : Fin 2) * 128 ≤ (i 1).val ∧ (i 1).val < win7_4.index t (1 : Fin 2) * 128 + 128
    rw [e41]; omega

/-- This region's output array after the run: the combination of the four arrays as the region finds them. -/
theorem region7 (c : Dev nD) :
    (dat7 (F := Ideal) V c).arrAt 4 cfg7.N
      = Cert.Gcn.combine (V c (Pipeline.arrRef spec7 0)) (V c (Pipeline.arrRef spec7 1)) (V c (Pipeline.arrRef spec7 2))
          (V c (Pipeline.arrRef spec7 3)) :=
  (dat7 V c).arrAt_eq_of_cover 4 _ (fun t _ => flushed7_eq V c t) (cover7)

end

end Cert.KernelIdeal.RegionValue

end
-- ==== Proof.Graph.lean ====
/-
  The graph side of the network, as whole-array terms over the operations both programs print.

  An edge list is a [2, 800000] array of signed words: row 0 holds each edge's source node, row 1 its target node.
  A node's degree is one (its self-loop) plus the number of edges whose target it is — edges whose target is not a
  node index 0 ≤ d < 50000 count nowhere — and its factor is the reciprocal square root of the degree. The degree is a
  real number ≥ 1, so every factor is a nonnegative extended real other than +∞: the one fact about the factors that
  the layers' algebra uses.

  Gathering rows along the sources reads, for edge e, the row whose index is the source wrapped once when negative
  and then clamped into range; scattering rows along the targets adds edge e's row into row (target of e) when that
  is a node index, and nowhere otherwise.
-/
import proofs.«162121_j80942953660708_2_alg».proof.ReferenceIdeal
import Idealize.ShloMosaic.Lib.ValueIdx
import Idealize.ShloMosaic.PureOps.Ideal.Laws

noncomputable section

open scoped BigOperators

namespace Cert.Gcn

open Idealize.ShloMosaic Idealize.ShloMosaic.ValueIdx Cert.ReferenceIdeal Cert.ReferenceIdeal.Facts₀

variable [Cert.ReferenceIdeal.Facts₀]

/-- The edge list: sources in row 0, targets in row 1. -/
abbrev Edges : Type := IVec S2x800000 32

/-- Each edge's source node. -/
def srcOf (ei : Edges) : IVec S800000 32 :=
  shapeCast S800000 (extractStridedSlice S1x800000 ![0, 0] ei slices_S2x800000_S1x800000_0_0) shapeCasts_S1x800000_S800000

/-- Each edge's target node. -/
def dstOf (ei : Edges) : IVec S800000 32 :=
  shapeCast S800000 (extractStridedSlice S1x800000 ![1, 0] ei slices_S2x800000_S1x800000_1_0) shapeCasts_S1x800000_S800000

/-- A negative index counts from the end: v + 50000 where v < 0, else v. -/
def wrapNeg (v : IVec S800000 32) : IVec S800000 32 :=
  select (cmpi .slt v (broadcastInDim S800000 ![] bcast_S_S800000 (constantI S_ 32 0#32)))
    (addi v (broadcastInDim S800000 ![] bcast_S_S800000 (constantI S_ 32 50000#32))) v

/-- A vector of indices as a one-column index array. -/
def asCol (v : IVec S800000 32) : IVec S800000x1 32 := broadcastInDim S800000x1 ![0] bcast_S800000_S800000x1_0 v

/-- One plus the number of edges into each node. -/
def degOf (ei : Edges) : FVec Ideal S50000 .f32 :=
  addf (Host.scatterAdd scatter_S50000_S800000x1_S800000_n_0_0_1 (broadcastInDim S50000 ![] bcast_S_S50000 (constant S_ .f32 0x00000000#32))
      (asCol (dstOf ei)) (broadcastInDim S800000 ![] bcast_S_S800000 (constant S_ .f32 0x3F800000#32)))
    (broadcastInDim S50000 ![] bcast_S_S50000 (constant S_ .f32 0x3F800000#32))

/-- Each node's factor: the reciprocal square root of its degree. -/
def disOf (ei : Edges) : FVec Ideal S50000 .f32 := Host.rsqrt (degOf ei)

end Cert.Gcn

end
-- ==== Proof.Layers.lean ====
/-
  The layers and the whole network, in the two arrangements the two programs compute, as terms over shared operations.

  A layer takes node features X, a weight matrix W and a bias b. Writing H = X·W, c for the node factors and
  e : s → d for the edges, the first arrangement ("messages scaled on the edges") is, at node d and column q,
      (∑ over e into d of H (s, q) · (c s · c d)) + H (d, q) · (c d · c d) + b q,
  and the second ("rows scaled on the nodes") first forms P = H scaled row by row by c and then
      c d · ((∑ over e into d of P (s, q)) + P (d, q)) + b q.
  The network is four layers (128 → 128 with a rectifier, 128 → 64, 64 → 128 with a rectifier, 128 → 128), and a
  pooling of the second layer's output: for each graph, the sum of its nodes' rows divided by the larger of its node
  count and one.
-/
import proofs.«162121_j80942953660708_2_alg».proof.Proof.Graph
import proofs.«162121_j80942953660708_2_alg».proof.Proof.Spec

noncomputable section

namespace Cert.Gcn

open Idealize.ShloMosaic Idealize.ShloMosaic.ValueIdx Idealize.ShloMosaic.PlainDot Cert.ReferenceIdeal Cert.ReferenceIdeal.Facts₀

variable [Cert.ReferenceIdeal.Facts₀]

/-! ## Shared pieces -/

/-- The node factors as a column. -/
def disCol (ei : Edges) : FVec Ideal S50000x1 .f32 := shapeCast S50000x1 (disOf ei) (by decide)

/-- The indices rows are gathered along: each edge's source, wrapped when negative, as a column. -/
def srcCol (ei : Edges) : IVec S800000x1 32 := asCol (wrapNeg (srcOf ei))

/-- The indices rows are scattered along: each edge's target as a column. -/
def dstCol (ei : Edges) : IVec S800000x1 32 := asCol (dstOf ei)

/-- Entrywise maximum with zero, 128 columns. -/
def relu128 (y : FVec Ideal S50000x128 .f32) : FVec Ideal S50000x128 .f32 :=
  maximumf y (broadcastInDim S50000x128 ![] bcast_S_S50000x128 (constant S_ .f32 0x00000000#32))

/-! ## Messages scaled on the edges -/

/-- A layer with 128 output columns from H = X·W, messages scaled by both end points' factors. -/
def edgeLayer128 (ei : Edges) (h : FVec Ideal S50000x128 .f32) (b : FVec Ideal S128 .f32) : FVec Ideal S50000x128 .f32 :=
  addf (addf
      (Host.scatterAdd scatter_S50000x128_S800000x1_S800000x128_1_0_0_1
        (broadcastInDim S50000x128 ![] bcast_S_S50000x128 (constant S_ .f32 0x00000000#32)) (dstCol ei)
        (mulf (Host.gather gather_S50000x128_S800000x1_S800000x128_1_0_n_n_0_1_1128 h (srcCol ei))
          (broadcastInDim S800000x128 ![0, 1] bcast_S800000x1_S800000x128_0_1 (broadcastInDim S800000x1 ![0] bcast_S800000_S800000x1_0
            (mulf (Host.gather gather_S50000_S800000x1_S800000_n_0_n_n_0_1_1 (disOf ei) (srcCol ei))
                  (Host.gather gather_S50000_S800000x1_S800000_n_0_n_n_0_1_1 (disOf ei) (asCol (wrapNeg (dstOf ei)))))))))
      (mulf h (broadcastInDim S50000x128 ![0, 1] bcast_S50000x1_S50000x128_0_1 (broadcastInDim S50000x1 ![0] bcast_S50000_S50000x1_0
        (mulf (disOf ei) (disOf ei))))))
    (broadcastInDim S50000x128 ![0, 1] bcast_S1x128_S50000x128_0_1 (broadcastInDim S1x128 ![1] bcast_S128_S1x128_1 b))

/-- The same with 64 output columns. -/
def edgeLayer64 (ei : Edges) (h : FVec Ideal S50000x64 .f32) (b : FVec Ideal S64 .f32) : FVec Ideal S50000x64 .f32 :=
  addf (addf
      (Host.scatterAdd scatter_S50000x64_S800000x1_S800000x64_1_0_0_1
        (broadcastInDim S50000x64 ![] bcast_S_S50000x64 (constant S_ .f32 0x00000000#32)) (dstCol ei)
        (mulf (Host.gather gather_S50000x64_S800000x1_S800000x64_1_0_n_n_0_1_164 h (srcCol ei))
          (broadcastInDim S800000x64 ![0, 1] bcast_S800000x1_S800000x64_0_1 (broadcastInDim S800000x1 ![0] bcast_S800000_S800000x1_0
            (mulf (Host.gather gather_S50000_S800000x1_S800000_n_0_n_n_0_1_1 (disOf ei) (srcCol ei))
                  (Host.gather gather_S50000_S800000x1_S800000_n_0_n_n_0_1_1 (disOf ei) (asCol (wrapNeg (dstOf ei)))))))))
      (mulf h (broadcastInDim S50000x64 ![0, 1] bcast_S50000x1_S50000x64_0_1 (broadcastInDim S50000x1 ![0] bcast_S50000_S50000x1_0
        (mulf (disOf ei) (disOf ei))))))
    (broadcastInDim S50000x64 ![0, 1] bcast_S1x64_S50000x64_0_1 (broadcastInDim S1x64 ![1] bcast_S64_S1x64_1 b))

/-! ## Rows scaled on the nodes -/

/-- The neighbours' scaled rows summed into each node, 128 columns. -/
def neighbourSum128 (ei : Edges) (P : FVec Ideal S50000x128 .bf16) : FVec Ideal S50000x128 .f32 :=
  Host.scatterAdd scatter_S50000x128_S800000x1_S800000x128_1_0_0_1
    (broadcastInDim S50000x128 ![] bcast_S_S50000x128 (constant S_ .f32 0x00000000#32)) (dstCol ei)
    (extf .f32 (Host.gather gather_S50000x128_S800000x1_S800000x128_1_0_n_n_0_1_1128 P (srcCol ei)) (by decide))

/-- The neighbours' scaled rows summed into each node, 64 columns. -/
def neighbourSum64 (ei : Edges) (P : FVec Ideal S50000x64 .bf16) : FVec Ideal S50000x64 .f32 :=
  Host.scatterAdd scatter_S50000x64_S800000x1_S800000x64_1_0_0_1
    (broadcastInDim S50000x64 ![] bcast_S_S50000x64 (constant S_ .f32 0x00000000#32)) (dstCol ei)
    (extf .f32 (Host.gather gather_S50000x64_S800000x1_S800000x64_1_0_n_n_0_1_164 P (srcCol ei)) (by decide))

/-- A layer with 128 output columns, rows scaled on the nodes, no rectifier. -/
def nodeLayer128 {K : ℕ} (ei : Edges) (X : (⟨2, ![50000, K]⟩ : Shape).Idx → EReal) (W : (⟨2, ![K, 128]⟩ : Shape).Idx → EReal)
    (b : FVec Ideal S128 .f32) : FVec Ideal S50000x128 .f32 :=
  combine (neighbourSum128 ei (scaledProduct X W (disCol ei))) (scaledProduct X W (disCol ei)) (disCol ei) (shapeCast S1x128 b (by decide))

/-- The same, floored at zero. -/
def nodeLayerRelu128 {K : ℕ} (ei : Edges) (X : (⟨2, ![50000, K]⟩ : Shape).Idx → EReal) (W : (⟨2, ![K, 128]⟩ : Shape).Idx → EReal)
    (b : FVec Ideal S128 .f32) : FVec Ideal S50000x128 .f32 :=
  combineRelu (neighbourSum128 ei (scaledProduct X W (disCol ei))) (scaledProduct X W (disCol ei)) (disCol ei) (shapeCast S1x128 b (by decide))

/-- A layer with 64 output columns, rows scaled on the nodes, no rectifier. -/
def nodeLayer64 {K : ℕ} (ei : Edges) (X : (⟨2, ![50000, K]⟩ : Shape).Idx → EReal) (W : (⟨2, ![K, 64]⟩ : Shape).Idx → EReal)
    (b : FVec Ideal S64 .f32) : FVec Ideal S50000x64 .f32 :=
  combine (neighbourSum64 ei (scaledProduct X W (disCol ei))) (scaledProduct X W (disCol ei)) (disCol ei) (shapeCast S1x64 b (by decide))

/-! ## Pooling over graphs -/

/-- For each graph, the sum of its nodes' rows divided by the larger of its node count and one. -/
def pool (batch : IVec S50000 32) (z : FVec Ideal S50000x64 .f32) : FVec Ideal S512x64 .f32 :=
  Host.divf
    (Host.scatterAdd scatter_S512x64_S50000x1_S50000x64_1_0_0_1 (broadcastInDim S512x64 ![] bcast_S_S512x64 (constant S_ .f32 0x00000000#32))
      (broadcastInDim S50000x1 ![0] bcast_S50000_S50000x1_0 batch) z)
    (broadcastInDim S512x64 ![0, 1] bcast_S512x1_S512x64_0_1 (broadcastInDim S512x1 ![0] bcast_S512_S512x1_0
      (maximumf
        (Host.scatterAdd scatter_S512_S50000x1_S50000_n_0_0_1 (broadcastInDim S512 ![] bcast_S_S512 (constant S_ .f32 0x00000000#32))
          (broadcastInDim S50000x1 ![0] bcast_S50000_S50000x1_0 batch) (broadcastInDim S50000 ![] bcast_S_S50000 (constant S_ .f32 0x3F800000#32)))
        (broadcastInDim S512 ![] bcast_S_S512 (constant S_ .f32 0x3F800000#32)))))

/-! ## The network, both ways -/

section Network

variable (x : FVec Ideal S50000x128 .f32) (ei : Edges)
  (W1 : FVec Ideal S128x128 .f32) (b1 : FVec Ideal S128 .f32) (W2 : FVec Ideal S128x64 .f32) (b2 : FVec Ideal S64 .f32)
  (W3 : FVec Ideal S64x128 .f32) (b3 : FVec Ideal S128 .f32) (W4 : FVec Ideal S128x128 .f32) (b4 : FVec Ideal S128 .f32)

/-- Rows scaled on the nodes: the hidden features, the latent features, the decoder's hidden features, the output. -/
def nodeH1 : FVec Ideal S50000x128 .f32 := nodeLayerRelu128 ei x W1 b1
def nodeZ : FVec Ideal S50000x64 .f32 := nodeLayer64 ei (nodeH1 x ei W1 b1) W2 b2
def nodeH2 : FVec Ideal S50000x128 .f32 := nodeLayerRelu128 ei (nodeZ x ei W1 b1 W2 b2) W3 b3
def nodeX : FVec Ideal S50000x128 .f32 := nodeLayer128 ei (nodeH2 x ei W1 b1 W2 b2 W3 b3) W4 b4

/-- Messages scaled on the edges: the same four stages. -/
def edgeH1 : FVec Ideal S50000x128 .f32 :=
  relu128 (edgeLayer128 ei (Host.dotGeneral dot_S50000x128_S128x128_S50000x128_1_0_0_1_n_n none x W1) b1)
def edgeZ : FVec Ideal S50000x64 .f32 :=
  edgeLayer64 ei (Host.dotGeneral dot_S50000x128_S128x64_S50000x64_1_0_0_1_n_n none (edgeH1 x ei W1 b1) W2) b2
def edgeH2 : FVec Ideal S50000x128 .f32 :=
  relu128 (edgeLayer128 ei (Host.dotGeneral dot_S50000x64_S64x128_S50000x128_1_0_0_1_n_n none (edgeZ x ei W1 b1 W2 b2) W3) b3)
def edgeX : FVec Ideal S50000x128 .f32 :=
  edgeLayer128 ei (Host.dotGeneral dot_S50000x128_S128x128_S50000x128_1_0_0_1_n_n none (edgeH2 x ei W1 b1 W2 b2 W3 b3) W4) b4

end Network

end Cert.Gcn

end
-- ==== Proof.KernelValue.lean ====
/-
  The idealized kernel's buffers at the last boundary, as terms of the arguments.

  The program alternates stretches of host operations with kernel regions, eight times. The first stretch splits the
  edge list into sources and targets and forms the node factors; they are written once and every later boundary finds
  them unchanged, as it finds every argument. Then each layer takes four segments: a region forms the rows of X·W scaled
  by the factors; a stretch sums, into each node, the scaled rows of the neighbours it has an edge from, and lays the
  bias out as a row; a region adds the node's own scaled row, scales by the factor again, adds the bias (and floors at
  zero in the first and third layers); a stretch lays the factors out as a column for the next layer. Between the second
  and third layers a stretch also pools the second layer's output over the graphs.

  Reading the boundaries in order — a stretch's buffer is its operations applied to the boundary before, a region's
  output is the whole-array form of its blocks, every other buffer is as it was — the last boundary holds the network's
  output in the eighth region's result, its latent features in the fourth region's, and the pooled features in the fifth
  stretch's, each as the layered term of the arguments.
-/
import proofs.«162121_j80942953660708_2_alg».proof.Proof.Gen.KernelIdeal.Frame
import proofs.«162121_j80942953660708_2_alg».proof.Proof.Gen.ReferenceIdeal
import proofs.«162121_j80942953660708_2_alg».proof.Proof.Region0
import proofs.«162121_j80942953660708_2_alg».proof.Proof.Region1
import proofs.«162121_j80942953660708_2_alg».proof.Proof.Region2
import proofs.«162121_j80942953660708_2_alg».proof.Proof.Region3
import proofs.«162121_j80942953660708_2_alg».proof.Proof.Region4
import proofs.«162121_j80942953660708_2_alg».proof.Proof.Region5
import proofs.«162121_j80942953660708_2_alg».proof.Proof.Region6
import proofs.«162121_j80942953660708_2_alg».proof.Proof.Region7
import proofs.«162121_j80942953660708_2_alg».proof.Proof.Layers

noncomputable section

namespace Cert.KernelIdeal.ValueRun

open Cert.KernelIdeal Cert.KernelIdeal.Gen Idealize.ShloMosaic Idealize.ShloMosaic.TcCoe Idealize.SL.Sem
open Idealize.ShloMosaic.Pipeline (Dat)
open Cert.KernelIdeal.RegionValue

variable (m : (ℓ : Loc nD τ sig) → Buf (Elt Ideal) ℓ) (ρ : Dev nD → PrngReg)

/-! ## The layers' values, named -/

/-- The edge list as launched. -/
abbrev edges (c : Dev nD) : Cert.Gcn.Edges := m ((c : Thread nD τ).loc main_arg1)

/-- The first layer's scaled rows and its output. -/
abbrev rows1 (c : Dev nD) := Cert.Gcn.scaledProduct (m ((c : Thread nD τ).loc main_arg0)) (m ((c : Thread nD τ).loc main_arg3)) (Cert.Gcn.disCol (edges m c))
abbrev hidden1 (c : Dev nD) := Cert.Gcn.nodeH1 (m ((c : Thread nD τ).loc main_arg0)) (edges m c) (m ((c : Thread nD τ).loc main_arg3)) (m ((c : Thread nD τ).loc main_arg4))
/-- The second layer's scaled rows and its output, the latent features. -/
abbrev rows2 (c : Dev nD) := Cert.Gcn.scaledProduct (hidden1 m c) (m ((c : Thread nD τ).loc main_arg5)) (Cert.Gcn.disCol (edges m c))
abbrev latent (c : Dev nD) := Cert.Gcn.nodeZ (m ((c : Thread nD τ).loc main_arg0)) (edges m c) (m ((c : Thread nD τ).loc main_arg3)) (m ((c : Thread nD τ).loc main_arg4)) (m ((c : Thread nD τ).loc main_arg5)) (m ((c : Thread nD τ).loc main_arg6))
/-- The third layer's scaled rows and its output. -/
abbrev rows3 (c : Dev nD) := Cert.Gcn.scaledProduct (latent m c) (m ((c : Thread nD τ).loc main_arg7)) (Cert.Gcn.disCol (edges m c))
abbrev hidden2 (c : Dev nD) := Cert.Gcn.nodeH2 (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8))
/-- The fourth layer's scaled rows and its output. -/
abbrev rows4 (c : Dev nD) := Cert.Gcn.scaledProduct (hidden2 m c) (m ((c : Thread nD τ).loc main_arg9)) (Cert.Gcn.disCol (edges m c))
abbrev output (c : Dev nD) := Cert.Gcn.nodeX (m ((c : Thread nD τ).loc main_arg0)) (edges m c) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10))

/-! ## The boundaries, in order: `atJ_b` is buffer `b` at boundary `J` -/

/-- After the first stretch: each edge's source, -/
theorem at1_v1 (c : Dev nD) : W1 m ρ c (Proc.devRef .tc main_v1) = Cert.Gcn.srcOf (edges m c) := by
  show StableHlo.after hostOps0 (W0 m ρ c) (Proc.devRef .tc main_v1) = _
  after_results
  rfl

/-- each edge's target, -/
theorem at1_v3 (c : Dev nD) : W1 m ρ c (Proc.devRef .tc main_v3) = Cert.Gcn.dstOf (edges m c) := by
  show StableHlo.after hostOps0 (W0 m ρ c) (Proc.devRef .tc main_v3) = _
  after_results
  rfl

/-- the node factors, -/
theorem at1_v10 (c : Dev nD) : W1 m ρ c (Proc.devRef .tc main_v10) = Cert.Gcn.disOf (edges m c) := by
  show StableHlo.after hostOps0 (W0 m ρ c) (Proc.devRef .tc main_v10) = _
  after_results
  rfl

/-- and the factors as a column. -/
theorem at1_v11 (c : Dev nD) : W1 m ρ c (Proc.devRef .tc main_v11) = Cert.Gcn.disCol (edges m c) := by
  show StableHlo.after hostOps0 (W0 m ρ c) (Proc.devRef .tc main_v11) = _
  after_results
  rfl

/-- The sources are written once and never again: every later boundary finds them unchanged. -/
theorem at2_v1 (c : Dev nD) : W2 m ρ c (Proc.devRef .tc main_v1) = Cert.Gcn.srcOf (edges m c) :=
  (W2_of_ne m ρ c main_v1 (by decide)).trans (at1_v1 m ρ c)

theorem at3_v1 (c : Dev nD) : W3 m ρ c (Proc.devRef .tc main_v1) = Cert.Gcn.srcOf (edges m c) := by
  show StableHlo.after hostOps1 (W2 m ρ c) (Proc.devRef .tc main_v1) = _
  after_results
  exact at2_v1 m ρ c

theorem at4_v1 (c : Dev nD) : W4 m ρ c (Proc.devRef .tc main_v1) = Cert.Gcn.srcOf (edges m c) :=
  (W4_of_ne m ρ c main_v1 (by decide)).trans (at3_v1 m ρ c)

theorem at5_v1 (c : Dev nD) : W5 m ρ c (Proc.devRef .tc main_v1) = Cert.Gcn.srcOf (edges m c) := by
  show StableHlo.after hostOps2 (W4 m ρ c) (Proc.devRef .tc main_v1) = _
  after_results
  exact at4_v1 m ρ c

theorem at6_v1 (c : Dev nD) : W6 m ρ c (Proc.devRef .tc main_v1) = Cert.Gcn.srcOf (edges m c) :=
  (W6_of_ne m ρ c main_v1 (by decide)).trans (at5_v1 m ρ c)

theorem at7_v1 (c : Dev nD) : W7 m ρ c (Proc.devRef .tc main_v1) = Cert.Gcn.srcOf (edges m c) := by
  show StableHlo.after hostOps3 (W6 m ρ c) (Proc.devRef .tc main_v1) = _
  after_results
  exact at6_v1 m ρ c

theorem at8_v1 (c : Dev nD) : W8 m ρ c (Proc.devRef .tc main_v1) = Cert.Gcn.srcOf (edges m c) :=
  (W8_of_ne m ρ c main_v1 (by decide)).trans (at7_v1 m ρ c)

theorem at9_v1 (c : Dev nD) : W9 m ρ c (Proc.devRef .tc main_v1) = Cert.Gcn.srcOf (edges m c) := by
  show StableHlo.after hostOps4 (W8 m ρ c) (Proc.devRef .tc main_v1) = _
  after_results
  exact at8_v1 m ρ c

theorem at10_v1 (c : Dev nD) : W10 m ρ c (Proc.devRef .tc main_v1) = Cert.Gcn.srcOf (edges m c) :=
  (W10_of_ne m ρ c main_v1 (by decide)).trans (at9_v1 m ρ c)

theorem at11_v1 (c : Dev nD) : W11 m ρ c (Proc.devRef .tc main_v1) = Cert.Gcn.srcOf (edges m c) := by
  show StableHlo.after hostOps5 (W10 m ρ c) (Proc.devRef .tc main_v1) = _
  after_results
  exact at10_v1 m ρ c

theorem at12_v1 (c : Dev nD) : W12 m ρ c (Proc.devRef .tc main_v1) = Cert.Gcn.srcOf (edges m c) :=
  (W12_of_ne m ρ c main_v1 (by decide)).trans (at11_v1 m ρ c)

theorem at13_v1 (c : Dev nD) : W13 m ρ c (Proc.devRef .tc main_v1) = Cert.Gcn.srcOf (edges m c) := by
  show StableHlo.after hostOps6 (W12 m ρ c) (Proc.devRef .tc main_v1) = _
  after_results
  exact at12_v1 m ρ c

theorem at14_v1 (c : Dev nD) : W14 m ρ c (Proc.devRef .tc main_v1) = Cert.Gcn.srcOf (edges m c) :=
  (W14_of_ne m ρ c main_v1 (by decide)).trans (at13_v1 m ρ c)

/-- So are the targets, -/
theorem at2_v3 (c : Dev nD) : W2 m ρ c (Proc.devRef .tc main_v3) = Cert.Gcn.dstOf (edges m c) :=
  (W2_of_ne m ρ c main_v3 (by decide)).trans (at1_v3 m ρ c)

theorem at3_v3 (c : Dev nD) : W3 m ρ c (Proc.devRef .tc main_v3) = Cert.Gcn.dstOf (edges m c) := by
  show StableHlo.after hostOps1 (W2 m ρ c) (Proc.devRef .tc main_v3) = _
  after_results
  exact at2_v3 m ρ c

theorem at4_v3 (c : Dev nD) : W4 m ρ c (Proc.devRef .tc main_v3) = Cert.Gcn.dstOf (edges m c) :=
  (W4_of_ne m ρ c main_v3 (by decide)).trans (at3_v3 m ρ c)

theorem at5_v3 (c : Dev nD) : W5 m ρ c (Proc.devRef .tc main_v3) = Cert.Gcn.dstOf (edges m c) := by
  show StableHlo.after hostOps2 (W4 m ρ c) (Proc.devRef .tc main_v3) = _
  after_results
  exact at4_v3 m ρ c

theorem at6_v3 (c : Dev nD) : W6 m ρ c (Proc.devRef .tc main_v3) = Cert.Gcn.dstOf (edges m c) :=
  (W6_of_ne m ρ c main_v3 (by decide)).trans (at5_v3 m ρ c)

theorem at7_v3 (c : Dev nD) : W7 m ρ c (Proc.devRef .tc main_v3) = Cert.Gcn.dstOf (edges m c) := by
  show StableHlo.after hostOps3 (W6 m ρ c) (Proc.devRef .tc main_v3) = _
  after_results
  exact at6_v3 m ρ c

theorem at8_v3 (c : Dev nD) : W8 m ρ c (Proc.devRef .tc main_v3) = Cert.Gcn.dstOf (edges m c) :=
  (W8_of_ne m ρ c main_v3 (by decide)).trans (at7_v3 m ρ c)

theorem at9_v3 (c : Dev nD) : W9 m ρ c (Proc.devRef .tc main_v3) = Cert.Gcn.dstOf (edges m c) := by
  show StableHlo.after hostOps4 (W8 m ρ c) (Proc.devRef .tc main_v3) = _
  after_results
  exact at8_v3 m ρ c

theorem at10_v3 (c : Dev nD) : W10 m ρ c (Proc.devRef .tc main_v3) = Cert.Gcn.dstOf (edges m c) :=
  (W10_of_ne m ρ c main_v3 (by decide)).trans (at9_v3 m ρ c)

theorem at11_v3 (c : Dev nD) : W11 m ρ c (Proc.devRef .tc main_v3) = Cert.Gcn.dstOf (edges m c) := by
  show StableHlo.after hostOps5 (W10 m ρ c) (Proc.devRef .tc main_v3) = _
  after_results
  exact at10_v3 m ρ c

theorem at12_v3 (c : Dev nD) : W12 m ρ c (Proc.devRef .tc main_v3) = Cert.Gcn.dstOf (edges m c) :=
  (W12_of_ne m ρ c main_v3 (by decide)).trans (at11_v3 m ρ c)

theorem at13_v3 (c : Dev nD) : W13 m ρ c (Proc.devRef .tc main_v3) = Cert.Gcn.dstOf (edges m c) := by
  show StableHlo.after hostOps6 (W12 m ρ c) (Proc.devRef .tc main_v3) = _
  after_results
  exact at12_v3 m ρ c

theorem at14_v3 (c : Dev nD) : W14 m ρ c (Proc.devRef .tc main_v3) = Cert.Gcn.dstOf (edges m c) :=
  (W14_of_ne m ρ c main_v3 (by decide)).trans (at13_v3 m ρ c)

/-- and the node factors. -/
theorem at2_v10 (c : Dev nD) : W2 m ρ c (Proc.devRef .tc main_v10) = Cert.Gcn.disOf (edges m c) :=
  (W2_of_ne m ρ c main_v10 (by decide)).trans (at1_v10 m ρ c)

theorem at3_v10 (c : Dev nD) : W3 m ρ c (Proc.devRef .tc main_v10) = Cert.Gcn.disOf (edges m c) := by
  show StableHlo.after hostOps1 (W2 m ρ c) (Proc.devRef .tc main_v10) = _
  after_results
  exact at2_v10 m ρ c

theorem at4_v10 (c : Dev nD) : W4 m ρ c (Proc.devRef .tc main_v10) = Cert.Gcn.disOf (edges m c) :=
  (W4_of_ne m ρ c main_v10 (by decide)).trans (at3_v10 m ρ c)

theorem at5_v10 (c : Dev nD) : W5 m ρ c (Proc.devRef .tc main_v10) = Cert.Gcn.disOf (edges m c) := by
  show StableHlo.after hostOps2 (W4 m ρ c) (Proc.devRef .tc main_v10) = _
  after_results
  exact at4_v10 m ρ c

theorem at6_v10 (c : Dev nD) : W6 m ρ c (Proc.devRef .tc main_v10) = Cert.Gcn.disOf (edges m c) :=
  (W6_of_ne m ρ c main_v10 (by decide)).trans (at5_v10 m ρ c)

theorem at7_v10 (c : Dev nD) : W7 m ρ c (Proc.devRef .tc main_v10) = Cert.Gcn.disOf (edges m c) := by
  show StableHlo.after hostOps3 (W6 m ρ c) (Proc.devRef .tc main_v10) = _
  after_results
  exact at6_v10 m ρ c

theorem at8_v10 (c : Dev nD) : W8 m ρ c (Proc.devRef .tc main_v10) = Cert.Gcn.disOf (edges m c) :=
  (W8_of_ne m ρ c main_v10 (by decide)).trans (at7_v10 m ρ c)

theorem at9_v10 (c : Dev nD) : W9 m ρ c (Proc.devRef .tc main_v10) = Cert.Gcn.disOf (edges m c) := by
  show StableHlo.after hostOps4 (W8 m ρ c) (Proc.devRef .tc main_v10) = _
  after_results
  exact at8_v10 m ρ c

theorem at10_v10 (c : Dev nD) : W10 m ρ c (Proc.devRef .tc main_v10) = Cert.Gcn.disOf (edges m c) :=
  (W10_of_ne m ρ c main_v10 (by decide)).trans (at9_v10 m ρ c)

theorem at11_v10 (c : Dev nD) : W11 m ρ c (Proc.devRef .tc main_v10) = Cert.Gcn.disOf (edges m c) := by
  show StableHlo.after hostOps5 (W10 m ρ c) (Proc.devRef .tc main_v10) = _
  after_results
  exact at10_v10 m ρ c

theorem at12_v10 (c : Dev nD) : W12 m ρ c (Proc.devRef .tc main_v10) = Cert.Gcn.disOf (edges m c) :=
  (W12_of_ne m ρ c main_v10 (by decide)).trans (at11_v10 m ρ c)

/-- Argument 0 is never written: up to the boundary where it is read it holds what the launch gave it. -/
theorem at1_arg0 (c : Dev nD) : W1 m ρ c (Proc.devRef .tc main_arg0) = (m ((c : Thread nD τ).loc main_arg0)) := by
  show StableHlo.after hostOps0 (W0 m ρ c) (Proc.devRef .tc main_arg0) = _
  after_results

/-- Argument 2 is never written: up to the boundary where it is read it holds what the launch gave it. -/
theorem at1_arg2 (c : Dev nD) : W1 m ρ c (Proc.devRef .tc main_arg2) = (m ((c : Thread nD τ).loc main_arg2)) := by
  show StableHlo.after hostOps0 (W0 m ρ c) (Proc.devRef .tc main_arg2) = _
  after_results

theorem at2_arg2 (c : Dev nD) : W2 m ρ c (Proc.devRef .tc main_arg2) = (m ((c : Thread nD τ).loc main_arg2)) :=
  (W2_of_ne m ρ c main_arg2 (by decide)).trans (at1_arg2 m ρ c)

theorem at3_arg2 (c : Dev nD) : W3 m ρ c (Proc.devRef .tc main_arg2) = (m ((c : Thread nD τ).loc main_arg2)) := by
  show StableHlo.after hostOps1 (W2 m ρ c) (Proc.devRef .tc main_arg2) = _
  after_results
  exact at2_arg2 m ρ c

theorem at4_arg2 (c : Dev nD) : W4 m ρ c (Proc.devRef .tc main_arg2) = (m ((c : Thread nD τ).loc main_arg2)) :=
  (W4_of_ne m ρ c main_arg2 (by decide)).trans (at3_arg2 m ρ c)

theorem at5_arg2 (c : Dev nD) : W5 m ρ c (Proc.devRef .tc main_arg2) = (m ((c : Thread nD τ).loc main_arg2)) := by
  show StableHlo.after hostOps2 (W4 m ρ c) (Proc.devRef .tc main_arg2) = _
  after_results
  exact at4_arg2 m ρ c

theorem at6_arg2 (c : Dev nD) : W6 m ρ c (Proc.devRef .tc main_arg2) = (m ((c : Thread nD τ).loc main_arg2)) :=
  (W6_of_ne m ρ c main_arg2 (by decide)).trans (at5_arg2 m ρ c)

theorem at7_arg2 (c : Dev nD) : W7 m ρ c (Proc.devRef .tc main_arg2) = (m ((c : Thread nD τ).loc main_arg2)) := by
  show StableHlo.after hostOps3 (W6 m ρ c) (Proc.devRef .tc main_arg2) = _
  after_results
  exact at6_arg2 m ρ c

theorem at8_arg2 (c : Dev nD) : W8 m ρ c (Proc.devRef .tc main_arg2) = (m ((c : Thread nD τ).loc main_arg2)) :=
  (W8_of_ne m ρ c main_arg2 (by decide)).trans (at7_arg2 m ρ c)

/-- Argument 3 is never written: up to the boundary where it is read it holds what the launch gave it. -/
theorem at1_arg3 (c : Dev nD) : W1 m ρ c (Proc.devRef .tc main_arg3) = (m ((c : Thread nD τ).loc main_arg3)) := by
  show StableHlo.after hostOps0 (W0 m ρ c) (Proc.devRef .tc main_arg3) = _
  after_results

/-- Argument 4 is never written: up to the boundary where it is read it holds what the launch gave it. -/
theorem at1_arg4 (c : Dev nD) : W1 m ρ c (Proc.devRef .tc main_arg4) = (m ((c : Thread nD τ).loc main_arg4)) := by
  show StableHlo.after hostOps0 (W0 m ρ c) (Proc.devRef .tc main_arg4) = _
  after_results

theorem at2_arg4 (c : Dev nD) : W2 m ρ c (Proc.devRef .tc main_arg4) = (m ((c : Thread nD τ).loc main_arg4)) :=
  (W2_of_ne m ρ c main_arg4 (by decide)).trans (at1_arg4 m ρ c)

/-- Argument 5 is never written: up to the boundary where it is read it holds what the launch gave it. -/
theorem at1_arg5 (c : Dev nD) : W1 m ρ c (Proc.devRef .tc main_arg5) = (m ((c : Thread nD τ).loc main_arg5)) := by
  show StableHlo.after hostOps0 (W0 m ρ c) (Proc.devRef .tc main_arg5) = _
  after_results

theorem at2_arg5 (c : Dev nD) : W2 m ρ c (Proc.devRef .tc main_arg5) = (m ((c : Thread nD τ).loc main_arg5)) :=
  (W2_of_ne m ρ c main_arg5 (by decide)).trans (at1_arg5 m ρ c)

theorem at3_arg5 (c : Dev nD) : W3 m ρ c (Proc.devRef .tc main_arg5) = (m ((c : Thread nD τ).loc main_arg5)) := by
  show StableHlo.after hostOps1 (W2 m ρ c) (Proc.devRef .tc main_arg5) = _
  after_results
  exact at2_arg5 m ρ c

theorem at4_arg5 (c : Dev nD) : W4 m ρ c (Proc.devRef .tc main_arg5) = (m ((c : Thread nD τ).loc main_arg5)) :=
  (W4_of_ne m ρ c main_arg5 (by decide)).trans (at3_arg5 m ρ c)

theorem at5_arg5 (c : Dev nD) : W5 m ρ c (Proc.devRef .tc main_arg5) = (m ((c : Thread nD τ).loc main_arg5)) := by
  show StableHlo.after hostOps2 (W4 m ρ c) (Proc.devRef .tc main_arg5) = _
  after_results
  exact at4_arg5 m ρ c

/-- Argument 6 is never written: up to the boundary where it is read it holds what the launch gave it. -/
theorem at1_arg6 (c : Dev nD) : W1 m ρ c (Proc.devRef .tc main_arg6) = (m ((c : Thread nD τ).loc main_arg6)) := by
  show StableHlo.after hostOps0 (W0 m ρ c) (Proc.devRef .tc main_arg6) = _
  after_results

theorem at2_arg6 (c : Dev nD) : W2 m ρ c (Proc.devRef .tc main_arg6) = (m ((c : Thread nD τ).loc main_arg6)) :=
  (W2_of_ne m ρ c main_arg6 (by decide)).trans (at1_arg6 m ρ c)

theorem at3_arg6 (c : Dev nD) : W3 m ρ c (Proc.devRef .tc main_arg6) = (m ((c : Thread nD τ).loc main_arg6)) := by
  show StableHlo.after hostOps1 (W2 m ρ c) (Proc.devRef .tc main_arg6) = _
  after_results
  exact at2_arg6 m ρ c

theorem at4_arg6 (c : Dev nD) : W4 m ρ c (Proc.devRef .tc main_arg6) = (m ((c : Thread nD τ).loc main_arg6)) :=
  (W4_of_ne m ρ c main_arg6 (by decide)).trans (at3_arg6 m ρ c)

theorem at5_arg6 (c : Dev nD) : W5 m ρ c (Proc.devRef .tc main_arg6) = (m ((c : Thread nD τ).loc main_arg6)) := by
  show StableHlo.after hostOps2 (W4 m ρ c) (Proc.devRef .tc main_arg6) = _
  after_results
  exact at4_arg6 m ρ c

theorem at6_arg6 (c : Dev nD) : W6 m ρ c (Proc.devRef .tc main_arg6) = (m ((c : Thread nD τ).loc main_arg6)) :=
  (W6_of_ne m ρ c main_arg6 (by decide)).trans (at5_arg6 m ρ c)

/-- Argument 7 is never written: up to the boundary where it is read it holds what the launch gave it. -/
theorem at1_arg7 (c : Dev nD) : W1 m ρ c (Proc.devRef .tc main_arg7) = (m ((c : Thread nD τ).loc main_arg7)) := by
  show StableHlo.after hostOps0 (W0 m ρ c) (Proc.devRef .tc main_arg7) = _
  after_results

theorem at2_arg7 (c : Dev nD) : W2 m ρ c (Proc.devRef .tc main_arg7) = (m ((c : Thread nD τ).loc main_arg7)) :=
  (W2_of_ne m ρ c main_arg7 (by decide)).trans (at1_arg7 m ρ c)

theorem at3_arg7 (c : Dev nD) : W3 m ρ c (Proc.devRef .tc main_arg7) = (m ((c : Thread nD τ).loc main_arg7)) := by
  show StableHlo.after hostOps1 (W2 m ρ c) (Proc.devRef .tc main_arg7) = _
  after_results
  exact at2_arg7 m ρ c

theorem at4_arg7 (c : Dev nD) : W4 m ρ c (Proc.devRef .tc main_arg7) = (m ((c : Thread nD τ).loc main_arg7)) :=
  (W4_of_ne m ρ c main_arg7 (by decide)).trans (at3_arg7 m ρ c)

theorem at5_arg7 (c : Dev nD) : W5 m ρ c (Proc.devRef .tc main_arg7) = (m ((c : Thread nD τ).loc main_arg7)) := by
  show StableHlo.after hostOps2 (W4 m ρ c) (Proc.devRef .tc main_arg7) = _
  after_results
  exact at4_arg7 m ρ c

theorem at6_arg7 (c : Dev nD) : W6 m ρ c (Proc.devRef .tc main_arg7) = (m ((c : Thread nD τ).loc main_arg7)) :=
  (W6_of_ne m ρ c main_arg7 (by decide)).trans (at5_arg7 m ρ c)

theorem at7_arg7 (c : Dev nD) : W7 m ρ c (Proc.devRef .tc main_arg7) = (m ((c : Thread nD τ).loc main_arg7)) := by
  show StableHlo.after hostOps3 (W6 m ρ c) (Proc.devRef .tc main_arg7) = _
  after_results
  exact at6_arg7 m ρ c

theorem at8_arg7 (c : Dev nD) : W8 m ρ c (Proc.devRef .tc main_arg7) = (m ((c : Thread nD τ).loc main_arg7)) :=
  (W8_of_ne m ρ c main_arg7 (by decide)).trans (at7_arg7 m ρ c)

theorem at9_arg7 (c : Dev nD) : W9 m ρ c (Proc.devRef .tc main_arg7) = (m ((c : Thread nD τ).loc main_arg7)) := by
  show StableHlo.after hostOps4 (W8 m ρ c) (Proc.devRef .tc main_arg7) = _
  after_results
  exact at8_arg7 m ρ c

/-- Argument 8 is never written: up to the boundary where it is read it holds what the launch gave it. -/
theorem at1_arg8 (c : Dev nD) : W1 m ρ c (Proc.devRef .tc main_arg8) = (m ((c : Thread nD τ).loc main_arg8)) := by
  show StableHlo.after hostOps0 (W0 m ρ c) (Proc.devRef .tc main_arg8) = _
  after_results

theorem at2_arg8 (c : Dev nD) : W2 m ρ c (Proc.devRef .tc main_arg8) = (m ((c : Thread nD τ).loc main_arg8)) :=
  (W2_of_ne m ρ c main_arg8 (by decide)).trans (at1_arg8 m ρ c)

theorem at3_arg8 (c : Dev nD) : W3 m ρ c (Proc.devRef .tc main_arg8) = (m ((c : Thread nD τ).loc main_arg8)) := by
  show StableHlo.after hostOps1 (W2 m ρ c) (Proc.devRef .tc main_arg8) = _
  after_results
  exact at2_arg8 m ρ c

theorem at4_arg8 (c : Dev nD) : W4 m ρ c (Proc.devRef .tc main_arg8) = (m ((c : Thread nD τ).loc main_arg8)) :=
  (W4_of_ne m ρ c main_arg8 (by decide)).trans (at3_arg8 m ρ c)

theorem at5_arg8 (c : Dev nD) : W5 m ρ c (Proc.devRef .tc main_arg8) = (m ((c : Thread nD τ).loc main_arg8)) := by
  show StableHlo.after hostOps2 (W4 m ρ c) (Proc.devRef .tc main_arg8) = _
  after_results
  exact at4_arg8 m ρ c

theorem at6_arg8 (c : Dev nD) : W6 m ρ c (Proc.devRef .tc main_arg8) = (m ((c : Thread nD τ).loc main_arg8)) :=
  (W6_of_ne m ρ c main_arg8 (by decide)).trans (at5_arg8 m ρ c)

theorem at7_arg8 (c : Dev nD) : W7 m ρ c (Proc.devRef .tc main_arg8) = (m ((c : Thread nD τ).loc main_arg8)) := by
  show StableHlo.after hostOps3 (W6 m ρ c) (Proc.devRef .tc main_arg8) = _
  after_results
  exact at6_arg8 m ρ c

theorem at8_arg8 (c : Dev nD) : W8 m ρ c (Proc.devRef .tc main_arg8) = (m ((c : Thread nD τ).loc main_arg8)) :=
  (W8_of_ne m ρ c main_arg8 (by decide)).trans (at7_arg8 m ρ c)

theorem at9_arg8 (c : Dev nD) : W9 m ρ c (Proc.devRef .tc main_arg8) = (m ((c : Thread nD τ).loc main_arg8)) := by
  show StableHlo.after hostOps4 (W8 m ρ c) (Proc.devRef .tc main_arg8) = _
  after_results
  exact at8_arg8 m ρ c

theorem at10_arg8 (c : Dev nD) : W10 m ρ c (Proc.devRef .tc main_arg8) = (m ((c : Thread nD τ).loc main_arg8)) :=
  (W10_of_ne m ρ c main_arg8 (by decide)).trans (at9_arg8 m ρ c)

/-- Argument 9 is never written: up to the boundary where it is read it holds what the launch gave it. -/
theorem at1_arg9 (c : Dev nD) : W1 m ρ c (Proc.devRef .tc main_arg9) = (m ((c : Thread nD τ).loc main_arg9)) := by
  show StableHlo.after hostOps0 (W0 m ρ c) (Proc.devRef .tc main_arg9) = _
  after_results

theorem at2_arg9 (c : Dev nD) : W2 m ρ c (Proc.devRef .tc main_arg9) = (m ((c : Thread nD τ).loc main_arg9)) :=
  (W2_of_ne m ρ c main_arg9 (by decide)).trans (at1_arg9 m ρ c)

theorem at3_arg9 (c : Dev nD) : W3 m ρ c (Proc.devRef .tc main_arg9) = (m ((c : Thread nD τ).loc main_arg9)) := by
  show StableHlo.after hostOps1 (W2 m ρ c) (Proc.devRef .tc main_arg9) = _
  after_results
  exact at2_arg9 m ρ c

theorem at4_arg9 (c : Dev nD) : W4 m ρ c (Proc.devRef .tc main_arg9) = (m ((c : Thread nD τ).loc main_arg9)) :=
  (W4_of_ne m ρ c main_arg9 (by decide)).trans (at3_arg9 m ρ c)

theorem at5_arg9 (c : Dev nD) : W5 m ρ c (Proc.devRef .tc main_arg9) = (m ((c : Thread nD τ).loc main_arg9)) := by
  show StableHlo.after hostOps2 (W4 m ρ c) (Proc.devRef .tc main_arg9) = _
  after_results
  exact at4_arg9 m ρ c

theorem at6_arg9 (c : Dev nD) : W6 m ρ c (Proc.devRef .tc main_arg9) = (m ((c : Thread nD τ).loc main_arg9)) :=
  (W6_of_ne m ρ c main_arg9 (by decide)).trans (at5_arg9 m ρ c)

theorem at7_arg9 (c : Dev nD) : W7 m ρ c (Proc.devRef .tc main_arg9) = (m ((c : Thread nD τ).loc main_arg9)) := by
  show StableHlo.after hostOps3 (W6 m ρ c) (Proc.devRef .tc main_arg9) = _
  after_results
  exact at6_arg9 m ρ c

theorem at8_arg9 (c : Dev nD) : W8 m ρ c (Proc.devRef .tc main_arg9) = (m ((c : Thread nD τ).loc main_arg9)) :=
  (W8_of_ne m ρ c main_arg9 (by decide)).trans (at7_arg9 m ρ c)

theorem at9_arg9 (c : Dev nD) : W9 m ρ c (Proc.devRef .tc main_arg9) = (m ((c : Thread nD τ).loc main_arg9)) := by
  show StableHlo.after hostOps4 (W8 m ρ c) (Proc.devRef .tc main_arg9) = _
  after_results
  exact at8_arg9 m ρ c

theorem at10_arg9 (c : Dev nD) : W10 m ρ c (Proc.devRef .tc main_arg9) = (m ((c : Thread nD τ).loc main_arg9)) :=
  (W10_of_ne m ρ c main_arg9 (by decide)).trans (at9_arg9 m ρ c)

theorem at11_arg9 (c : Dev nD) : W11 m ρ c (Proc.devRef .tc main_arg9) = (m ((c : Thread nD τ).loc main_arg9)) := by
  show StableHlo.after hostOps5 (W10 m ρ c) (Proc.devRef .tc main_arg9) = _
  after_results
  exact at10_arg9 m ρ c

theorem at12_arg9 (c : Dev nD) : W12 m ρ c (Proc.devRef .tc main_arg9) = (m ((c : Thread nD τ).loc main_arg9)) :=
  (W12_of_ne m ρ c main_arg9 (by decide)).trans (at11_arg9 m ρ c)

theorem at13_arg9 (c : Dev nD) : W13 m ρ c (Proc.devRef .tc main_arg9) = (m ((c : Thread nD τ).loc main_arg9)) := by
  show StableHlo.after hostOps6 (W12 m ρ c) (Proc.devRef .tc main_arg9) = _
  after_results
  exact at12_arg9 m ρ c

/-- Argument 10 is never written: up to the boundary where it is read it holds what the launch gave it. -/
theorem at1_arg10 (c : Dev nD) : W1 m ρ c (Proc.devRef .tc main_arg10) = (m ((c : Thread nD τ).loc main_arg10)) := by
  show StableHlo.after hostOps0 (W0 m ρ c) (Proc.devRef .tc main_arg10) = _
  after_results

theorem at2_arg10 (c : Dev nD) : W2 m ρ c (Proc.devRef .tc main_arg10) = (m ((c : Thread nD τ).loc main_arg10)) :=
  (W2_of_ne m ρ c main_arg10 (by decide)).trans (at1_arg10 m ρ c)

theorem at3_arg10 (c : Dev nD) : W3 m ρ c (Proc.devRef .tc main_arg10) = (m ((c : Thread nD τ).loc main_arg10)) := by
  show StableHlo.after hostOps1 (W2 m ρ c) (Proc.devRef .tc main_arg10) = _
  after_results
  exact at2_arg10 m ρ c

theorem at4_arg10 (c : Dev nD) : W4 m ρ c (Proc.devRef .tc main_arg10) = (m ((c : Thread nD τ).loc main_arg10)) :=
  (W4_of_ne m ρ c main_arg10 (by decide)).trans (at3_arg10 m ρ c)

theorem at5_arg10 (c : Dev nD) : W5 m ρ c (Proc.devRef .tc main_arg10) = (m ((c : Thread nD τ).loc main_arg10)) := by
  show StableHlo.after hostOps2 (W4 m ρ c) (Proc.devRef .tc main_arg10) = _
  after_results
  exact at4_arg10 m ρ c

theorem at6_arg10 (c : Dev nD) : W6 m ρ c (Proc.devRef .tc main_arg10) = (m ((c : Thread nD τ).loc main_arg10)) :=
  (W6_of_ne m ρ c main_arg10 (by decide)).trans (at5_arg10 m ρ c)

theorem at7_arg10 (c : Dev nD) : W7 m ρ c (Proc.devRef .tc main_arg10) = (m ((c : Thread nD τ).loc main_arg10)) := by
  show StableHlo.after hostOps3 (W6 m ρ c) (Proc.devRef .tc main_arg10) = _
  after_results
  exact at6_arg10 m ρ c

theorem at8_arg10 (c : Dev nD) : W8 m ρ c (Proc.devRef .tc main_arg10) = (m ((c : Thread nD τ).loc main_arg10)) :=
  (W8_of_ne m ρ c main_arg10 (by decide)).trans (at7_arg10 m ρ c)

theorem at9_arg10 (c : Dev nD) : W9 m ρ c (Proc.devRef .tc main_arg10) = (m ((c : Thread nD τ).loc main_arg10)) := by
  show StableHlo.after hostOps4 (W8 m ρ c) (Proc.devRef .tc main_arg10) = _
  after_results
  exact at8_arg10 m ρ c

theorem at10_arg10 (c : Dev nD) : W10 m ρ c (Proc.devRef .tc main_arg10) = (m ((c : Thread nD τ).loc main_arg10)) :=
  (W10_of_ne m ρ c main_arg10 (by decide)).trans (at9_arg10 m ρ c)

theorem at11_arg10 (c : Dev nD) : W11 m ρ c (Proc.devRef .tc main_arg10) = (m ((c : Thread nD τ).loc main_arg10)) := by
  show StableHlo.after hostOps5 (W10 m ρ c) (Proc.devRef .tc main_arg10) = _
  after_results
  exact at10_arg10 m ρ c

theorem at12_arg10 (c : Dev nD) : W12 m ρ c (Proc.devRef .tc main_arg10) = (m ((c : Thread nD τ).loc main_arg10)) :=
  (W12_of_ne m ρ c main_arg10 (by decide)).trans (at11_arg10 m ρ c)

theorem at13_arg10 (c : Dev nD) : W13 m ρ c (Proc.devRef .tc main_arg10) = (m ((c : Thread nD τ).loc main_arg10)) := by
  show StableHlo.after hostOps6 (W12 m ρ c) (Proc.devRef .tc main_arg10) = _
  after_results
  exact at12_arg10 m ρ c

theorem at14_arg10 (c : Dev nD) : W14 m ρ c (Proc.devRef .tc main_arg10) = (m ((c : Thread nD τ).loc main_arg10)) :=
  (W14_of_ne m ρ c main_arg10 (by decide)).trans (at13_arg10 m ρ c)

/-- Region 0 leaves the first layer's scaled rows. -/
theorem at2_v12 (c : Dev nD) : W2 m ρ c (Proc.devRef .tc main_v12) = (rows1 m c) :=
  (W2_arr m ρ c 3).trans ((region0 (V1 m ρ) c).trans (by
    show Cert.Gcn.scaledProduct (W1 m ρ c (Proc.devRef .tc main_arg0)) (W1 m ρ c (Proc.devRef .tc main_arg3)) (W1 m ρ c (Proc.devRef .tc main_v11)) = _
    rw [at1_arg0 m ρ c, at1_arg3 m ρ c, at1_v11 m ρ c]
    try rfl))

theorem at3_v12 (c : Dev nD) : W3 m ρ c (Proc.devRef .tc main_v12) = (rows1 m c) := by
  show StableHlo.after hostOps1 (W2 m ρ c) (Proc.devRef .tc main_v12) = _
  after_results
  exact at2_v12 m ρ c

theorem at2_v11 (c : Dev nD) : W2 m ρ c (Proc.devRef .tc main_v11) = Cert.Gcn.disCol (edges m c) :=
  (W2_arr m ρ c 2).trans (((dat0 (V1 m ρ) c).arrAt_in 2 rfl _).trans ((A_eq0 (V1 m ρ) c 2).trans (at1_v11 m ρ c)))

theorem at3_v11 (c : Dev nD) : W3 m ρ c (Proc.devRef .tc main_v11) = Cert.Gcn.disCol (edges m c) := by
  show StableHlo.after hostOps1 (W2 m ρ c) (Proc.devRef .tc main_v11) = _
  after_results
  exact at2_v11 m ρ c

/-- The second stretch sums the neighbours' scaled rows into each node -/
theorem at3_v23 (c : Dev nD) : W3 m ρ c (Proc.devRef .tc main_v23) = Cert.Gcn.neighbourSum128 (edges m c) (rows1 m c) := by
  show StableHlo.after hostOps1 (W2 m ρ c) (Proc.devRef .tc main_v23) = _
  after_results_simp
  rw [at2_v1 m ρ c, at2_v3 m ρ c, at2_v12 m ρ c]
  rfl

/-- and lays the first bias out as a row. -/
theorem at3_v24 (c : Dev nD) : W3 m ρ c (Proc.devRef .tc main_v24) = shapeCast S1x128 (m ((c : Thread nD τ).loc main_arg4)) shapeCasts_S128_S1x128 := by
  show StableHlo.after hostOps1 (W2 m ρ c) (Proc.devRef .tc main_v24) = _
  after_results
  rw [at2_arg4 m ρ c]
  rfl

/-- Region 1 leaves the first layer's output. -/
theorem at4_v25 (c : Dev nD) : W4 m ρ c (Proc.devRef .tc main_v25) = (hidden1 m c) :=
  (W4_arr m ρ c 4).trans ((region1 (V3 m ρ) c).trans (by
    show Cert.Gcn.combineRelu (W3 m ρ c (Proc.devRef .tc main_v23)) (W3 m ρ c (Proc.devRef .tc main_v12)) (W3 m ρ c (Proc.devRef .tc main_v11)) (W3 m ρ c (Proc.devRef .tc main_v24)) = _
    rw [at3_v23 m ρ c, at3_v12 m ρ c, at3_v11 m ρ c, at3_v24 m ρ c]
    try rfl))

/-- The third stretch lays the factors out as a column again. -/
theorem at5_v26 (c : Dev nD) : W5 m ρ c (Proc.devRef .tc main_v26) = Cert.Gcn.disCol (edges m c) := by
  show StableHlo.after hostOps2 (W4 m ρ c) (Proc.devRef .tc main_v26) = _
  after_results
  rw [at4_v10 m ρ c]
  rfl

theorem at5_v25 (c : Dev nD) : W5 m ρ c (Proc.devRef .tc main_v25) = (hidden1 m c) := by
  show StableHlo.after hostOps2 (W4 m ρ c) (Proc.devRef .tc main_v25) = _
  after_results
  exact at4_v25 m ρ c

/-- Region 2 leaves the second layer's scaled rows. -/
theorem at6_v27 (c : Dev nD) : W6 m ρ c (Proc.devRef .tc main_v27) = (rows2 m c) :=
  (W6_arr m ρ c 3).trans ((region2 (V5 m ρ) c).trans (by
    show Cert.Gcn.scaledProduct (W5 m ρ c (Proc.devRef .tc main_v25)) (W5 m ρ c (Proc.devRef .tc main_arg5)) (W5 m ρ c (Proc.devRef .tc main_v26)) = _
    rw [at5_v25 m ρ c, at5_arg5 m ρ c, at5_v26 m ρ c]
    try rfl))

theorem at7_v27 (c : Dev nD) : W7 m ρ c (Proc.devRef .tc main_v27) = (rows2 m c) := by
  show StableHlo.after hostOps3 (W6 m ρ c) (Proc.devRef .tc main_v27) = _
  after_results
  exact at6_v27 m ρ c

theorem at6_v26 (c : Dev nD) : W6 m ρ c (Proc.devRef .tc main_v26) = Cert.Gcn.disCol (edges m c) :=
  (W6_arr m ρ c 2).trans (((dat2 (V5 m ρ) c).arrAt_in 2 rfl _).trans ((A_eq2 (V5 m ρ) c 2).trans (at5_v26 m ρ c)))

theorem at7_v26 (c : Dev nD) : W7 m ρ c (Proc.devRef .tc main_v26) = Cert.Gcn.disCol (edges m c) := by
  show StableHlo.after hostOps3 (W6 m ρ c) (Proc.devRef .tc main_v26) = _
  after_results
  exact at6_v26 m ρ c

/-- The fourth stretch sums the neighbours' scaled rows into each node -/
theorem at7_v38 (c : Dev nD) : W7 m ρ c (Proc.devRef .tc main_v38) = Cert.Gcn.neighbourSum64 (edges m c) (rows2 m c) := by
  show StableHlo.after hostOps3 (W6 m ρ c) (Proc.devRef .tc main_v38) = _
  after_results_simp
  rw [at6_v1 m ρ c, at6_v3 m ρ c, at6_v27 m ρ c]
  rfl

/-- and lays the second bias out as a row. -/
theorem at7_v39 (c : Dev nD) : W7 m ρ c (Proc.devRef .tc main_v39) = shapeCast S1x64 (m ((c : Thread nD τ).loc main_arg6)) shapeCasts_S64_S1x64 := by
  show StableHlo.after hostOps3 (W6 m ρ c) (Proc.devRef .tc main_v39) = _
  after_results
  rw [at6_arg6 m ρ c]
  rfl

/-- Region 3 leaves the second layer's output: the latent features. -/
theorem at8_v40 (c : Dev nD) : W8 m ρ c (Proc.devRef .tc main_v40) = (latent m c) :=
  (W8_arr m ρ c 4).trans ((region3 (V7 m ρ) c).trans (by
    show Cert.Gcn.combine (W7 m ρ c (Proc.devRef .tc main_v38)) (W7 m ρ c (Proc.devRef .tc main_v27)) (W7 m ρ c (Proc.devRef .tc main_v26)) (W7 m ρ c (Proc.devRef .tc main_v39)) = _
    rw [at7_v38 m ρ c, at7_v27 m ρ c, at7_v26 m ρ c, at7_v39 m ρ c]
    try rfl))

/-- The fifth stretch pools the latent features over the graphs -/
theorem at9_v52 (c : Dev nD) : W9 m ρ c (Proc.devRef .tc main_v52) = Cert.Gcn.pool (m ((c : Thread nD τ).loc main_arg2)) (latent m c) := by
  show StableHlo.after hostOps4 (W8 m ρ c) (Proc.devRef .tc main_v52) = _
  after_results_simp
  rw [at8_arg2 m ρ c, at8_v40 m ρ c]
  rfl

/-- and lays the factors out as a column again. -/
theorem at9_v53 (c : Dev nD) : W9 m ρ c (Proc.devRef .tc main_v53) = Cert.Gcn.disCol (edges m c) := by
  show StableHlo.after hostOps4 (W8 m ρ c) (Proc.devRef .tc main_v53) = _
  after_results
  rw [at8_v10 m ρ c]
  rfl

theorem at9_v40 (c : Dev nD) : W9 m ρ c (Proc.devRef .tc main_v40) = (latent m c) := by
  show StableHlo.after hostOps4 (W8 m ρ c) (Proc.devRef .tc main_v40) = _
  after_results
  exact at8_v40 m ρ c

/-- Region 4 leaves the third layer's scaled rows. -/
theorem at10_v54 (c : Dev nD) : W10 m ρ c (Proc.devRef .tc main_v54) = (rows3 m c) :=
  (W10_arr m ρ c 3).trans ((region4 (V9 m ρ) c).trans (by
    show Cert.Gcn.scaledProduct (W9 m ρ c (Proc.devRef .tc main_v40)) (W9 m ρ c (Proc.devRef .tc main_arg7)) (W9 m ρ c (Proc.devRef .tc main_v53)) = _
    rw [at9_v40 m ρ c, at9_arg7 m ρ c, at9_v53 m ρ c]
    try rfl))

theorem at11_v54 (c : Dev nD) : W11 m ρ c (Proc.devRef .tc main_v54) = (rows3 m c) := by
  show StableHlo.after hostOps5 (W10 m ρ c) (Proc.devRef .tc main_v54) = _
  after_results
  exact at10_v54 m ρ c

theorem at10_v53 (c : Dev nD) : W10 m ρ c (Proc.devRef .tc main_v53) = Cert.Gcn.disCol (edges m c) :=
  (W10_arr m ρ c 2).trans (((dat4 (V9 m ρ) c).arrAt_in 2 rfl _).trans ((A_eq4 (V9 m ρ) c 2).trans (at9_v53 m ρ c)))

theorem at11_v53 (c : Dev nD) : W11 m ρ c (Proc.devRef .tc main_v53) = Cert.Gcn.disCol (edges m c) := by
  show StableHlo.after hostOps5 (W10 m ρ c) (Proc.devRef .tc main_v53) = _
  after_results
  exact at10_v53 m ρ c

/-- The sixth stretch sums the neighbours' scaled rows into each node -/
theorem at11_v65 (c : Dev nD) : W11 m ρ c (Proc.devRef .tc main_v65) = Cert.Gcn.neighbourSum128 (edges m c) (rows3 m c) := by
  show StableHlo.after hostOps5 (W10 m ρ c) (Proc.devRef .tc main_v65) = _
  after_results_simp
  rw [at10_v1 m ρ c, at10_v3 m ρ c, at10_v54 m ρ c]
  rfl

/-- and lays the third bias out as a row. -/
theorem at11_v66 (c : Dev nD) : W11 m ρ c (Proc.devRef .tc main_v66) = shapeCast S1x128 (m ((c : Thread nD τ).loc main_arg8)) shapeCasts_S128_S1x128 := by
  show StableHlo.after hostOps5 (W10 m ρ c) (Proc.devRef .tc main_v66) = _
  after_results
  rw [at10_arg8 m ρ c]
  rfl

/-- Region 5 leaves the third layer's output. -/
theorem at12_v67 (c : Dev nD) : W12 m ρ c (Proc.devRef .tc main_v67) = (hidden2 m c) :=
  (W12_arr m ρ c 4).trans ((region5 (V11 m ρ) c).trans (by
    show Cert.Gcn.combineRelu (W11 m ρ c (Proc.devRef .tc main_v65)) (W11 m ρ c (Proc.devRef .tc main_v54)) (W11 m ρ c (Proc.devRef .tc main_v53)) (W11 m ρ c (Proc.devRef .tc main_v66)) = _
    rw [at11_v65 m ρ c, at11_v54 m ρ c, at11_v53 m ρ c, at11_v66 m ρ c]
    try rfl))

/-- The seventh stretch lays the factors out as a column again. -/
theorem at13_v68 (c : Dev nD) : W13 m ρ c (Proc.devRef .tc main_v68) = Cert.Gcn.disCol (edges m c) := by
  show StableHlo.after hostOps6 (W12 m ρ c) (Proc.devRef .tc main_v68) = _
  after_results
  rw [at12_v10 m ρ c]
  rfl

theorem at13_v67 (c : Dev nD) : W13 m ρ c (Proc.devRef .tc main_v67) = (hidden2 m c) := by
  show StableHlo.after hostOps6 (W12 m ρ c) (Proc.devRef .tc main_v67) = _
  after_results
  exact at12_v67 m ρ c

/-- Region 6 leaves the fourth layer's scaled rows. -/
theorem at14_v69 (c : Dev nD) : W14 m ρ c (Proc.devRef .tc main_v69) = (rows4 m c) :=
  (W14_arr m ρ c 3).trans ((region6 (V13 m ρ) c).trans (by
    show Cert.Gcn.scaledProduct (W13 m ρ c (Proc.devRef .tc main_v67)) (W13 m ρ c (Proc.devRef .tc main_arg9)) (W13 m ρ c (Proc.devRef .tc main_v68)) = _
    rw [at13_v67 m ρ c, at13_arg9 m ρ c, at13_v68 m ρ c]
    try rfl))

theorem at15_v69 (c : Dev nD) : W15 m ρ c (Proc.devRef .tc main_v69) = (rows4 m c) := by
  show StableHlo.after hostOps7 (W14 m ρ c) (Proc.devRef .tc main_v69) = _
  after_results
  exact at14_v69 m ρ c

theorem at14_v68 (c : Dev nD) : W14 m ρ c (Proc.devRef .tc main_v68) = Cert.Gcn.disCol (edges m c) :=
  (W14_arr m ρ c 2).trans (((dat6 (V13 m ρ) c).arrAt_in 2 rfl _).trans ((A_eq6 (V13 m ρ) c 2).trans (at13_v68 m ρ c)))

theorem at15_v68 (c : Dev nD) : W15 m ρ c (Proc.devRef .tc main_v68) = Cert.Gcn.disCol (edges m c) := by
  show StableHlo.after hostOps7 (W14 m ρ c) (Proc.devRef .tc main_v68) = _
  after_results
  exact at14_v68 m ρ c

/-- The eighth stretch sums the neighbours' scaled rows into each node -/
theorem at15_v80 (c : Dev nD) : W15 m ρ c (Proc.devRef .tc main_v80) = Cert.Gcn.neighbourSum128 (edges m c) (rows4 m c) := by
  show StableHlo.after hostOps7 (W14 m ρ c) (Proc.devRef .tc main_v80) = _
  after_results_simp
  rw [at14_v1 m ρ c, at14_v3 m ρ c, at14_v69 m ρ c]
  rfl

/-- and lays the fourth bias out as a row. -/
theorem at15_v81 (c : Dev nD) : W15 m ρ c (Proc.devRef .tc main_v81) = shapeCast S1x128 (m ((c : Thread nD τ).loc main_arg10)) shapeCasts_S128_S1x128 := by
  show StableHlo.after hostOps7 (W14 m ρ c) (Proc.devRef .tc main_v81) = _
  after_results
  rw [at14_arg10 m ρ c]
  rfl

/-- Region 7 leaves the fourth layer's output. -/
theorem at16_v82 (c : Dev nD) : W16 m ρ c (Proc.devRef .tc main_v82) = (output m c) :=
  (W16_arr m ρ c 4).trans ((region7 (V15 m ρ) c).trans (by
    show Cert.Gcn.combine (W15 m ρ c (Proc.devRef .tc main_v80)) (W15 m ρ c (Proc.devRef .tc main_v69)) (W15 m ρ c (Proc.devRef .tc main_v68)) (W15 m ρ c (Proc.devRef .tc main_v81)) = _
    rw [at15_v80 m ρ c, at15_v69 m ρ c, at15_v68 m ρ c, at15_v81 m ρ c]
    try rfl))

/-- Nothing after region 3 writes the latent features. -/
theorem at10_v40 (c : Dev nD) : W10 m ρ c (Proc.devRef .tc main_v40) = (latent m c) :=
  (W10_arr m ρ c 0).trans (((dat4 (V9 m ρ) c).arrAt_in 0 rfl _).trans ((A_eq4 (V9 m ρ) c 0).trans (at9_v40 m ρ c)))

theorem at11_v40 (c : Dev nD) : W11 m ρ c (Proc.devRef .tc main_v40) = (latent m c) := by
  show StableHlo.after hostOps5 (W10 m ρ c) (Proc.devRef .tc main_v40) = _
  after_results
  exact at10_v40 m ρ c

theorem at12_v40 (c : Dev nD) : W12 m ρ c (Proc.devRef .tc main_v40) = (latent m c) :=
  (W12_of_ne m ρ c main_v40 (by decide)).trans (at11_v40 m ρ c)

theorem at13_v40 (c : Dev nD) : W13 m ρ c (Proc.devRef .tc main_v40) = (latent m c) := by
  show StableHlo.after hostOps6 (W12 m ρ c) (Proc.devRef .tc main_v40) = _
  after_results
  exact at12_v40 m ρ c

theorem at14_v40 (c : Dev nD) : W14 m ρ c (Proc.devRef .tc main_v40) = (latent m c) :=
  (W14_of_ne m ρ c main_v40 (by decide)).trans (at13_v40 m ρ c)

theorem at15_v40 (c : Dev nD) : W15 m ρ c (Proc.devRef .tc main_v40) = (latent m c) := by
  show StableHlo.after hostOps7 (W14 m ρ c) (Proc.devRef .tc main_v40) = _
  after_results
  exact at14_v40 m ρ c

theorem at16_v40 (c : Dev nD) : W16 m ρ c (Proc.devRef .tc main_v40) = (latent m c) :=
  (W16_of_ne m ρ c main_v40 (by decide)).trans (at15_v40 m ρ c)

/-- Nothing after the fifth stretch writes the pooled features. -/
theorem at10_v52 (c : Dev nD) : W10 m ρ c (Proc.devRef .tc main_v52) = Cert.Gcn.pool (m ((c : Thread nD τ).loc main_arg2)) (latent m c) :=
  (W10_of_ne m ρ c main_v52 (by decide)).trans (at9_v52 m ρ c)

theorem at11_v52 (c : Dev nD) : W11 m ρ c (Proc.devRef .tc main_v52) = Cert.Gcn.pool (m ((c : Thread nD τ).loc main_arg2)) (latent m c) := by
  show StableHlo.after hostOps5 (W10 m ρ c) (Proc.devRef .tc main_v52) = _
  after_results
  exact at10_v52 m ρ c

theorem at12_v52 (c : Dev nD) : W12 m ρ c (Proc.devRef .tc main_v52) = Cert.Gcn.pool (m ((c : Thread nD τ).loc main_arg2)) (latent m c) :=
  (W12_of_ne m ρ c main_v52 (by decide)).trans (at11_v52 m ρ c)

theorem at13_v52 (c : Dev nD) : W13 m ρ c (Proc.devRef .tc main_v52) = Cert.Gcn.pool (m ((c : Thread nD τ).loc main_arg2)) (latent m c) := by
  show StableHlo.after hostOps6 (W12 m ρ c) (Proc.devRef .tc main_v52) = _
  after_results
  exact at12_v52 m ρ c

theorem at14_v52 (c : Dev nD) : W14 m ρ c (Proc.devRef .tc main_v52) = Cert.Gcn.pool (m ((c : Thread nD τ).loc main_arg2)) (latent m c) :=
  (W14_of_ne m ρ c main_v52 (by decide)).trans (at13_v52 m ρ c)

theorem at15_v52 (c : Dev nD) : W15 m ρ c (Proc.devRef .tc main_v52) = Cert.Gcn.pool (m ((c : Thread nD τ).loc main_arg2)) (latent m c) := by
  show StableHlo.after hostOps7 (W14 m ρ c) (Proc.devRef .tc main_v52) = _
  after_results
  exact at14_v52 m ρ c

theorem at16_v52 (c : Dev nD) : W16 m ρ c (Proc.devRef .tc main_v52) = Cert.Gcn.pool (m ((c : Thread nD τ).loc main_arg2)) (latent m c) :=
  (W16_of_ne m ρ c main_v52 (by decide)).trans (at15_v52 m ρ c)

/-! ## The last boundary -/

/-- The eighth region's result at the last boundary is the network's output. -/
theorem last_fold_output (c : Dev nD) : W16 m ρ c (Proc.devRef .tc main_v82) = Cert.Gcn.nodeX (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  at16_v82 m ρ c

/-- The fourth region's result at the last boundary is the latent features. -/
theorem last_fold_latent (c : Dev nD) : W16 m ρ c (Proc.devRef .tc main_v40) = Cert.Gcn.nodeZ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) :=
  at16_v40 m ρ c

/-- The fifth stretch's result at the last boundary is the latent features pooled over the graphs. -/
theorem last_fold_pooled (c : Dev nD) : W16 m ρ c (Proc.devRef .tc main_v52) = Cert.Gcn.pool (m ((c : Thread nD τ).loc main_arg2)) (Cert.Gcn.nodeZ (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6))) :=
  at16_v52 m ρ c

end Cert.KernelIdeal.ValueRun

end
-- ==== Proof.RefValue.lean ====
/-
  The reference program's three results are the network with messages scaled on the edges.

  The reference run's composed terms spell the four layers and the pooling operation by operation; naming the edge
  list's pieces, the node factors and one layer turns each into a short composition: the output is the fourth layer of
  the rectified third layer of the latent features, the latent features are the second layer of the rectified first, and
  the pooled result is the pooling of the latent features.
-/
import proofs.«162121_j80942953660708_2_alg».proof.Proof.Gen.ReferenceIdeal.Run
import proofs.«162121_j80942953660708_2_alg».proof.Proof.Layers

set_option maxRecDepth 16384

noncomputable section

namespace Cert.ReferenceIdeal.RefValue

open Cert.ReferenceIdeal Cert.ReferenceIdeal.Gen Cert.ReferenceIdeal.Value Cert.Gcn
open Idealize.ShloMosaic Idealize.ShloMosaic.TcCoe Idealize.SL.Sem

variable (m : (ℓ : Loc nD τ sig) → Buf (Elt Ideal) ℓ) (c : Dev nD)

/-- The decoder's output. -/
theorem out0_eq : res_out0 (F := Ideal) m c
    = edgeX (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg6))
        (m ((c.tc : Thread nD τ).loc main_arg7)) (m ((c.tc : Thread nD τ).loc main_arg8))
        (m ((c.tc : Thread nD τ).loc main_arg9)) (m ((c.tc : Thread nD τ).loc main_arg10)) := by
  unfold edgeX edgeH2 edgeZ edgeH1 edgeLayer128 edgeLayer64 relu128 srcCol dstCol asCol wrapNeg srcOf dstOf disOf degOf
  show res_main_v172 (F := Ideal) m c = _
  unfold res_main_v172
  rfl

/-- The latent features. -/
theorem out1_eq : res_out1 (F := Ideal) m c
    = edgeZ (m ((c.tc : Thread nD τ).loc main_arg0)) (m ((c.tc : Thread nD τ).loc main_arg1))
        (m ((c.tc : Thread nD τ).loc main_arg3)) (m ((c.tc : Thread nD τ).loc main_arg4))
        (m ((c.tc : Thread nD τ).loc main_arg5)) (m ((c.tc : Thread nD τ).loc main_arg6)) := by
  unfold edgeZ edgeH1 edgeLayer128 edgeLayer64 relu128 srcCol dstCol asCol wrapNeg srcOf dstOf disOf degOf
  show res_main_v85 (F := Ideal) m c = _
  unfold res_main_v85
  rfl

/-- The pooled latent features. -/
theorem out2_eq : res_out2 (F := Ideal) m c
    = Cert.Gcn.pool (m ((c.tc : Thread nD τ).loc main_arg2))
        (edgeZ (m ((c.tc : Thread nD τ).loc main_arg0)) (m ((c.tc : Thread nD τ).loc main_arg1))
          (m ((c.tc : Thread nD τ).loc main_arg3)) (m ((c.tc : Thread nD τ).loc main_arg4))
          (m ((c.tc : Thread nD τ).loc main_arg5)) (m ((c.tc : Thread nD τ).loc main_arg6))) := by
  unfold Cert.Gcn.pool edgeZ edgeH1 edgeLayer128 edgeLayer64 relu128 srcCol dstCol asCol wrapNeg srcOf dstOf disOf degOf
  show res_main_v97 (F := Ideal) m c = _
  unfold res_main_v97
  rfl

end Cert.ReferenceIdeal.RefValue

end
-- ==== Proof.LibLiterals.lean ====
/-
  The values of three f32 patterns on the extended reals: the batch size 32768, one, and the small positive number the
  normalisations add to a variance (only that it is a positive real matters).
-/
import Idealize.ShloMosaic.PureOps.Ideal.Laws

namespace Idealize.ShloMosaic.Ideal

theorem ofBits_f32_32768 : Ideal.ofBits .f32 0x47000000#32 = ((32768 : ℝ) : EReal) := by
  simp [Ideal.ofBits, Ideal.ieee, -EReal.coe_mul]; norm_num

theorem ofBits_f32_one : Ideal.ofBits .f32 0x3F800000#32 = ((1 : ℝ) : EReal) := by
  simp [Ideal.ofBits, Ideal.ieee, -EReal.coe_mul]; norm_num

theorem ofBits_f32_eps : ∃ e : ℝ, 0 < e ∧ Ideal.ofBits .f32 0x3727C5AC#32 = (e : EReal) := by
  refine ⟨_, ?_, by simp [Ideal.ofBits, Ideal.ieee, -EReal.coe_mul]; rfl⟩
  positivity

end Idealize.ShloMosaic.Ideal
-- ==== Proof.LibLayerLaw.lean ====
/-
  The law that joins the two arrangements of one graph-convolution layer, on the extended reals.

  For a node with factor c, neighbours j with feature entries a j and factors cs j, own entry hd and bias b,
  one arrangement scales every message by both factors before summing and adds the self-loop term hd · (c · c):
      ((0 + ∑ j, a j · (cs j · c)) + hd · (c · c)) + b,
  the other scales each row by its own factor first and by c only after the sum:
      c · ((0 + ∑ j, a j · cs j) + hd · c) + b.
  They agree whenever c is a nonnegative number other than +∞: such a factor distributes over every sum of
  extended reals, and products of extended reals commute and associate.
-/
import Mathlib.Data.EReal.Inv
import Mathlib.Algebra.BigOperators.Group.Finset.Basic

open scoped BigOperators

namespace Cert.Gcn

/-- A nonnegative factor other than +∞ distributes over a finite sum of extended reals. -/
theorem mul_sum_of_nonneg_of_ne_top {ι : Type*} (s : Finset ι) {c : EReal} (h0 : 0 ≤ c) (ht : c ≠ ⊤) (f : ι → EReal) :
    c * ∑ j ∈ s, f j = ∑ j ∈ s, c * f j := by
  classical
  induction s using Finset.induction_on with
  | empty => simp
  | insert a s ha ih =>
    rw [Finset.sum_insert ha, Finset.sum_insert ha, EReal.left_distrib_of_nonneg_of_ne_top h0 ht, ih]

/-- The two arrangements of one entry of a layer agree. -/
theorem layer_law {ι : Type*} (s : Finset ι) {c : EReal} (h0 : 0 ≤ c) (ht : c ≠ ⊤) (a cs : ι → EReal) (hd b : EReal) :
    c * ((0 + ∑ j ∈ s, a j * cs j) + hd * c) + b = ((0 + ∑ j ∈ s, a j * (cs j * c)) + hd * (c * c)) + b := by
  rw [zero_add, zero_add, EReal.left_distrib_of_nonneg_of_ne_top h0 ht, mul_sum_of_nonneg_of_ne_top s h0 ht]
  congr 2
  · refine Finset.sum_congr rfl fun j _ => ?_
    rw [mul_left_comm, mul_comm c (cs j)]
  · rw [mul_left_comm]

end Cert.Gcn
-- ==== Proof.LibEdgeRows.lean ====
/-
  Row scatters, row gathers and vector gathers along an index column, read at one index, for every size; raising negative
  indices by a count; index columns.

  An [E, 1] column of signed machine words, of any value, gives each of E items a row number.
  Scattering the rows of an [E, N] array of updates into an [M, N] array along the column sends entry (e, c) of the
  updates to entry (n, c) of the result exactly when the signed value n of item e's word satisfies 0 ≤ n < M; an item
  whose word is negative or at least M lands nowhere (it is dropped, not clamped).
  Gathering the rows of an [M, N] array along the column reads, at (e, c), the operand's entry (min n⁺ (M − 1), c), where
  n⁺ is the signed value of item e's word with negatives raised to 0: here the row IS clamped into the operand.
  The same for a flat [M] operand, whose gather along the column is the [E] array of its entries at the clamped rows.
  All of this is proved for every M, E, N from the dimension lists alone.

  Two smaller facts about the indices themselves. Passing words through "v if 0 ≤ v, else v + K" leaves a non-negative
  word as it is and turns a negative one into v + K. And an [E] array placed along axis 0 of an [E, 1] column has, at
  (e, 0), the array's entry e.
-/
import Idealize.ShloMosaic.Lib.ValueIdx
import proofs.«162121_j80942953660708_2_alg».proof.Proof.LibRowForms

namespace Cert.Gcn.EdgeRows

open Idealize.ShloMosaic Idealize.ShloMosaic.ValueIdx Idealize.ShloMosaic.PlainDot

/-! ## Two facts about axis lists -/

/-- The kept axes of a shape are the ones the list does not name. -/
theorem mem_kept {s : Shape} (axes : List (Fin s.rank)) (a : Fin s.rank) : a ∈ s.kept axes ↔ a ∉ axes := by
  simp [Shape.kept, List.mem_filter, List.mem_finRange]

/-- Of two axes, the second is not the first. -/
theorem fin2_one_ne_zero : ¬ ((1 : Fin 2) = 0) := by decide

/-- Row e of the index column, for a flat index e: the index (e, 0). -/
abbrev edgeAt {E : Nat} (j : (⟨1, ![E]⟩ : Shape).Idx) : (⟨2, ![E, 1]⟩ : Shape).Idx :=
  fun a => match a with
  | ⟨0, _⟩ => ⟨(j 0).val, (j 0).isLt⟩
  | ⟨1, _⟩ => ⟨0, Nat.one_pos⟩

/-! ## Scattering rows: updates [E, N] into an operand [M, N] along an [E, 1] column -/

/-- The dimension lists of a row scatter: the updates' axis 1 is the window axis and goes to the operand's axis 1; the
    operand's axis 0 is the inserted one, the one the column's single component addresses. -/
abbrev rowScatter (M E N : ℕ) (wf : ScatterDims.WF ⟨2, ![M, N]⟩ ⟨2, ![E, 1]⟩ ⟨2, ![E, N]⟩ [1] [0] [0] 1) :
    ScatterDims ⟨2, ![M, N]⟩ ⟨2, ![E, 1]⟩ ⟨2, ![E, N]⟩ where
  updateWindowDims := [1]
  insertedWindowDims := [0]
  scatterDimsToOperandDims := [0]
  indexVectorDim := 1
  wf := wf

section Scatter
variable {M E N w : ℕ} (wf : ScatterDims.WF ⟨2, ![M, N]⟩ ⟨2, ![E, 1]⟩ ⟨2, ![E, N]⟩ [1] [0] [0] 1)
  (idx : IVec ⟨2, ![E, 1]⟩ w) (j : (⟨2, ![E, N]⟩ : Shape).Idx)

/-- Update index (e, c) reads its one start component at (e, 0) of the column. -/
theorem rowScatter_siIdx (c : Fin (rowScatter M E N wf).scatterDimsToOperandDims.length) :
    (rowScatter M E N wf).siIdx j c = colAt j := by
  funext b; refine Fin.ext ?_
  match b with
  | ⟨0, _⟩ => rfl
  | ⟨1, _⟩ =>
    have : c.val < 1 := c.isLt
    show c.val = 0
    omega

/-- On the operand's axis 0 the window starts at the signed value of the edge's word. -/
theorem rowScatter_start0 : (rowScatter M E N wf).start j idx 0 = (idx (colAt j)).toInt := by
  unfold ScatterDims.start
  rw [dif_pos (show (0 : Fin 2) ∈ (rowScatter M E N wf).scatterDimsToOperandDims from List.mem_singleton.mpr rfl),
    rowScatter_siIdx]

/-- On axis 1, which the column does not address, it starts at 0. -/
theorem rowScatter_start1 : (rowScatter M E N wf).start j idx 1 = 0 := by
  unfold ScatterDims.start
  rw [dif_neg (show (1 : Fin 2) ∉ (rowScatter M E N wf).scatterDimsToOperandDims from
    fun h => fin2_one_ne_zero (List.mem_singleton.mp h))]

/-- The inserted axis 0 has window coordinate 0. -/
theorem rowScatter_window0 : (rowScatter M E N wf).window j 0 = 0 := by
  unfold ScatterDims.window
  rw [dif_neg (show (0 : Fin 2) ∉ (rowScatter M E N wf).sKept from
    fun h => (mem_kept _ _).mp h (List.mem_singleton.mpr rfl))]

/-- Axis 1 has the update's own column as window coordinate. -/
theorem rowScatter_window1 : (rowScatter M E N wf).window j 1 = (j 1).val := by
  unfold ScatterDims.window
  rw [dif_pos (show (1 : Fin 2) ∈ (rowScatter M E N wf).sKept from
    (mem_kept _ _).mpr fun h => fin2_one_ne_zero (List.mem_singleton.mp h))]
  rfl

/-- WHERE AN UPDATE LANDS: update (e, c) lands at operand index i exactly when the signed value of edge e's word is i's
    row (so it is in [0, M)) and c is i's column. -/
theorem rowScatter_resultIdx_iff (i : (⟨2, ![M, N]⟩ : Shape).Idx) :
    (rowScatter M E N wf).resultIdx? j idx = some i ↔
      (idx (colAt j)).toInt = ((i 0).val : Int) ∧ (j 1).val = (i 1).val := by
  unfold ScatterDims.resultIdx?
  constructor
  · intro h
    split at h
    · rename_i hin
      have hi := Option.some.inj h
      have h0 : (i 0).val = ((rowScatter M E N wf).start j idx 0 + ((rowScatter M E N wf).window j 0 : Int)).toNat := by
        rw [← hi]
      have h1 : (i 1).val = ((rowScatter M E N wf).start j idx 1 + ((rowScatter M E N wf).window j 1 : Int)).toNat := by
        rw [← hi]
      have g0 := (hin 0).1
      rw [rowScatter_start0, rowScatter_window0] at h0 g0
      rw [rowScatter_start1, rowScatter_window1] at h1
      constructor <;> omega
    · exact absurd h (by simp)
  · rintro ⟨h0, h1⟩
    have hi0 : (i 0).val < M := idx2_lt0 i
    have hi1 : (i 1).val < N := idx2_lt1 i
    have hin : ∀ a, 0 ≤ (rowScatter M E N wf).start j idx a + ((rowScatter M E N wf).window j a : Int) ∧
        (rowScatter M E N wf).start j idx a + ((rowScatter M E N wf).window j a : Int) < ((⟨2, ![M, N]⟩ : Shape).size a : Int) := by
      intro a
      match a with
      | ⟨0, _⟩ =>
        show 0 ≤ (rowScatter M E N wf).start j idx 0 + ((rowScatter M E N wf).window j 0 : Int) ∧
          (rowScatter M E N wf).start j idx 0 + ((rowScatter M E N wf).window j 0 : Int) < (M : Int)
        rw [rowScatter_start0, rowScatter_window0]; omega
      | ⟨1, _⟩ =>
        show 0 ≤ (rowScatter M E N wf).start j idx 1 + ((rowScatter M E N wf).window j 1 : Int) ∧
          (rowScatter M E N wf).start j idx 1 + ((rowScatter M E N wf).window j 1 : Int) < (N : Int)
        rw [rowScatter_start1, rowScatter_window1]; omega
    rw [dif_pos hin]
    congr 1
    funext a; refine Fin.ext ?_
    match a with
    | ⟨0, _⟩ =>
      show ((rowScatter M E N wf).start j idx 0 + ((rowScatter M E N wf).window j 0 : Int)).toNat = (i 0).val
      rw [rowScatter_start0, rowScatter_window0]; omega
    | ⟨1, _⟩ =>
      show ((rowScatter M E N wf).start j idx 1 + ((rowScatter M E N wf).window j 1 : Int)).toNat = (i 1).val
      rw [rowScatter_start1, rowScatter_window1]; omega

end Scatter

/-! ## Gathering rows: an operand [M, N] read along an [E, 1] column into [E, N] -/

/-- The dimension lists of a row gather: the operand's axis 0 is collapsed and addressed by the column's single
    component, a slice is one whole row, and the result's axis 1 runs along it. -/
abbrev rowGather (M E N : ℕ) (wf : GatherDims.WF ⟨2, ![M, N]⟩ ⟨2, ![E, 1]⟩ ⟨2, ![E, N]⟩ [1] [0] [] [0] [] 1 ![1, N]) :
    GatherDims ⟨2, ![M, N]⟩ ⟨2, ![E, 1]⟩ ⟨2, ![E, N]⟩ where
  offsetDims := [1]
  collapsedSliceDims := [0]
  operandBatchingDims := []
  startIndicesBatchingDims := []
  startIndexMap := [0]
  indexVectorDim := 1
  sliceSizes := ![1, N]
  wf := wf

section Gather
variable {α : Type} {M E N w : ℕ}
  (wf : GatherDims.WF ⟨2, ![M, N]⟩ ⟨2, ![E, 1]⟩ ⟨2, ![E, N]⟩ [1] [0] [] [0] [] 1 ![1, N])
  (idx : IVec ⟨2, ![E, 1]⟩ w) (j : (⟨2, ![E, N]⟩ : Shape).Idx)

/-- Result index (e, c) reads its one start component at (e, 0) of the column. -/
theorem rowGather_siIdx (c : Fin (rowGather M E N wf).startIndexMap.length) :
    (rowGather M E N wf).siIdx j c = colAt j := by
  funext b; refine Fin.ext ?_
  match b with
  | ⟨0, _⟩ => rfl
  | ⟨1, _⟩ =>
    have : c.val < 1 := c.isLt
    show c.val = 0
    omega

/-- The operand row read: the signed value of the edge's word, clamped into [0, M − 1]. -/
theorem rowGather_operandIdx0 :
    ((rowGather M E N wf).operandIdx j idx 0).val = min (idx (colAt j)).toInt.toNat (M - 1) := by
  show (rowGather M E N wf).start j idx 0 + (rowGather M E N wf).batchCoord j 0 + (rowGather M E N wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 2) ∈ (rowGather M E N wf).startIndexMap from List.mem_singleton.mpr rfl), rowGather_siIdx]
  rfl

/-- The operand column read: the result's own column. -/
theorem rowGather_operandIdx1 : ((rowGather M E N wf).operandIdx j idx 1).val = (j 1).val := by
  show (rowGather M E N wf).start j idx 1 + (rowGather M E N wf).batchCoord j 1 + (rowGather M E N wf).offCoord j 1 = _
  rw [GatherDims.batchCoord_eq_zero _ _ _ List.not_mem_nil]
  unfold GatherDims.start
  rw [dif_neg (show (1 : Fin 2) ∉ (rowGather M E N wf).startIndexMap from
    fun h => fin2_one_ne_zero (List.mem_singleton.mp h))]
  unfold GatherDims.offCoord
  rw [dif_pos (show (1 : Fin 2) ∈ (rowGather M E N wf).sKept from
    (GatherDims.mem_sKept _ _).mpr ⟨fun h => fin2_one_ne_zero (List.mem_singleton.mp h), List.not_mem_nil⟩)]
  simp only [Nat.zero_add]
  rfl

/-- THE ROW GATHER READ AT (e, c): the operand at row min n⁺ (M − 1), column c, n⁺ the signed value of edge e's word
    with negatives raised to 0. -/
theorem rowGather_apply (hM : 0 < M) (x : (⟨2, ![M, N]⟩ : Shape).Idx → α) :
    Host.gather (rowGather M E N wf) x idx j
      = x (ix2 ⟨min (idx (colAt j)).toInt.toNat (M - 1), by omega⟩ ⟨(j 1).val, idx2_lt1 j⟩) := by
  unfold Host.gather
  congr 1
  funext a; refine Fin.ext ?_
  match a with
  | ⟨0, _⟩ => exact rowGather_operandIdx0 wf idx j
  | ⟨1, _⟩ => exact rowGather_operandIdx1 wf idx j

end Gather

/-! ## Gathering entries: a flat operand [M] read along an [E, 1] column into [E] -/

/-- The dimension lists of that gather: the operand's one axis is collapsed and addressed by the column's single
    component, a slice is one entry, and the result has no offset axis. -/
abbrev vecGather (M E : ℕ) (wf : GatherDims.WF ⟨1, ![M]⟩ ⟨2, ![E, 1]⟩ ⟨1, ![E]⟩ [] [0] [] [0] [] 1 ![1]) :
    GatherDims ⟨1, ![M]⟩ ⟨2, ![E, 1]⟩ ⟨1, ![E]⟩ where
  offsetDims := []
  collapsedSliceDims := [0]
  operandBatchingDims := []
  startIndicesBatchingDims := []
  startIndexMap := [0]
  indexVectorDim := 1
  sliceSizes := ![1]
  wf := wf

section VecGather
variable {α : Type} {M E w : ℕ} (wf : GatherDims.WF ⟨1, ![M]⟩ ⟨2, ![E, 1]⟩ ⟨1, ![E]⟩ [] [0] [] [0] [] 1 ![1])
  (idx : IVec ⟨2, ![E, 1]⟩ w) (j : (⟨1, ![E]⟩ : Shape).Idx)

/-- Result index e reads its one start component at (e, 0) of the column. -/
theorem vecGather_siIdx (c : Fin (vecGather M E wf).startIndexMap.length) :
    (vecGather M E wf).siIdx j c = edgeAt j := by
  funext b; refine Fin.ext ?_
  match b with
  | ⟨0, _⟩ => rfl
  | ⟨1, _⟩ =>
    have : c.val < 1 := c.isLt
    show c.val = 0
    omega

/-- THE FLAT GATHER READ AT e: the operand at min n⁺ (M − 1), n⁺ the signed value of edge e's word with negatives
    raised to 0. -/
theorem vecGather_apply (hM : 0 < M) (x : (⟨1, ![M]⟩ : Shape).Idx → α) :
    Host.gather (vecGather M E wf) x idx j = x (ix1 ⟨min (idx (edgeAt j)).toInt.toNat (M - 1), by omega⟩) := by
  unfold Host.gather
  congr 1
  funext a
  obtain rfl : a = 0 := Subsingleton.elim _ _
  refine Fin.ext ?_
  show (vecGather M E wf).start j idx 0 + (vecGather M E wf).batchCoord j 0 + (vecGather M E wf).offCoord j 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecGather M E wf).startIndexMap from List.mem_singleton.mpr rfl), vecGather_siIdx]
  rfl

end VecGather

/-! ## Raising negative node numbers by the node count, and the index column of a flat index array

  Before a gather the node numbers v pass through  "v if 0 ≤ v, else v + K"  (K the node count), entry by entry; a word
  that is already non-negative is left as it is. The result, an [E] array, is then placed along axis 0 of an [E, 1]
  column: the column's entry (e, 0) is the array's entry e. -/

section Wrap
variable {s : Shape} (h : (⟨0, ![]⟩ : Shape).BroadcastsInDim s (![] : Fin 0 → Fin s.rank)) (K : BitVec 32)
  (v : IVec s 32) (e : s.Idx)

/-- A word whose signed value is non-negative is not less than zero, so the selection keeps it. -/
theorem wrap_of_nonneg (hv : 0 ≤ (v e).toInt) :
    select (cmpi .slt v (broadcastInDim s ![] h (constantI ⟨0, ![]⟩ 32 0#32)))
      (addi v (broadcastInDim s ![] h (constantI ⟨0, ![]⟩ 32 K))) v e = v e := by
  have hlt : (v e).slt 0#32 = false := by
    simp only [BitVec.slt, BitVec.toInt_zero, decide_eq_false_iff_not, not_lt]
    exact hv
  have hc : IntOp.cmpi .slt (v e) 0#32 = 0#1 := by
    show BitVec.ofBool ((v e).slt 0#32) = 0#1
    rw [hlt]; rfl
  show Scalar.select (IntOp.cmpi .slt (v e) 0#32) (IntOp.addi (v e) K) (v e) = v e
  rw [hc]; exact select_zero _ _

/-- A word whose signed value is negative is less than zero, so the selection takes the sum. -/
theorem wrap_of_neg (hv : (v e).toInt < 0) :
    select (cmpi .slt v (broadcastInDim s ![] h (constantI ⟨0, ![]⟩ 32 0#32)))
      (addi v (broadcastInDim s ![] h (constantI ⟨0, ![]⟩ 32 K))) v e = v e + K := by
  have hlt : (v e).slt 0#32 = true := by
    simp only [BitVec.slt, BitVec.toInt_zero, decide_eq_true_eq]
    exact hv
  have hc : IntOp.cmpi .slt (v e) 0#32 = 1#1 := by
    show BitVec.ofBool ((v e).slt 0#32) = 1#1
    rw [hlt]; rfl
  show Scalar.select (IntOp.cmpi .slt (v e) 0#32) (IntOp.addi (v e) K) (v e) = v e + K
  rw [hc]; exact select_one _ _

end Wrap

section Column
variable {α : Type} {E : ℕ} (h : (⟨1, ![E]⟩ : Shape).BroadcastsInDim ⟨2, ![E, 1]⟩ ![0])
  (v : (⟨1, ![E]⟩ : Shape).Idx → α)

/-- The column at (e, 0), e the row of a rank-2 index j, is the array's entry e. -/
theorem column_colAt {N : ℕ} (j : (⟨2, ![E, N]⟩ : Shape).Idx) :
    broadcastInDim ⟨2, ![E, 1]⟩ ![0] h v (colAt j) = v (ix1 ⟨(j 0).val, idx2_lt0 j⟩) :=
  broadcastInDim_keepdims_apply h v (colAt j)

/-- The column at (e, 0), e a flat index, is the array's entry e. -/
theorem column_edgeAt (j : (⟨1, ![E]⟩ : Shape).Idx) :
    broadcastInDim ⟨2, ![E, 1]⟩ ![0] h v (edgeAt j) = v j :=
  (broadcastInDim_keepdims_apply h v (edgeAt j)).trans (congrArg v (eq_ix1 j).symm)

end Column

end Cert.Gcn.EdgeRows
-- ==== Proof.GenericLayer.lean ====
/-
  One graph-convolution layer in its two arrangements, for every number of nodes M, of edges E and of columns N.

  With H the node features times the weights, c the node factors (each nonnegative and not +∞), and edges e : s → d
  whose rows are gathered at the sources and scattered to the targets, entry (d, q) of the layer is
      (∑ over e into d of H (s, q) · (c s · c d)) + H (d, q) · (c d · c d) + b q
  when the messages are scaled on the edges, and
      c d · ((∑ over e into d of P (s, q)) + P (d, q)) + b q,   P (r, q) = H (r, q) · c r,
  when the rows are scaled on the nodes. An edge lands on node d exactly when its target word, read signed, is d; such a
  word is non-negative, so wrapping negative indices leaves it alone and the factor gathered at the edge's target is c d.
  The two entries are then the two sides of the law of LayerLaw.lean.

  Everything here is stated for symbolic sizes, so that no sum over a concrete index type is ever unfolded.
-/
import Idealize.ShloMosaic.Lib.ValueIdx
import Idealize.ShloMosaic.Lib.Pipeline.Value
import Idealize.ShloMosaic.PureOps.Ideal.Laws
import proofs.«162121_j80942953660708_2_alg».proof.Proof.Spec
import proofs.«162121_j80942953660708_2_alg».proof.Proof.LibRowForms
import proofs.«162121_j80942953660708_2_alg».proof.Proof.LibLiterals
import proofs.«162121_j80942953660708_2_alg».proof.Proof.LibLayerLaw
import proofs.«162121_j80942953660708_2_alg».proof.Proof.LibEdgeRows

noncomputable section

open scoped BigOperators

namespace Cert.Gcn.Generic

open Idealize.ShloMosaic Idealize.ShloMosaic.ValueIdx Idealize.ShloMosaic.PlainDot Cert.Gcn Cert.Gcn.EdgeRows

/-- The accumulating scatter on the extended reals, at an index: the operand's entry plus the updates that land there. -/
theorem scatterAdd_apply {s si su : Shape} {w : ℕ} (d : ScatterDims s si su) (x : FVec Ideal s .f32) (idx : IVec si w)
    (upd : FVec Ideal su .f32) (i : s.Idx) :
    Host.scatterAdd d x idx upd i = x i + ∑ j ∈ Finset.univ.filter (fun j => d.resultIdx? j idx = some i), upd j := rfl

/-- A scalar constant spread over a shape reads the constant everywhere. -/
theorem splat_apply {t : Shape} (h : (⟨0, ![]⟩ : Shape).BroadcastsInDim t (![] : Fin 0 → Fin t.rank)) (bits : BitVec 32) (i : t.Idx) :
    broadcastInDim t ![] h (constant (F := Ideal) ⟨0, ![]⟩ .f32 bits) i = Ideal.ofBits .f32 bits := rfl

/-- The flat index e as the column index (e, 0), when e is the row of a rank-2 index. -/
theorem edgeAt_row {E N : ℕ} (j : (⟨2, ![E, N]⟩ : Shape).Idx) : edgeAt (ix1 ⟨(j 0).val, idx2_lt0 j⟩) = colAt j :=
  funext fun a => Fin.ext (by match a with | ⟨0, _⟩ => rfl | ⟨1, _⟩ => rfl)

section Degree

variable {s si su : Shape} {w : ℕ}

/-- One for every element of a finite set, plus one, from zero: a real number, at least one. -/
theorem count_plus_one {ι : Type} (S : Finset ι) :
    ∃ r : ℝ, 1 ≤ r ∧ (Ideal.ofBits .f32 0x00000000#32 + ∑ _j ∈ S, Ideal.ofBits .f32 0x3F800000#32) + Ideal.ofBits .f32 0x3F800000#32 = (r : EReal) := by
  refine ⟨(S.card : ℝ) + 1, ?_, ?_⟩
  · have : (0 : ℝ) ≤ (S.card : ℝ) := Nat.cast_nonneg _
    linarith
  · rw [Ideal.ofBits_zero_f32, Ideal.ofBits_f32_one, zero_add, Finset.sum_const, ← EReal.coe_nsmul, nsmul_eq_mul, mul_one, ← EReal.coe_add]

/-- The reciprocal square root of a real number ≥ 1 is a nonnegative extended real other than +∞. -/
theorem rsqrt_of_one_le {r : ℝ} (hr : 1 ≤ r) : 0 ≤ Ideal.rsqrt (r : EReal) ∧ Ideal.rsqrt (r : EReal) ≠ ⊤ := by
  have h0 : ¬ r < 0 := by linarith
  have h1 : r ≠ 0 := by linarith
  have e : Ideal.rsqrt (r : EReal) = (((Real.sqrt r)⁻¹ : ℝ) : EReal) := by
    rw [Ideal.rsqrt_coe, if_neg h0, if_neg h1]
  rw [e]
  exact ⟨EReal.coe_nonneg.mpr (inv_nonneg.mpr (Real.sqrt_nonneg r)), EReal.coe_ne_top _⟩

/-- Scattering a one per edge into zeros and adding one gives, at every index, a real number ≥ 1; its reciprocal square
    root is a nonnegative extended real other than +∞. -/
theorem factor_nonneg_ne_top (d : ScatterDims s si su) (zeros ones : FVec Ideal s .f32) (idx : IVec si w) (upd : FVec Ideal su .f32)
    (hz : ∀ i, zeros i = Ideal.ofBits .f32 0x00000000#32) (hu : ∀ j, upd j = Ideal.ofBits .f32 0x3F800000#32)
    (ho : ∀ i, ones i = Ideal.ofBits .f32 0x3F800000#32) (v : s.Idx) :
    0 ≤ Host.rsqrt (addf (Host.scatterAdd d zeros idx upd) ones) v ∧ Host.rsqrt (addf (Host.scatterAdd d zeros idx upd) ones) v ≠ ⊤ := by
  have e : addf (Host.scatterAdd d zeros idx upd) ones v
      = (Ideal.ofBits .f32 0x00000000#32 + ∑ _j ∈ Finset.univ.filter (fun j => d.resultIdx? j idx = some v), Ideal.ofBits .f32 0x3F800000#32)
        + Ideal.ofBits .f32 0x3F800000#32 := by
    rw [addf_apply, scatterAdd_apply, hz, ho, Finset.sum_congr rfl (fun j _ => hu j)]
  obtain ⟨r, hr, er⟩ := count_plus_one (Finset.univ.filter (fun j => d.resultIdx? j idx = some v))
  show 0 ≤ Ideal.rsqrt (addf (Host.scatterAdd d zeros idx upd) ones v) ∧ Ideal.rsqrt (addf (Host.scatterAdd d zeros idx upd) ones v) ≠ ⊤
  rw [e, er]
  exact rsqrt_of_one_le hr

end Degree

section Layer

variable {M E N : ℕ}

/-- The two arrangements of a layer agree, entry by entry. -/
theorem node_eq_edge (hM : 0 < M)
    (wfS : ScatterDims.WF ⟨2, ![M, N]⟩ ⟨2, ![E, 1]⟩ ⟨2, ![E, N]⟩ [1] [0] [0] 1)
    (wfG : GatherDims.WF ⟨2, ![M, N]⟩ ⟨2, ![E, 1]⟩ ⟨2, ![E, N]⟩ [1] [0] [] [0] [] 1 ![1, N])
    (wfV : GatherDims.WF ⟨1, ![M]⟩ ⟨2, ![E, 1]⟩ ⟨1, ![E]⟩ [] [0] [] [0] [] 1 ![1])
    (hz : (⟨0, ![]⟩ : Shape).BroadcastsInDim ⟨2, ![M, N]⟩ (![] : Fin 0 → Fin 2))
    (hcol : (⟨1, ![E]⟩ : Shape).BroadcastsInDim ⟨2, ![E, 1]⟩ ![0])
    (hEN : (⟨2, ![E, 1]⟩ : Shape).BroadcastsInDim ⟨2, ![E, N]⟩ ![0, 1])
    (hM1 : (⟨1, ![M]⟩ : Shape).BroadcastsInDim ⟨2, ![M, 1]⟩ ![0])
    (hMN : (⟨2, ![M, 1]⟩ : Shape).BroadcastsInDim ⟨2, ![M, N]⟩ ![0, 1])
    (hrow : (⟨1, ![N]⟩ : Shape).BroadcastsInDim ⟨2, ![1, N]⟩ ![1])
    (h1N : (⟨2, ![1, N]⟩ : Shape).BroadcastsInDim ⟨2, ![M, N]⟩ ![0, 1])
    (hcast : (⟨1, ![M]⟩ : Shape).ShapeCasts ⟨2, ![M, 1]⟩) (hcastb : (⟨1, ![N]⟩ : Shape).ShapeCasts ⟨2, ![1, N]⟩)
    (hlt : FTy.bf16.bits < FTy.f32.bits)
    (dis : FVec Ideal ⟨1, ![M]⟩ .f32) (hdis : ∀ v, 0 ≤ dis v ∧ dis v ≠ ⊤)
    (srcW dst dstW : IVec ⟨1, ![E]⟩ 32) (hwrap : ∀ e, 0 ≤ (dst e).toInt → dstW e = dst e)
    (h : FVec Ideal ⟨2, ![M, N]⟩ .f32) (b : FVec Ideal ⟨1, ![N]⟩ .f32) :
    combine
      (Host.scatterAdd (F := Ideal) (rowScatter M E N wfS) (broadcastInDim ⟨2, ![M, N]⟩ ![] hz (constant (F := Ideal) ⟨0, ![]⟩ .f32 0x00000000#32))
        (broadcastInDim ⟨2, ![E, 1]⟩ ![0] hcol dst)
        (extf (F := Ideal) (φ := .bf16) .f32 (Host.gather (rowGather M E N wfG) (fun i => h i * shapeCast ⟨2, ![M, 1]⟩ dis hcast (colAt i))
          (broadcastInDim ⟨2, ![E, 1]⟩ ![0] hcol srcW)) hlt))
      (fun i => h i * shapeCast ⟨2, ![M, 1]⟩ dis hcast (colAt i)) (shapeCast ⟨2, ![M, 1]⟩ dis hcast) (shapeCast ⟨2, ![1, N]⟩ b hcastb)
    = addf (addf
        (Host.scatterAdd (F := Ideal) (rowScatter M E N wfS) (broadcastInDim ⟨2, ![M, N]⟩ ![] hz (constant (F := Ideal) ⟨0, ![]⟩ .f32 0x00000000#32))
          (broadcastInDim ⟨2, ![E, 1]⟩ ![0] hcol dst)
          (mulf (Host.gather (rowGather M E N wfG) h (broadcastInDim ⟨2, ![E, 1]⟩ ![0] hcol srcW))
            (broadcastInDim ⟨2, ![E, N]⟩ ![0, 1] hEN (broadcastInDim ⟨2, ![E, 1]⟩ ![0] hcol
              (mulf (Host.gather (vecGather M E wfV) dis (broadcastInDim ⟨2, ![E, 1]⟩ ![0] hcol srcW))
                    (Host.gather (vecGather M E wfV) dis (broadcastInDim ⟨2, ![E, 1]⟩ ![0] hcol dstW)))))))
        (mulf h (broadcastInDim ⟨2, ![M, N]⟩ ![0, 1] hMN (broadcastInDim ⟨2, ![M, 1]⟩ ![0] hM1 (mulf dis dis)))))
      (broadcastInDim ⟨2, ![M, N]⟩ ![0, 1] h1N (broadcastInDim ⟨2, ![1, N]⟩ ![1] hrow b)) := by
  funext i
  obtain ⟨c0, cT⟩ := hdis (ix1 ⟨(i 0).val, idx2_lt0 i⟩)
  -- the factor column read at a row
  have hcolAt : ∀ (r : (⟨2, ![M, N]⟩ : Shape).Idx), shapeCast ⟨2, ![M, 1]⟩ dis hcast (colAt r) = dis (ix1 ⟨(r 0).val, idx2_lt0 r⟩) :=
    fun r => shapeCast_keepdims_apply dis hcast (colAt r)
  -- the row an edge's source word selects
  let srow : (⟨2, ![E, N]⟩ : Shape).Idx → Fin M := fun j =>
    ⟨min (broadcastInDim ⟨2, ![E, 1]⟩ ![0] hcol srcW (colAt j)).toInt.toNat (M - 1), by omega⟩
  -- left: the scaled rows summed, each P (s, q) = H (s, q) · c s
  have hA : Host.scatterAdd (F := Ideal) (rowScatter M E N wfS) (broadcastInDim ⟨2, ![M, N]⟩ ![] hz (constant (F := Ideal) ⟨0, ![]⟩ .f32 0x00000000#32))
        (broadcastInDim ⟨2, ![E, 1]⟩ ![0] hcol dst)
        (extf (F := Ideal) (φ := .bf16) .f32 (Host.gather (rowGather M E N wfG) (fun i => h i * shapeCast ⟨2, ![M, 1]⟩ dis hcast (colAt i))
          (broadcastInDim ⟨2, ![E, 1]⟩ ![0] hcol srcW)) hlt) i
      = 0 + ∑ j ∈ Finset.univ.filter (fun j => (rowScatter M E N wfS).resultIdx? j (broadcastInDim ⟨2, ![E, 1]⟩ ![0] hcol dst) = some i),
          h (ix2 (srow j) ⟨(j 1).val, idx2_lt1 j⟩) * dis (ix1 (srow j)) := by
    rw [scatterAdd_apply, splat_apply, Ideal.ofBits_zero_f32]
    refine congrArg _ (Finset.sum_congr rfl fun j _ => ?_)
    rw [extf_apply, rowGather_apply wfG _ j hM]
    show h _ * shapeCast ⟨2, ![M, 1]⟩ dis hcast (colAt (ix2 (srow j) ⟨(j 1).val, idx2_lt1 j⟩)) = _
    rw [hcolAt]
    rfl
  -- right: the messages, each H (s, q) · (c s · c (target row))
  let drow : (⟨2, ![E, N]⟩ : Shape).Idx → Fin M := fun j =>
    ⟨min (broadcastInDim ⟨2, ![E, 1]⟩ ![0] hcol dstW (colAt j)).toInt.toNat (M - 1), by omega⟩
  have hB : Host.scatterAdd (F := Ideal) (rowScatter M E N wfS) (broadcastInDim ⟨2, ![M, N]⟩ ![] hz (constant (F := Ideal) ⟨0, ![]⟩ .f32 0x00000000#32))
        (broadcastInDim ⟨2, ![E, 1]⟩ ![0] hcol dst)
        (mulf (Host.gather (rowGather M E N wfG) h (broadcastInDim ⟨2, ![E, 1]⟩ ![0] hcol srcW))
          (broadcastInDim ⟨2, ![E, N]⟩ ![0, 1] hEN (broadcastInDim ⟨2, ![E, 1]⟩ ![0] hcol
            (mulf (Host.gather (vecGather M E wfV) dis (broadcastInDim ⟨2, ![E, 1]⟩ ![0] hcol srcW))
                  (Host.gather (vecGather M E wfV) dis (broadcastInDim ⟨2, ![E, 1]⟩ ![0] hcol dstW)))))) i
      = 0 + ∑ j ∈ Finset.univ.filter (fun j => (rowScatter M E N wfS).resultIdx? j (broadcastInDim ⟨2, ![E, 1]⟩ ![0] hcol dst) = some i),
          h (ix2 (srow j) ⟨(j 1).val, idx2_lt1 j⟩) * (dis (ix1 (srow j)) * dis (ix1 (drow j))) := by
    rw [scatterAdd_apply, splat_apply, Ideal.ofBits_zero_f32]
    refine congrArg _ (Finset.sum_congr rfl fun j _ => ?_)
    rw [mulf_apply, rowGather_apply wfG _ j hM, broadcastInDim_col_apply, column_colAt hcol (mulf _ _) j, mulf_apply,
      vecGather_apply wfV _ _ hM, vecGather_apply wfV _ _ hM]
    simp only [edgeAt_row]
    rfl
  -- an edge that lands on row (i 0) has that row as its target's row
  have hdrow : ∀ j ∈ Finset.univ.filter (fun j => (rowScatter M E N wfS).resultIdx? j (broadcastInDim ⟨2, ![E, 1]⟩ ![0] hcol dst) = some i),
      dis (ix1 (drow j)) = dis (ix1 ⟨(i 0).val, idx2_lt0 i⟩) := by
    intro j hj
    have hland := ((rowScatter_resultIdx_iff wfS _ j i).mp (Finset.mem_filter.mp hj).2).1
    rw [column_colAt] at hland
    have hnn : 0 ≤ (dst (ix1 ⟨(j 0).val, idx2_lt0 j⟩)).toInt := by rw [hland]; exact Int.natCast_nonneg _
    have hw : broadcastInDim ⟨2, ![E, 1]⟩ ![0] hcol dstW (colAt j) = dst (ix1 ⟨(j 0).val, idx2_lt0 j⟩) := by
      rw [column_colAt]; exact hwrap _ hnn
    have hi : (i 0).val < M := idx2_lt0 i
    refine congrArg (fun r => dis (ix1 r)) (Fin.ext ?_)
    show min (broadcastInDim ⟨2, ![E, 1]⟩ ![0] hcol dstW (colAt j)).toInt.toNat (M - 1) = (i 0).val
    rw [hw, hland, Int.toNat_natCast]
    omega
  -- the node's own term, the bias
  have hs : shapeCast ⟨2, ![M, 1]⟩ dis hcast (colAt i) = dis (ix1 ⟨(i 0).val, idx2_lt0 i⟩) := hcolAt i
  have hbb : shapeCast ⟨2, ![1, N]⟩ b hcastb (rowAt i) = b (ix1 ⟨(i 1).val, idx2_lt1 i⟩) := shapeCast_rowvec_apply b hcastb (rowAt i)
  have hself : broadcastInDim ⟨2, ![M, N]⟩ ![0, 1] hMN (broadcastInDim ⟨2, ![M, 1]⟩ ![0] hM1 (mulf dis dis)) i
      = dis (ix1 ⟨(i 0).val, idx2_lt0 i⟩) * dis (ix1 ⟨(i 0).val, idx2_lt0 i⟩) := by
    rw [broadcastInDim_col_apply, broadcastInDim_keepdims_apply, mulf_apply]
    rfl
  have hbias : broadcastInDim ⟨2, ![M, N]⟩ ![0, 1] h1N (broadcastInDim ⟨2, ![1, N]⟩ ![1] hrow b) i = b (ix1 ⟨(i 1).val, idx2_lt1 i⟩) := by
    rw [broadcastInDim_row_apply, broadcastInDim_rowvec_apply]
    rfl
  simp only [combine]
  rw [addf_apply, addf_apply, mulf_apply]
  -- in the messages' sum every edge landing on the row carries the row's own factor
  have hsum : ∑ j ∈ Finset.univ.filter (fun j => (rowScatter M E N wfS).resultIdx? j (broadcastInDim ⟨2, ![E, 1]⟩ ![0] hcol dst) = some i),
        h (ix2 (srow j) ⟨(j 1).val, idx2_lt1 j⟩) * (dis (ix1 (srow j)) * dis (ix1 (drow j)))
      = ∑ j ∈ Finset.univ.filter (fun j => (rowScatter M E N wfS).resultIdx? j (broadcastInDim ⟨2, ![E, 1]⟩ ![0] hcol dst) = some i),
        h (ix2 (srow j) ⟨(j 1).val, idx2_lt1 j⟩) * (dis (ix1 (srow j)) * dis (ix1 ⟨(i 0).val, idx2_lt0 i⟩)) :=
    Finset.sum_congr rfl fun j hj => by rw [hdrow j hj]
  rw [hA, hB, hs, hbb, hself, hbias, hsum]
  exact layer_law _ c0 cT _ _ _ _

end Layer

end Cert.Gcn.Generic

end
-- ==== Proof.Factors.lean ====
/-
  Every node's factor is a nonnegative extended real other than +∞.

  The degree of a node is a zero, plus a one for every edge that lands on it, plus one: a real number ≥ 1. Its
  reciprocal square root is therefore a nonnegative real.
-/
import proofs.«162121_j80942953660708_2_alg».proof.Proof.Graph
import proofs.«162121_j80942953660708_2_alg».proof.Proof.GenericLayer

noncomputable section

namespace Cert.Gcn

open Idealize.ShloMosaic Cert.ReferenceIdeal Cert.ReferenceIdeal.Facts₀

variable [Cert.ReferenceIdeal.Facts₀]

theorem disOf_nonneg_ne_top (ei : Edges) (v : S50000.Idx) : 0 ≤ disOf ei v ∧ disOf ei v ≠ ⊤ := by
  unfold disOf degOf
  exact Generic.factor_nonneg_ne_top _ _ _ _ _ (fun i => Generic.splat_apply _ _ i) (fun j => Generic.splat_apply _ _ j)
    (fun i => Generic.splat_apply _ _ i) v

end Cert.Gcn

end
-- ==== Proof.EdgeRows.lean ====
/-
  The row scatters, row gathers and vector gather of the two printed programs, read at one index, and their index wrap
  and index columns.

  Both programs scatter [800000, 128] and [800000, 64] rows into [50000, 128] and [50000, 64] arrays, and gather rows
  of such arrays, along an [800000, 1] column of node numbers; one of them also gathers a flat [50000] array. Their
  dimension lists are those of the general records, so each fact proved for every size holds at these records: an
  update lands at row n exactly when the edge's signed word is n with 0 ≤ n < 50000; a gather reads row
  min n⁺ 49999; a non-negative node number passes the wrap by 50000 unchanged; the column at (e, 0) is the entry e.
-/
import proofs.«162121_j80942953660708_2_alg».proof.KernelIdeal
import proofs.«162121_j80942953660708_2_alg».proof.ReferenceIdeal
import proofs.«162121_j80942953660708_2_alg».proof.Proof.LibEdgeRows

namespace Cert.Gcn.EdgeRows

open Idealize.ShloMosaic Idealize.ShloMosaic.ValueIdx Idealize.ShloMosaic.PlainDot

/-! ## The records of the two printed programs -/

section KernelIdeal
variable [Cert.KernelIdeal.Facts₀] {α : Type} {w : ℕ} (idx : IVec Cert.KernelIdeal.S800000x1 w)

/-- Scatter of [800000, 128] rows into [50000, 128]: update (e, c) lands at i exactly when edge e's signed word is i's
    row and c is i's column. -/
theorem kernel_scatter128_resultIdx_iff (j : Cert.KernelIdeal.S800000x128.Idx) (i : Cert.KernelIdeal.S50000x128.Idx) :
    Cert.KernelIdeal.scatter_S50000x128_S800000x1_S800000x128_1_0_0_1.resultIdx? j idx = some i ↔
      (idx (colAt j)).toInt = ((i 0).val : Int) ∧ (j 1).val = (i 1).val :=
  rowScatter_resultIdx_iff _ idx j i

theorem kernel_scatter128_resultIdx (j : Cert.KernelIdeal.S800000x128.Idx) (i : Cert.KernelIdeal.S50000x128.Idx)
    (h : Cert.KernelIdeal.scatter_S50000x128_S800000x1_S800000x128_1_0_0_1.resultIdx? j idx = some i) :
    (idx (colAt j)).toInt = ((i 0).val : Int) ∧ (j 1).val = (i 1).val :=
  (kernel_scatter128_resultIdx_iff idx j i).mp h

/-- The same for [800000, 64] rows into [50000, 64]. -/
theorem kernel_scatter64_resultIdx_iff (j : Cert.KernelIdeal.S800000x64.Idx) (i : Cert.KernelIdeal.S50000x64.Idx) :
    Cert.KernelIdeal.scatter_S50000x64_S800000x1_S800000x64_1_0_0_1.resultIdx? j idx = some i ↔
      (idx (colAt j)).toInt = ((i 0).val : Int) ∧ (j 1).val = (i 1).val :=
  rowScatter_resultIdx_iff _ idx j i

theorem kernel_scatter64_resultIdx (j : Cert.KernelIdeal.S800000x64.Idx) (i : Cert.KernelIdeal.S50000x64.Idx)
    (h : Cert.KernelIdeal.scatter_S50000x64_S800000x1_S800000x64_1_0_0_1.resultIdx? j idx = some i) :
    (idx (colAt j)).toInt = ((i 0).val : Int) ∧ (j 1).val = (i 1).val :=
  (kernel_scatter64_resultIdx_iff idx j i).mp h

/-- Gather of [50000, 128] rows: entry (e, c) is the operand's at row min n⁺ 49999, column c. -/
theorem kernel_gather128_apply (x : Cert.KernelIdeal.S50000x128.Idx → α) (j : Cert.KernelIdeal.S800000x128.Idx) :
    Host.gather Cert.KernelIdeal.gather_S50000x128_S800000x1_S800000x128_1_0_n_n_0_1_1128 x idx j
      = x (ix2 ⟨min (idx (colAt j)).toInt.toNat 49999, by omega⟩ ⟨(j 1).val, idx2_lt1 j⟩) :=
  rowGather_apply _ idx j (by omega) x

/-- The same for [50000, 64] rows. -/
theorem kernel_gather64_apply (x : Cert.KernelIdeal.S50000x64.Idx → α) (j : Cert.KernelIdeal.S800000x64.Idx) :
    Host.gather Cert.KernelIdeal.gather_S50000x64_S800000x1_S800000x64_1_0_n_n_0_1_164 x idx j
      = x (ix2 ⟨min (idx (colAt j)).toInt.toNat 49999, by omega⟩ ⟨(j 1).val, idx2_lt1 j⟩) :=
  rowGather_apply _ idx j (by omega) x

end KernelIdeal

section ReferenceIdeal
variable [Cert.ReferenceIdeal.Facts₀] {α : Type} {w : ℕ} (idx : IVec Cert.ReferenceIdeal.S800000x1 w)

/-- Scatter of [800000, 128] rows into [50000, 128]: update (e, c) lands at i exactly when edge e's signed word is i's
    row and c is i's column. -/
theorem reference_scatter128_resultIdx_iff (j : Cert.ReferenceIdeal.S800000x128.Idx) (i : Cert.ReferenceIdeal.S50000x128.Idx) :
    Cert.ReferenceIdeal.scatter_S50000x128_S800000x1_S800000x128_1_0_0_1.resultIdx? j idx = some i ↔
      (idx (colAt j)).toInt = ((i 0).val : Int) ∧ (j 1).val = (i 1).val :=
  rowScatter_resultIdx_iff _ idx j i

theorem reference_scatter128_resultIdx (j : Cert.ReferenceIdeal.S800000x128.Idx) (i : Cert.ReferenceIdeal.S50000x128.Idx)
    (h : Cert.ReferenceIdeal.scatter_S50000x128_S800000x1_S800000x128_1_0_0_1.resultIdx? j idx = some i) :
    (idx (colAt j)).toInt = ((i 0).val : Int) ∧ (j 1).val = (i 1).val :=
  (reference_scatter128_resultIdx_iff idx j i).mp h

/-- The same for [800000, 64] rows into [50000, 64]. -/
theorem reference_scatter64_resultIdx_iff (j : Cert.ReferenceIdeal.S800000x64.Idx) (i : Cert.ReferenceIdeal.S50000x64.Idx) :
    Cert.ReferenceIdeal.scatter_S50000x64_S800000x1_S800000x64_1_0_0_1.resultIdx? j idx = some i ↔
      (idx (colAt j)).toInt = ((i 0).val : Int) ∧ (j 1).val = (i 1).val :=
  rowScatter_resultIdx_iff _ idx j i

theorem reference_scatter64_resultIdx (j : Cert.ReferenceIdeal.S800000x64.Idx) (i : Cert.ReferenceIdeal.S50000x64.Idx)
    (h : Cert.ReferenceIdeal.scatter_S50000x64_S800000x1_S800000x64_1_0_0_1.resultIdx? j idx = some i) :
    (idx (colAt j)).toInt = ((i 0).val : Int) ∧ (j 1).val = (i 1).val :=
  (reference_scatter64_resultIdx_iff idx j i).mp h

/-- Gather of [50000, 128] rows: entry (e, c) is the operand's at row min n⁺ 49999, column c. -/
theorem reference_gather128_apply (x : Cert.ReferenceIdeal.S50000x128.Idx → α) (j : Cert.ReferenceIdeal.S800000x128.Idx) :
    Host.gather Cert.ReferenceIdeal.gather_S50000x128_S800000x1_S800000x128_1_0_n_n_0_1_1128 x idx j
      = x (ix2 ⟨min (idx (colAt j)).toInt.toNat 49999, by omega⟩ ⟨(j 1).val, idx2_lt1 j⟩) :=
  rowGather_apply _ idx j (by omega) x

/-- The same for [50000, 64] rows. -/
theorem reference_gather64_apply (x : Cert.ReferenceIdeal.S50000x64.Idx → α) (j : Cert.ReferenceIdeal.S800000x64.Idx) :
    Host.gather Cert.ReferenceIdeal.gather_S50000x64_S800000x1_S800000x64_1_0_n_n_0_1_164 x idx j
      = x (ix2 ⟨min (idx (colAt j)).toInt.toNat 49999, by omega⟩ ⟨(j 1).val, idx2_lt1 j⟩) :=
  rowGather_apply _ idx j (by omega) x

/-- Gather of a flat [50000] operand: entry e is the operand's at min n⁺ 49999. -/
theorem reference_gather1_apply (x : Cert.ReferenceIdeal.S50000.Idx → α) (j : Cert.ReferenceIdeal.S800000.Idx) :
    Host.gather Cert.ReferenceIdeal.gather_S50000_S800000x1_S800000_n_0_n_n_0_1_1 x idx j
      = x (ix1 ⟨min (idx (edgeAt j)).toInt.toNat 49999, by omega⟩) :=
  vecGather_apply _ idx j (by omega) x

end ReferenceIdeal

/-! ## The index wrap and the index column at the two printed programs' shapes and side conditions -/

section KernelIdealWrap
variable [Cert.KernelIdeal.Facts₀] {α : Type}

/-- Node numbers of 800000 edges, raised by 50000 where negative: a non-negative word is unchanged. -/
theorem kernel_wrap_of_nonneg (v : IVec Cert.KernelIdeal.S800000 32) (e : Cert.KernelIdeal.S800000.Idx) (hv : 0 ≤ (v e).toInt) :
    select (cmpi .slt v (broadcastInDim Cert.KernelIdeal.S800000 ![] Cert.KernelIdeal.Facts₀.bcast_S_S800000 (constantI Cert.KernelIdeal.S_ 32 0#32)))
      (addi v (broadcastInDim Cert.KernelIdeal.S800000 ![] Cert.KernelIdeal.Facts₀.bcast_S_S800000 (constantI Cert.KernelIdeal.S_ 32 50000#32))) v e = v e :=
  wrap_of_nonneg _ _ v e hv

/-- A negative word becomes the word plus 50000. -/
theorem kernel_wrap_of_neg (v : IVec Cert.KernelIdeal.S800000 32) (e : Cert.KernelIdeal.S800000.Idx) (hv : (v e).toInt < 0) :
    select (cmpi .slt v (broadcastInDim Cert.KernelIdeal.S800000 ![] Cert.KernelIdeal.Facts₀.bcast_S_S800000 (constantI Cert.KernelIdeal.S_ 32 0#32)))
      (addi v (broadcastInDim Cert.KernelIdeal.S800000 ![] Cert.KernelIdeal.Facts₀.bcast_S_S800000 (constantI Cert.KernelIdeal.S_ 32 50000#32))) v e
      = v e + 50000#32 :=
  wrap_of_neg _ _ v e hv

/-- The [800000, 1] column of an [800000] array, at the row of an [800000, 128] index. -/
theorem kernel_column_colAt128 (v : Cert.KernelIdeal.S800000.Idx → α) (j : Cert.KernelIdeal.S800000x128.Idx) :
    broadcastInDim Cert.KernelIdeal.S800000x1 ![0] Cert.KernelIdeal.Facts₀.bcast_S800000_S800000x1_0 v (colAt j)
      = v (ix1 ⟨(j 0).val, idx2_lt0 j⟩) :=
  column_colAt _ v j

/-- The same at the row of an [800000, 64] index. -/
theorem kernel_column_colAt64 (v : Cert.KernelIdeal.S800000.Idx → α) (j : Cert.KernelIdeal.S800000x64.Idx) :
    broadcastInDim Cert.KernelIdeal.S800000x1 ![0] Cert.KernelIdeal.Facts₀.bcast_S800000_S800000x1_0 v (colAt j)
      = v (ix1 ⟨(j 0).val, idx2_lt0 j⟩) :=
  column_colAt _ v j

/-- The same at a flat index. -/
theorem kernel_column_edgeAt (v : Cert.KernelIdeal.S800000.Idx → α) (j : Cert.KernelIdeal.S800000.Idx) :
    broadcastInDim Cert.KernelIdeal.S800000x1 ![0] Cert.KernelIdeal.Facts₀.bcast_S800000_S800000x1_0 v (edgeAt j) = v j :=
  column_edgeAt _ v j

end KernelIdealWrap

section ReferenceIdealWrap
variable [Cert.ReferenceIdeal.Facts₀] {α : Type}

/-- Node numbers of 800000 edges, raised by 50000 where negative: a non-negative word is unchanged. -/
theorem reference_wrap_of_nonneg (v : IVec Cert.ReferenceIdeal.S800000 32) (e : Cert.ReferenceIdeal.S800000.Idx) (hv : 0 ≤ (v e).toInt) :
    select (cmpi .slt v (broadcastInDim Cert.ReferenceIdeal.S800000 ![] Cert.ReferenceIdeal.Facts₀.bcast_S_S800000 (constantI Cert.ReferenceIdeal.S_ 32 0#32)))
      (addi v (broadcastInDim Cert.ReferenceIdeal.S800000 ![] Cert.ReferenceIdeal.Facts₀.bcast_S_S800000 (constantI Cert.ReferenceIdeal.S_ 32 50000#32))) v e = v e :=
  wrap_of_nonneg _ _ v e hv

/-- A negative word becomes the word plus 50000. -/
theorem reference_wrap_of_neg (v : IVec Cert.ReferenceIdeal.S800000 32) (e : Cert.ReferenceIdeal.S800000.Idx) (hv : (v e).toInt < 0) :
    select (cmpi .slt v (broadcastInDim Cert.ReferenceIdeal.S800000 ![] Cert.ReferenceIdeal.Facts₀.bcast_S_S800000 (constantI Cert.ReferenceIdeal.S_ 32 0#32)))
      (addi v (broadcastInDim Cert.ReferenceIdeal.S800000 ![] Cert.ReferenceIdeal.Facts₀.bcast_S_S800000 (constantI Cert.ReferenceIdeal.S_ 32 50000#32))) v e
      = v e + 50000#32 :=
  wrap_of_neg _ _ v e hv

/-- The [800000, 1] column of an [800000] array, at the row of an [800000, 128] index. -/
theorem reference_column_colAt128 (v : Cert.ReferenceIdeal.S800000.Idx → α) (j : Cert.ReferenceIdeal.S800000x128.Idx) :
    broadcastInDim Cert.ReferenceIdeal.S800000x1 ![0] Cert.ReferenceIdeal.Facts₀.bcast_S800000_S800000x1_0 v (colAt j)
      = v (ix1 ⟨(j 0).val, idx2_lt0 j⟩) :=
  column_colAt _ v j

/-- The same at the row of an [800000, 64] index. -/
theorem reference_column_colAt64 (v : Cert.ReferenceIdeal.S800000.Idx → α) (j : Cert.ReferenceIdeal.S800000x64.Idx) :
    broadcastInDim Cert.ReferenceIdeal.S800000x1 ![0] Cert.ReferenceIdeal.Facts₀.bcast_S800000_S800000x1_0 v (colAt j)
      = v (ix1 ⟨(j 0).val, idx2_lt0 j⟩) :=
  column_colAt _ v j

/-- The same at a flat index. -/
theorem reference_column_edgeAt (v : Cert.ReferenceIdeal.S800000.Idx → α) (j : Cert.ReferenceIdeal.S800000.Idx) :
    broadcastInDim Cert.ReferenceIdeal.S800000x1 ![0] Cert.ReferenceIdeal.Facts₀.bcast_S800000_S800000x1_0 v (edgeAt j) = v j :=
  column_edgeAt _ v j

end ReferenceIdealWrap

end Cert.Gcn.EdgeRows
-- ==== Proof.LayerEq.lean ====
/-
  The network computed with rows scaled on the nodes equals the network computed with messages scaled on the edges.

  Three steps. The rows of X·W scaled by the node factors are the host's product, entry by entry, times the row's
  factor: the host's product at (r, c) is the sum over k of X (r, k) · W (k, c). Given that, one layer in the first
  arrangement equals the same layer in the second: this holds for every number of nodes, edges and columns, and is
  read here at 50000 nodes, 800000 edges, and 128 or 64 columns; flooring at zero is the same operation on both sides.
  Last, the four layers are chained: each stage's input is the previous stage's output, equal by the previous step.
-/
import Idealize.ShloMosaic.Lib.ValueIdx
import Idealize.ShloMosaic.PureOps.Ideal.Laws
import proofs.«162121_j80942953660708_2_alg».proof.Proof.Layers
import proofs.«162121_j80942953660708_2_alg».proof.Proof.Factors
import proofs.«162121_j80942953660708_2_alg».proof.Proof.GenericLayer
import proofs.«162121_j80942953660708_2_alg».proof.Proof.EdgeRows
import proofs.«162121_j80942953660708_2_alg».proof.Proof.LibRowForms

noncomputable section

open scoped BigOperators

namespace Cert.Gcn

open Idealize.ShloMosaic Idealize.ShloMosaic.ValueIdx Idealize.ShloMosaic.PlainDot Cert.Gcn.EdgeRows
  Cert.ReferenceIdeal Cert.ReferenceIdeal.Facts₀

variable [Cert.ReferenceIdeal.Facts₀]

/-! ## The scaled product is the host's product, scaled -/

/-- Rows of X·W scaled by their factors, for every M, K, N and every record that spells the plain product: entry (r, c)
    of the host's product is the sum over k of X (r, k) · W (k, c). -/
theorem Generic.scaledProduct_eq_dot {M K N : ℕ} (D : DotDims ⟨2, ![M, K]⟩ ⟨2, ![K, N]⟩ ⟨2, ![M, N]⟩) (hr : D.contr.rank = 1)
    (hs : D.contr.size ⟨0, by omega⟩ = K)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (X : FVec Ideal ⟨2, ![M, K]⟩ .f32) (W : FVec Ideal ⟨2, ![K, N]⟩ .f32) (s : (⟨2, ![M, 1]⟩ : Shape).Idx → EReal) :
    scaledProduct X W s = fun i => Host.dotGeneral (F := Ideal) D none X W i * s (colAt i) := by
  funext i
  simp only [Host.dotGeneral]
  rw [Ideal.dotGeneral_apply, sum_contr_eq D hr hs hl0 hl1 hr0 hr1]
  rfl

/-- 128 features to 128 columns. -/
theorem scaledProduct_dot_128_128 (X : FVec Ideal S50000x128 .f32) (W : FVec Ideal S128x128 .f32) (s : S50000x1.Idx → EReal) :
    scaledProduct X W s = fun i => Host.dotGeneral (F := Ideal) dot_S50000x128_S128x128_S50000x128_1_0_0_1_n_n none X W i * s (colAt i) :=
  Generic.scaledProduct_eq_dot _ rfl rfl (fun _ _ => rfl) (fun _ _ => rfl) (fun _ _ => rfl) (fun _ _ => rfl) X W s

/-- 128 features to 64 columns. -/
theorem scaledProduct_dot_128_64 (X : FVec Ideal S50000x128 .f32) (W : FVec Ideal S128x64 .f32) (s : S50000x1.Idx → EReal) :
    scaledProduct X W s = fun i => Host.dotGeneral (F := Ideal) dot_S50000x128_S128x64_S50000x64_1_0_0_1_n_n none X W i * s (colAt i) :=
  Generic.scaledProduct_eq_dot _ rfl rfl (fun _ _ => rfl) (fun _ _ => rfl) (fun _ _ => rfl) (fun _ _ => rfl) X W s

/-- 64 features to 128 columns. -/
theorem scaledProduct_dot_64_128 (X : FVec Ideal S50000x64 .f32) (W : FVec Ideal S64x128 .f32) (s : S50000x1.Idx → EReal) :
    scaledProduct X W s = fun i => Host.dotGeneral (F := Ideal) dot_S50000x64_S64x128_S50000x128_1_0_0_1_n_n none X W i * s (colAt i) :=
  Generic.scaledProduct_eq_dot _ rfl rfl (fun _ _ => rfl) (fun _ _ => rfl) (fun _ _ => rfl) (fun _ _ => rfl) X W s

/-! ## One layer: rows scaled on the nodes = messages scaled on the edges

  With H the host's product X·W, the scaled rows are H (r, q) · c r; the two arrangements of the layer built on them
  agree for every number of nodes, edges and columns, hence at 50000 nodes, 800000 edges and 128 or 64 columns. The
  factors are nonnegative and not +∞, and an edge that lands on a node has a non-negative target word, which wrapping
  leaves alone. -/

/-- 128 features to 128 columns. -/
theorem nodeLayer128_eq_edge_128 (ei : Edges) (X : FVec Ideal S50000x128 .f32) (W : FVec Ideal S128x128 .f32) (b : FVec Ideal S128 .f32) :
    nodeLayer128 ei X W b = edgeLayer128 ei (Host.dotGeneral (F := Ideal) dot_S50000x128_S128x128_S50000x128_1_0_0_1_n_n none X W) b := by
  unfold nodeLayer128
  rw [scaledProduct_dot_128_128]
  unfold edgeLayer128 neighbourSum128 disCol srcCol dstCol asCol
  exact Generic.node_eq_edge (by decide : 0 < 50000) _ _ _ _ _ _ _ _ _ _ _ _ _ (disOf ei) (disOf_nonneg_ne_top ei)
    (wrapNeg (srcOf ei)) (dstOf ei) (wrapNeg (dstOf ei)) (fun e he => reference_wrap_of_nonneg _ e he)
    (Host.dotGeneral (F := Ideal) dot_S50000x128_S128x128_S50000x128_1_0_0_1_n_n none X W) b

/-- 64 features to 128 columns. -/
theorem nodeLayer128_eq_edge_64 (ei : Edges) (X : FVec Ideal S50000x64 .f32) (W : FVec Ideal S64x128 .f32) (b : FVec Ideal S128 .f32) :
    nodeLayer128 ei X W b = edgeLayer128 ei (Host.dotGeneral (F := Ideal) dot_S50000x64_S64x128_S50000x128_1_0_0_1_n_n none X W) b := by
  unfold nodeLayer128
  rw [scaledProduct_dot_64_128]
  unfold edgeLayer128 neighbourSum128 disCol srcCol dstCol asCol
  exact Generic.node_eq_edge (by decide : 0 < 50000) _ _ _ _ _ _ _ _ _ _ _ _ _ (disOf ei) (disOf_nonneg_ne_top ei)
    (wrapNeg (srcOf ei)) (dstOf ei) (wrapNeg (dstOf ei)) (fun e he => reference_wrap_of_nonneg _ e he)
    (Host.dotGeneral (F := Ideal) dot_S50000x64_S64x128_S50000x128_1_0_0_1_n_n none X W) b

/-- 128 features to 64 columns. -/
theorem nodeLayer64_eq_edge (ei : Edges) (X : FVec Ideal S50000x128 .f32) (W : FVec Ideal S128x64 .f32) (b : FVec Ideal S64 .f32) :
    nodeLayer64 ei X W b = edgeLayer64 ei (Host.dotGeneral (F := Ideal) dot_S50000x128_S128x64_S50000x64_1_0_0_1_n_n none X W) b := by
  unfold nodeLayer64
  rw [scaledProduct_dot_128_64]
  unfold edgeLayer64 neighbourSum64 disCol srcCol dstCol asCol
  exact Generic.node_eq_edge (by decide : 0 < 50000) _ _ _ _ _ _ _ _ _ _ _ _ _ (disOf ei) (disOf_nonneg_ne_top ei)
    (wrapNeg (srcOf ei)) (dstOf ei) (wrapNeg (dstOf ei)) (fun e he => reference_wrap_of_nonneg _ e he)
    (Host.dotGeneral (F := Ideal) dot_S50000x128_S128x64_S50000x64_1_0_0_1_n_n none X W) b

/-! ## The rectifier

  Flooring a layer's entries at zero is the entrywise maximum with the zero constant, whose value is the real number 0. -/

/-- For every M and N: the floored combination is the maximum of the combination with the zero constant spread over the
    shape. -/
theorem Generic.combineRelu_eq {M N : ℕ} (hz : (⟨0, ![]⟩ : Shape).BroadcastsInDim ⟨2, ![M, N]⟩ (![] : Fin 0 → Fin 2))
    (A P : (⟨2, ![M, N]⟩ : Shape).Idx → EReal) (s : (⟨2, ![M, 1]⟩ : Shape).Idx → EReal) (b : (⟨2, ![1, N]⟩ : Shape).Idx → EReal) :
    combineRelu A P s b
      = maximumf (F := Ideal) (φ := .f32) (combine A P s b)
          (broadcastInDim ⟨2, ![M, N]⟩ ![] hz (constant (F := Ideal) ⟨0, ![]⟩ .f32 0x00000000#32)) := by
  funext i
  rw [maximumf_apply, Generic.splat_apply, Ideal.ofBits_zero_f32]
  rfl

/-- The floored layer is the rectifier of the layer. -/
theorem nodeLayerRelu128_eq_relu {K : ℕ} (ei : Edges) (X : (⟨2, ![50000, K]⟩ : Shape).Idx → EReal)
    (W : (⟨2, ![K, 128]⟩ : Shape).Idx → EReal) (b : FVec Ideal S128 .f32) :
    nodeLayerRelu128 ei X W b = relu128 (nodeLayer128 ei X W b) := by
  unfold nodeLayerRelu128 nodeLayer128 relu128
  exact Generic.combineRelu_eq _ _ _ _ _

/-- 128 features to 128 columns, floored. -/
theorem nodeLayerRelu128_eq_edge_128 (ei : Edges) (X : FVec Ideal S50000x128 .f32) (W : FVec Ideal S128x128 .f32) (b : FVec Ideal S128 .f32) :
    nodeLayerRelu128 ei X W b
      = relu128 (edgeLayer128 ei (Host.dotGeneral (F := Ideal) dot_S50000x128_S128x128_S50000x128_1_0_0_1_n_n none X W) b) := by
  rw [nodeLayerRelu128_eq_relu, nodeLayer128_eq_edge_128]

/-- 64 features to 128 columns, floored. -/
theorem nodeLayerRelu128_eq_edge_64 (ei : Edges) (X : FVec Ideal S50000x64 .f32) (W : FVec Ideal S64x128 .f32) (b : FVec Ideal S128 .f32) :
    nodeLayerRelu128 ei X W b
      = relu128 (edgeLayer128 ei (Host.dotGeneral (F := Ideal) dot_S50000x64_S64x128_S50000x128_1_0_0_1_n_n none X W) b) := by
  rw [nodeLayerRelu128_eq_relu, nodeLayer128_eq_edge_64]

/-! ## The network: the four stages agree, one after the other -/

section Network

variable (x : FVec Ideal S50000x128 .f32) (ei : Edges)
  (W1 : FVec Ideal S128x128 .f32) (b1 : FVec Ideal S128 .f32) (W2 : FVec Ideal S128x64 .f32) (b2 : FVec Ideal S64 .f32)
  (W3 : FVec Ideal S64x128 .f32) (b3 : FVec Ideal S128 .f32) (W4 : FVec Ideal S128x128 .f32) (b4 : FVec Ideal S128 .f32)

/-- The hidden features. -/
theorem nodeH1_eq_edgeH1 : nodeH1 x ei W1 b1 = edgeH1 x ei W1 b1 := by
  unfold nodeH1 edgeH1
  exact nodeLayerRelu128_eq_edge_128 ei x W1 b1

/-- The latent features. -/
theorem nodeZ_eq_edgeZ : nodeZ x ei W1 b1 W2 b2 = edgeZ x ei W1 b1 W2 b2 := by
  unfold nodeZ edgeZ
  rw [nodeH1_eq_edgeH1]
  exact nodeLayer64_eq_edge ei (edgeH1 x ei W1 b1) W2 b2

/-- The decoder's hidden features. -/
theorem nodeH2_eq_edgeH2 : nodeH2 x ei W1 b1 W2 b2 W3 b3 = edgeH2 x ei W1 b1 W2 b2 W3 b3 := by
  unfold nodeH2 edgeH2
  rw [nodeZ_eq_edgeZ]
  exact nodeLayerRelu128_eq_edge_64 ei (edgeZ x ei W1 b1 W2 b2) W3 b3

/-- The output. -/
theorem nodeX_eq_edgeX : nodeX x ei W1 b1 W2 b2 W3 b3 W4 b4 = edgeX x ei W1 b1 W2 b2 W3 b3 W4 b4 := by
  unfold nodeX edgeX
  rw [nodeH2_eq_edgeH2]
  exact nodeLayer128_eq_edge_128 ei (edgeH2 x ei W1 b1 W2 b2 W3 b3) W4 b4

end Network

end Cert.Gcn

end
-- ==== Proof.lean ====
/-
  The certificate of a four-layer graph autoencoder: node features through two graph convolutions to latent features, a
  mean pooling of the latent features over graphs, and two more convolutions back to the feature width.

  The kernel program scales each node's row of X·W by the node's factor c = 1/√(degree + 1) before the rows are
  gathered along the edges' sources and summed into the edges' targets, and scales the sum (together with the node's own
  row) by c once more afterwards; the reference scales every message by both end points' factors and adds the self-loop
  term c². A factor is a nonnegative real, so it distributes over the sum of a node's incoming messages, and the two
  arrangements of a layer are the same extended reals entry by entry (GenericLayer.lean, for every size; LayerEq.lean at
  this network's shapes); format changes are the identity on the extended reals. The pooling is the same operations
  on both sides. Each program's run names its three results as those compositions of the argument arrays: the
  kernel's through the contents at its sixteen segment boundaries (KernelRun.lean, KernelValue.lean, one closed form per
  region in Region0.lean … Region7.lean), the reference's from its operations' composed term (RefValue.lean).
-/
import proofs.«162121_j80942953660708_2_alg».proof.Defs
import proofs.«162121_j80942953660708_2_alg».proof.Proof.Gen.Kernel
import proofs.«162121_j80942953660708_2_alg».proof.Proof.Gen.Kernel.Skeleton
import proofs.«162121_j80942953660708_2_alg».proof.Proof.Gen.Kernel.Launch
import proofs.«162121_j80942953660708_2_alg».proof.Proof.Gen.Kernel.Points
import proofs.«162121_j80942953660708_2_alg».proof.Proof.Gen.Kernel.Frame
import proofs.«162121_j80942953660708_2_alg».proof.Proof.Gen.KernelIdeal
import proofs.«162121_j80942953660708_2_alg».proof.Proof.Gen.KernelIdeal.Skeleton
import proofs.«162121_j80942953660708_2_alg».proof.Proof.Gen.KernelIdeal.Launch
import proofs.«162121_j80942953660708_2_alg».proof.Proof.Gen.KernelIdeal.Points
import proofs.«162121_j80942953660708_2_alg».proof.Proof.Gen.KernelIdeal.Frame
import proofs.«162121_j80942953660708_2_alg».proof.Proof.Gen.ReferenceIdeal
import proofs.«162121_j80942953660708_2_alg».proof.Proof.Gen.ReferenceIdeal.Run
import proofs.«162121_j80942953660708_2_alg».proof.Proof.Gen.Pre_finite_inputs
import proofs.«162121_j80942953660708_2_alg».proof.Proof.KernelRun
import proofs.«162121_j80942953660708_2_alg».proof.Proof.KernelValue
import proofs.«162121_j80942953660708_2_alg».proof.Proof.RefValue
import proofs.«162121_j80942953660708_2_alg».proof.Proof.LayerEq
import Idealize.ShloMosaic.Adequacy
import Idealize.ShloMosaic.Init

set_option maxRecDepth 16384

noncomputable section

namespace Cert.Proof

open Idealize.ShloMosaic Idealize.ShloMosaic.TcCoe Idealize.SL.Sem

/-- The word-level kernel runs and leaves its arguments as they were. -/
theorem frame_kernel : Cert.frame_Kernel := fun m ρ _ => Cert.Kernel.Gen.frame m ρ

/-- So does the kernel read on the extended reals. -/
theorem frame_kernelIdeal : Cert.frame_KernelIdeal := fun m ρ _ => Cert.KernelIdeal.Gen.frame m ρ

/-- So does the reference: its run with the three results dropped. -/
theorem frame_referenceIdeal : Cert.frame_ReferenceIdeal := fun m ρ _ =>
  (θ_run Cert.ReferenceIdeal.defs _ _).mono (fun _ h c => (h c).2.2.2) (Cert.ReferenceIdeal.Value.run (F := Ideal) m ρ)

/-- From memories that agree on the arguments both programs end with the network's three results: the kernel's are
    the arrangement with rows scaled on the nodes, the reference's the arrangement with messages scaled on the edges,
    and the two arrangements agree. -/
theorem algebraic : Cert.algebraic_KernelIdeal_ReferenceIdeal := by
  intro m ρ m' ρ' _ hagree
  refine ⟨
    fun c => Cert.Gcn.nodeX (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8))
      (m ((c.tc : Thread Cert.KernelIdeal.nD Cert.KernelIdeal.τ).loc Cert.KernelIdeal.main_arg9))
      (m ((c.tc : Thread Cert.KernelIdeal.nD Cert.KernelIdeal.τ).loc Cert.KernelIdeal.main_arg10)),
    fun c => Cert.Gcn.nodeZ (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6)),
    fun c => Cert.Gcn.pool (m ((c.tc : Thread Cert.KernelIdeal.nD Cert.KernelIdeal.τ).loc Cert.KernelIdeal.main_arg2))
      (Cert.Gcn.nodeZ (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
        (m ((c.tc : Thread Cert.KernelIdeal.nD Cert.KernelIdeal.τ).loc Cert.KernelIdeal.main_arg5))
        (m ((c.tc : Thread Cert.KernelIdeal.nD Cert.KernelIdeal.τ).loc Cert.KernelIdeal.main_arg6))), ?_, ?_⟩
  · -- the kernel: every buffer ends at the last boundary's contents, which KernelValue.lean reads
    refine Cert.KernelIdeal.ValueRun.run_to_last_fold m ρ (fun s h c => ?_)
    have e := fun (b : Ref Cert.KernelIdeal.sig .tc) (hb : ¬ (Proc.devRef .tc b : DevRef Cert.KernelIdeal.τ Cert.KernelIdeal.sig).isScoped) =>
      Cert.KernelIdeal.ValueRun.ends_at m ρ b hb (h c)
    exact ⟨(e Cert.KernelIdeal.main_v82 (by decide)).trans (Cert.KernelIdeal.ValueRun.last_fold_output m ρ c),
      (e Cert.KernelIdeal.main_v40 (by decide)).trans (Cert.KernelIdeal.ValueRun.last_fold_latent m ρ c),
      (e Cert.KernelIdeal.main_v52 (by decide)).trans (Cert.KernelIdeal.ValueRun.last_fold_pooled m ρ c),
      (e Cert.KernelIdeal.main_arg0 (by decide)).trans (Cert.KernelIdeal.Gen.W16_main_arg0 m ρ c),
      (e Cert.KernelIdeal.main_arg1 (by decide)).trans (Cert.KernelIdeal.Gen.W16_main_arg1 m ρ c),
      (e Cert.KernelIdeal.main_arg2 (by decide)).trans (Cert.KernelIdeal.Gen.W16_main_arg2 m ρ c),
      (e Cert.KernelIdeal.main_arg3 (by decide)).trans (Cert.KernelIdeal.Gen.W16_main_arg3 m ρ c),
      (e Cert.KernelIdeal.main_arg4 (by decide)).trans (Cert.KernelIdeal.Gen.W16_main_arg4 m ρ c),
      (e Cert.KernelIdeal.main_arg5 (by decide)).trans (Cert.KernelIdeal.Gen.W16_main_arg5 m ρ c),
      (e Cert.KernelIdeal.main_arg6 (by decide)).trans (Cert.KernelIdeal.Gen.W16_main_arg6 m ρ c),
      (e Cert.KernelIdeal.main_arg7 (by decide)).trans (Cert.KernelIdeal.Gen.W16_main_arg7 m ρ c),
      (e Cert.KernelIdeal.main_arg8 (by decide)).trans (Cert.KernelIdeal.Gen.W16_main_arg8 m ρ c),
      (e Cert.KernelIdeal.main_arg9 (by decide)).trans (Cert.KernelIdeal.Gen.W16_main_arg9 m ρ c),
      (e Cert.KernelIdeal.main_arg10 (by decide)).trans (Cert.KernelIdeal.Gen.W16_main_arg10 m ρ c)⟩
  · -- the reference: its composed terms are the other arrangement, of arguments that agree with the kernel's
    refine (θ_run Cert.ReferenceIdeal.defs _ _).mono
      (fun _ h c => ⟨(h c).1.trans ?_, (h c).2.1.trans ?_, (h c).2.2.1.trans ?_, (h c).2.2.2⟩)
      (Cert.ReferenceIdeal.Value.run (F := Ideal) m' ρ')
    all_goals obtain ⟨a0, a1, a2, a3, a4, a5, a6, a7, a8, a9, a10⟩ := hagree c
    · rw [show Cert.ReferenceIdeal.Value.res_main_v172 m' c = _ from Cert.ReferenceIdeal.RefValue.out0_eq m' c,
        a0, a1, a3, a4, a5, a6, a7, a8, a9, a10]
      exact (Cert.Gcn.nodeX_eq_edgeX _ _ _ _ _ _ _ _ _ _).symm
    · rw [show Cert.ReferenceIdeal.Value.res_main_v85 m' c = _ from Cert.ReferenceIdeal.RefValue.out1_eq m' c,
        a0, a1, a3, a4, a5, a6]
      exact (Cert.Gcn.nodeZ_eq_edgeZ _ _ _ _ _ _).symm
    · rw [show Cert.ReferenceIdeal.Value.res_main_v97 m' c = _ from Cert.ReferenceIdeal.RefValue.out2_eq m' c,
        a0, a1, a2, a3, a4, a5, a6]
      exact congrArg _ (Cert.Gcn.nodeZ_eq_edgeZ _ _ _ _ _ _).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
